-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8192x1024 : Shape := ⟨3, ![1, 8192, 1024]⟩
abbrev S1024x1024 : Shape := ⟨2, ![1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x8192x1024 .f32) (main_arg1 : FVec F S1024x1024 .f32) (main_arg2 : FVec F S1024x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1x8192x1024 : Shape := ⟨3, ![1, 8192, 1024]⟩
abbrev S1024x1024 : Shape := ⟨2, ![1024, 1024]⟩
abbrev S8192x1024 : Shape := ⟨2, ![8192, 1024]⟩
abbrev S512x1024 : Shape := ⟨2, ![512, 1024]⟩
abbrev S8192x8192 : Shape := ⟨2, ![8192, 8192]⟩
abbrev S128x1024 : Shape := ⟨2, ![128, 1024]⟩
abbrev S8192x128 : Shape := ⟨2, ![8192, 128]⟩
abbrev S1x128 : Shape := ⟨2, ![1, 128]⟩
abbrev S1024x128 : Shape := ⟨2, ![1024, 128]⟩
abbrev S512x128 : Shape := ⟨2, ![512, 128]⟩
abbrev S128 : Shape := ⟨1, ![128]⟩
abbrev S128x1 : Shape := ⟨2, ![128, 1]⟩
abbrev S1x8192x8192 : Shape := ⟨3, ![1, 8192, 8192]⟩

abbrev nBuf : Space → Nat
  | .hbm => 14
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S8192x1024, .bf16⟩
  | .hbm, ⟨9, _⟩ => ⟨S8192x1024, .bf16⟩
  | .hbm, ⟨10, _⟩ => ⟨S8192x8192, .f32⟩
  | .hbm, ⟨11, _⟩ => ⟨S8192x1024, .f32⟩
  | .hbm, ⟨12, _⟩ => ⟨S1x8192x8192, .f32⟩
  | .hbm, ⟨13, _⟩ => ⟨S1x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S8192x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .f32⟩
  | .local _ .vmem, ⟨12, _⟩ => ⟨S128x1024, .f32⟩
  | .local _ .vmem, ⟨13, _⟩ => ⟨S8192x128, .f32⟩
  | .local _ .vmem, ⟨14, _⟩ => ⟨S8192x128, .f32⟩
  | .local _ .vmem, ⟨15, _⟩ => ⟨S128x1024, .f32⟩
  | .local _ .vmem, ⟨16, _⟩ => ⟨S128x1024, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![64], ![false]⟩

@[reducible] def k1_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k1_mult1 (k1_t1 : Fin k1_t1_loop.trips) : BitVec 32 :=
  let c0_i32 : BitVec 32 := 0#32
  let c1_i32 : BitVec 32 := 1#32
  let arg9 : BitVec 32 := Scf.iv c0_i32 c1_i32 k1_t1
  let c512_i32 : BitVec 32 := 512#32
  let v24 : BitVec 32 := Scalar.muli arg9 c512_i32
  v24
def k1_off1 (k1_t1 : Fin k1_t1_loop.trips) : Fin 2 → Nat :=
  let c0_i32 : BitVec 32 := 0#32
  let c1_i32 : BitVec 32 := 1#32
  let arg9 : BitVec 32 := Scf.iv c0_i32 c1_i32 k1_t1
  let c512_i32 : BitVec 32 := 512#32
  let v24 : BitVec 32 := Scalar.muli arg9 c512_i32
  let v25 : BitVec 32 := v24
  let v26 : Index := Scalar.indexCast v25
  let c0_21 : Index := 0#32
  ![v26.toNat, 0]
def k1_off2 (k1_t1 : Fin k1_t1_loop.trips) : Fin 2 → Nat :=
  let c0_i32 : BitVec 32 := 0#32
  let c1_i32 : BitVec 32 := 1#32
  let arg9 : BitVec 32 := Scf.iv c0_i32 c1_i32 k1_t1
  let c512_i32 : BitVec 32 := 512#32
  let v24 : BitVec 32 := Scalar.muli arg9 c512_i32
  let v25 : BitVec 32 := v24
  let v33 : Index := Scalar.indexCast v25
  let c0_25 : Index := 0#32
  ![v33.toNat, 0]
@[reducible] def k1_t2_loop : Scf.Loop 32 :=
  let c0_i32_11 : BitVec 32 := 0#32
  let c16_i32_12 : BitVec 32 := 16#32
  let v16 : BitVec 32 := Scalar.addi c0_i32_11 c16_i32_12
  let c1_i32_13 : BitVec 32 := 1#32
  ⟨c0_i32_11, v16, c1_i32_13⟩
def k1_mult2 (k1_t2 : Fin k1_t2_loop.trips) : BitVec 32 :=
  let c0_i32_11 : BitVec 32 := 0#32
  let c1_i32_13 : BitVec 32 := 1#32
  let arg9 : BitVec 32 := Scf.iv c0_i32_11 c1_i32_13 k1_t2
  let c512_i32 : BitVec 32 := 512#32
  let v24 : BitVec 32 := Scalar.muli arg9 c512_i32
  v24
def k1_off3 (k1_t2 : Fin k1_t2_loop.trips) : Fin 2 → Nat :=
  let c0_i32_11 : BitVec 32 := 0#32
  let c1_i32_13 : BitVec 32 := 1#32
  let arg9 : BitVec 32 := Scf.iv c0_i32_11 c1_i32_13 k1_t2
  let c512_i32 : BitVec 32 := 512#32
  let v24 : BitVec 32 := Scalar.muli arg9 c512_i32
  let v25 : BitVec 32 := v24
  let v26 : Index := Scalar.indexCast v25
  let c0_21 : Index := 0#32
  ![v26.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8192x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1x8192x1024_S8192x1024 : S1x8192x1024.ShapeCasts S8192x1024
  transposes_S1024x1024_S1024x1024_1_0 : S1024x1024.Transposes [1, 0] S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  transposes_S128x1024_p1_0_S1024x128 : S128x1024.Transposes [1, 0] S1024x128
  h_S512x128 : 0 < S512x128.numel
  reduces_S512x128_S128 : S512x128.Reduces [0] S128
  shapeCasts_S128_S1x128 : S128.ShapeCasts S1x128
  broadcasts_S1x128_S512x128 : S1x128.Broadcasts S512x128
  shapeCasts_S512x128_S512x128 : S512x128.ShapeCasts S512x128
  transposes_S1x128_p1_0_S128x1 : S1x128.Transposes [1, 0] S128x1
  broadcasts_S128x1_S128x1024 : S128x1.Broadcasts S128x1024
  bcast_S8192x8192_S1x8192x8192_1_2 : S8192x8192.BroadcastsInDim S1x8192x8192 (![1, 2] : Fin 2 → Fin S1x8192x8192.rank)
  bcast_S8192x1024_S1x8192x1024_1_2 : S8192x1024.BroadcastsInDim S1x8192x1024 (![1, 2] : Fin 2 → Fin S1x8192x1024.rank)
  dot_S512x1024_S1024x1024_S512x1024_1_0_0_1_n_n_wf : DotDims.WF S512x1024 S1024x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x1024.size a ≤ S8192x1024.size a
  k1_off2_inb : ∀ k1_t1 : Fin k1_t1_loop.trips, ∀ a, (k1_off2 k1_t1) a + S512x128.size a ≤ S8192x128.size a
  k1_t2_ok : k1_t2_loop.OK
  k1_mult2_dvd : ∀ k1_t2 : Fin k1_t2_loop.trips, 512 ∣ (k1_mult2 k1_t2).toNat
  k1_off3_inb : ∀ k1_t2 : Fin k1_t2_loop.trips, ∀ a, (k1_off3 k1_t2) a + S512x128.size a ≤ S8192x128.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x1024.size a ≤ S8192x1024.size a
  hwx1_0 : ∀ i : grid1.Coords, EltTy.bits .bf16 = 32 ∨ (Rect.block (s := S8192x1024) S8192x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S8192x1024.size a
  hwx1_1 : ∀ i : grid1.Coords, EltTy.bits .bf16 = 32 ∨ (Rect.block (s := S8192x1024) S128x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S8192x1024.size a
  hwx1_2 : ∀ i : grid1.Coords, EltTy.bits .f32 = 32 ∨ (Rect.block (s := S8192x1024) S128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x8192.size a
  hwx1_3 : ∀ i : grid1.Coords, EltTy.bits .f32 = 32 ∨ (Rect.block (s := S8192x8192) S8192x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S8192x1024.size a
  hwx1_4 : ∀ i : grid1.Coords, EltTy.bits .f32 = 32 ∨ (Rect.block (s := S8192x1024) S128x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S8192x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S128x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S8192x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S128x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1x8192x1024 : Shape := ⟨3, ![1, 8192, 1024]⟩
abbrev S1024x1024 : Shape := ⟨2, ![1024, 1024]⟩
abbrev S1x8192x8192 : Shape := ⟨3, ![1, 8192, 8192]⟩
abbrev S_ : Shape := ⟨0, ![]⟩
abbrev S1x8192 : Shape := ⟨2, ![1, 8192]⟩
abbrev S1x1x8192 : Shape := ⟨3, ![1, 1, 8192]⟩
abbrev S1x8192x1 : Shape := ⟨3, ![1, 8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1024x1024, .f32⟩
  | .hbm, ⟨3, _⟩ => ⟨S1x8192x1024, .f32⟩
  | .hbm, ⟨4, _⟩ => ⟨S1x8192x1024, .f32⟩
  | .hbm, ⟨5, _⟩ => ⟨S1x8192x1024, .f32⟩
  | .hbm, ⟨6, _⟩ => ⟨S1x8192x8192, .f32⟩
  | .hbm, ⟨7, _⟩ => ⟨S_, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S1x1x8192, .f32⟩
  | .hbm, ⟨13, _⟩ => ⟨S1x8192x8192, .f32⟩
  | .hbm, ⟨14, _⟩ => ⟨S1x8192x8192, .f32⟩
  | .hbm, ⟨15, _⟩ => ⟨S1x8192x8192, .f32⟩
  | .hbm, ⟨16, _⟩ => ⟨S_, .f32⟩
  | .hbm, ⟨17, _⟩ => ⟨S1x8192, .f32⟩
  | .hbm, ⟨18, _⟩ => ⟨S1x1x8192, .f32⟩
  | .hbm, ⟨19, _⟩ => ⟨S1x8192x8192, .f32⟩
  | .hbm, ⟨20, _⟩ => ⟨S1x8192x8192, .f32⟩
  | .hbm, ⟨21, _⟩ => ⟨S_, .f32⟩
  | .hbm, ⟨22, _⟩ => ⟨S1x8192, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S1x8192x8192_S1x8192_d1 : S1x8192x8192.ReducesTo [1] S1x8192
  h_S_ : 0 < S_.numel
  bcast_S_S1x8192 : S_.BroadcastsInDim S1x8192 (![] : Fin 0 → Fin S1x8192.rank)
  bcast_S1x8192_S1x1x8192_0_2 : S1x8192.BroadcastsInDim S1x1x8192 (![0, 2] : Fin 2 → Fin S1x1x8192.rank)
  bcast_S1x1x8192_S1x8192x8192_0_1_2 : S1x1x8192.BroadcastsInDim S1x8192x8192 (![0, 1, 2] : Fin 3 → Fin S1x8192x8192.rank)
  bcast_S1x8192_S1x8192x1_0_1 : S1x8192.BroadcastsInDim S1x8192x1 (![0, 1] : Fin 2 → Fin S1x8192x1.rank)
  bcast_S1x8192x1_S1x8192x1024_0_1_2 : S1x8192x1.BroadcastsInDim S1x8192x1024 (![0, 1, 2] : Fin 3 → Fin S1x8192x1024.rank)
  dot_S1x8192x1024_S1024x1024_S1x8192x1024_2_1_01_0_n_n_wf : DotDims.WF S1x8192x1024 S1024x1024 S1x8192x1024 [2] [1] [0, 1] [0] [] []
  dot_S1x8192x1024_S1x8192x1024_S1x8192x8192_2_2_1_1_0_0_wf : DotDims.WF S1x8192x1024 S1x8192x1024 S1x8192x8192 [2] [2] [1] [1] [0] [0]

variable [Facts₀]

def dot_S1x8192x1024_S1024x1024_S1x8192x1024_2_1_01_0_n_n : DotDims S1x8192x1024 S1024x1024 S1x8192x1024 where
  lhsContracting := [2]
  rhsContracting := [1]
  lhsNonContracting := [0, 1]
  rhsNonContracting := [0]
  lhsBatch := []
  rhsBatch := []
  wf := dot_S1x8192x1024_S1024x1024_S1x8192x1024_2_1_01_0_n_n_wf
def dot_S1x8192x1024_S1x8192x1024_S1x8192x8192_2_2_1_1_0_0 : DotDims S1x8192x1024 S1x8192x1024 S1x8192x8192 where
  lhsContracting := [2]
  rhsContracting := [2]
  lhsNonContracting := [1]
  rhsNonContracting := [1]
  lhsBatch := [0]
  rhsBatch := [0]
  wf := dot_S1x8192x1024_S1x8192x1024_S1x8192x8192_2_2_1_1_0_0_wf

class Facts : Prop extends Facts₀ where

variable [Facts]
-- ==== Proof.LoopFreeBits.lean ====
/-
  The two counted loops of the fused body do not remember what the output block held before the body ran.

  The first loop stores, per trip, a 512-row tile of scores into the output block and one row into each of two scratch
  rows; none of these stores is computed from the output block, so the pieces of the trips before k are the same
  whatever the block held when the loop was entered. The second loop does read the block — trip k reads rows
  [512·k, 512·k + 512) back — but only THROUGH THE VIEW: two prior contents that read alike give the same pieces.
  Since the first loop's sixteen tiles cover all 8192 rows, what the block reads after the first loop does not
  depend on its contents before the body either. Together: the list of stores of the whole body can be written
  without naming the block's prior contents.
-/
import proofs.«163533_j21277267984815_2_alg».proof.Proof.Gen.Kernel.Loops
import Idealize.ShloMosaic.Lib.Writes
import Idealize.ShloMosaic.Lib.WritesUnit
import Idealize.ShloMosaic.Lib.Exec.Geometry

set_option maxRecDepth 16384

noncomputable section

namespace Cert.Kernel.LoopFree

open Cert.Kernel Cert.Kernel.Gen Idealize.ShloMosaic Idealize.ShloMosaic.TcCoe Idealize.SL.Sem

variable {F : FTy → Type} [FloatOps F]

/-! ## Writes through a view see the prior contents only through the view -/

/-- Two prior contents that read alike through the view read alike after the same list of stores. -/
theorem read_writes_congr {sig : RefSig} {κ : Kind} {sp : Space} {s : Shape} {e : EltTy} {Val : EltTy → Type}
    (v : View sig κ sp s e) (f f' : v.ty.Contents Val) (h : v.read Val f = v.read Val f') (L : List (View.Piece Val s e)) :
    v.read Val (v.writes Val f L) = v.read Val (v.writes Val f' L) := by
  funext y
  by_cases hc : ∃ p ∈ L, y ∈ p.1.set
  · exact View.read_writes_apply_eq v f v f' y L hc
  · have hn : ∀ p ∈ L, y ∉ p.1.set := fun p hp hy => hc ⟨p, hp, hy⟩
    rw [View.read_writes_apply_of_forall_not_mem v f y L hn, View.read_writes_apply_of_forall_not_mem v f' y L hn, h]

variable (𝒱 : Variants) (c : Dev nD) (bd : Option 𝒱.V) (i : grid1.Coords) (arg1 : Memref sig .tc .vmem S8192x1024 .bf16) (harg1 : arg1.IsWhole) (arg2 : Memref sig .tc .vmem S128x1024 .bf16) (harg2 : arg2.IsWhole) (arg3 : Memref sig .tc .vmem S128x1024 .f32) (harg3 : arg3.IsWhole) (arg4 : Memref sig .tc .vmem S8192x128 .f32) (harg4 : arg4.IsWhole) (arg5 : Memref sig .tc .vmem S128x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

/-! ## The first loop -/

/-- One trip's pieces are not computed from the output block. -/
theorem trip1_indep (X1 : BufTy.Contents (Elt F) arg1.view.ty) (X2 : BufTy.Contents (Elt F) arg2.view.ty) (k : Fin k1_t1_loop.trips)
    (f4 f4' : BufTy.Contents (Elt F) arg4.view.ty) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 arg8 harg8 X1 X2 k f4 f6 f7
      = tripL_k1_t1 (F := F) 𝒱 c bd i arg1 harg1 arg2 harg2 arg3 harg3 arg4 harg4 arg5 harg5 arg6 harg6 arg7 harg7 arg8 harg8 X1 X2 k f4' f6 f7 := by
  unfold tripL_k1_t1 trip_k1_t1
  rfl

/-- The tile a trip stores into the output block: rows [512·k, 512·k + 512), all 128 columns. -/
theorem trip1_tile (X1 : BufTy.Contents (Elt F) arg1.view.ty) (X2 : BufTy.Contents (Elt F) arg2.view.ty) (k : Fin k1_t1_loop.trips)
    (f4 : BufTy.Contents (Elt F) arg4.view.ty) (f6 : BufTy.Contents (Elt F) arg6.view.ty) (f7 : BufTy.Contents (Elt F) arg7.view.ty) :
    ∃ w, (tripL_k1_t1 (F := F) 𝒱 c bd i arg1 harg1 arg2 harg2 arg3 harg3 arg4 harg4 arg5 harg5 arg6 harg6 arg7 harg7 arg8 harg8 X1 X2 k f4 f6 f7).1
      = [(⟨Rect.unit (s := S8192x128) (k1_off2 k) S512x128.size (k1_off2_inb k), w⟩ : View.Piece (Elt F) S8192x128 .f32)] := by
  unfold tripL_k1_t1 trip_k1_t1
  exact ⟨_, rfl⟩

/-- The pieces of the trips before k do not depend on what the output block held at loop entry. -/
theorem pb1_indep (X1 : BufTy.Contents (Elt F) arg1.view.ty) (X2 : BufTy.Contents (Elt F) arg2.view.ty)
    (G4 G4' : BufTy.Contents (Elt F) arg4.view.ty) (G6 : BufTy.Contents (Elt F) arg6.view.ty) (G7 : BufTy.Contents (Elt F) arg7.view.ty) :
    ∀ k : ℕ, pb_k1_t1 (F := F) 𝒱 c bd i arg1 harg1 arg2 harg2 arg3 harg3 arg4 harg4 arg5 harg5 arg6 harg6 arg7 harg7 arg8 harg8 X1 X2 G4 G6 G7 k
      = pb_k1_t1 (F := F) 𝒱 c bd i arg1 harg1 arg2 harg2 arg3 harg3 arg4 harg4 arg5 harg5 arg6 harg6 arg7 harg7 arg8 harg8 X1 X2 G4' G6 G7 k
  | 0 => rfl
  | k + 1 => by
    rw [pb_k1_t1.eq_2, pb_k1_t1.eq_2, pb1_indep X1 X2 G4 G4' G6 G7 k]
    unfold pb_k1_t1Step
    split
    · rename_i h
      rw [trip1_indep 𝒱 c bd i arg1 harg1 arg2 harg2 arg3 harg3 arg4 harg4 arg5 harg5 arg6 harg6 arg7 harg7 arg8 harg8 X1 X2 ⟨k, h⟩ (arg4.view.writes (Elt F) G4 _) (arg4.view.writes (Elt F) G4' _) _ _]
    · rfl

/-- After n trips the output block's list holds the tile of every trip k < n. -/
theorem pb1_tiles (X1 : BufTy.Contents (Elt F) arg1.view.ty) (X2 : BufTy.Contents (Elt F) arg2.view.ty)
    (G4 : BufTy.Contents (Elt F) arg4.view.ty) (G6 : BufTy.Contents (Elt F) arg6.view.ty) (G7 : BufTy.Contents (Elt F) arg7.view.ty) :
    ∀ (n : ℕ) (k : Fin k1_t1_loop.trips), k.val < n →
      ∃ w, (⟨Rect.unit (s := S8192x128) (k1_off2 k) S512x128.size (k1_off2_inb k), w⟩ : View.Piece (Elt F) S8192x128 .f32)
        ∈ (pb_k1_t1 (F := F) 𝒱 c bd i arg1 harg1 arg2 harg2 arg3 harg3 arg4 harg4 arg5 harg5 arg6 harg6 arg7 harg7 arg8 harg8 X1 X2 G4 G6 G7 n).1
  | 0, k, h => absurd h (Nat.not_lt_zero _)
  | n + 1, k, h => by
    by_cases hn : n < k1_t1_loop.trips
    · rw [pb_k1_t1_succ 𝒱 c bd i arg1 harg1 arg2 harg2 arg3 harg3 arg4 harg4 arg5 harg5 arg6 harg6 arg7 harg7 arg8 harg8 X1 X2 G4 G6 G7 ⟨n, hn⟩]
      by_cases hk : k.val = n
      · obtain ⟨w, hw⟩ := trip1_tile 𝒱 c bd i arg1 harg1 arg2 harg2 arg3 harg3 arg4 harg4 arg5 harg5 arg6 harg6 arg7 harg7 arg8 harg8 X1 X2 ⟨n, hn⟩ (arg4.view.writes (Elt F) G4 (pb_k1_t1 (F := F) 𝒱 c bd i arg1 harg1 arg2 harg2 arg3 harg3 arg4 harg4 arg5 harg5 arg6 harg6 arg7 harg7 arg8 harg8 X1 X2 G4 G6 G7 n).1) (arg6.view.writes (Elt F) G6 (pb_k1_t1 (F := F) 𝒱 c bd i arg1 harg1 arg2 harg2 arg3 harg3 arg4 harg4 arg5 harg5 arg6 harg6 arg7 harg7 arg8 harg8 X1 X2 G4 G6 G7 n).2.1) (arg7.view.writes (Elt F) G7 (pb_k1_t1 (F := F) 𝒱 c bd i arg1 harg1 arg2 harg2 arg3 harg3 arg4 harg4 arg5 harg5 arg6 harg6 arg7 harg7 arg8 harg8 X1 X2 G4 G6 G7 n).2.2)
        have hkn : k = ⟨n, hn⟩ := Fin.ext hk
        subst hkn
        refine ⟨w, ?_⟩
        show _ ∈ (tripL_k1_t1 (F := F) 𝒱 c bd i arg1 harg1 arg2 harg2 arg3 harg3 arg4 harg4 arg5 harg5 arg6 harg6 arg7 harg7 arg8 harg8 X1 X2 ⟨n, hn⟩ _ _ _).1 ++ _
        rw [hw]
        exact List.mem_append_left _ (List.mem_singleton.mpr rfl)
      · obtain ⟨w, hw⟩ := pb1_tiles X1 X2 G4 G6 G7 n k (by omega)
        exact ⟨w, List.mem_append_right _ hw⟩
    · have hkn : k.val < n := by have := k.isLt; omega
      obtain ⟨w, hw⟩ := pb1_tiles X1 X2 G4 G6 G7 n k hkn
      refine ⟨w, ?_⟩
      rw [pb_k1_t1.eq_2]
      unfold pb_k1_t1Step
      rw [dif_neg hn]
      exact hw

/-- The sixteen tiles cover the output block. -/
theorem pb1_cover (X1 : BufTy.Contents (Elt F) arg1.view.ty) (X2 : BufTy.Contents (Elt F) arg2.view.ty)
    (G4 : BufTy.Contents (Elt F) arg4.view.ty) (G6 : BufTy.Contents (Elt F) arg6.view.ty) (G7 : BufTy.Contents (Elt F) arg7.view.ty)
    (y : S8192x128.Idx) :
    ∃ p ∈ (pb_k1_t1 (F := F) 𝒱 c bd i arg1 harg1 arg2 harg2 arg3 harg3 arg4 harg4 arg5 harg5 arg6 harg6 arg7 harg7 arg8 harg8 X1 X2 G4 G6 G7 16).1, y ∈ p.1.set := by
  have ht : k1_t1_loop.trips = 16 := by decide
  have hy0 : (y 0).val < 8192 := (y 0).isLt
  have hy1 : (y 1).val < 128 := (y 1).isLt
  let k : Fin k1_t1_loop.trips := ⟨(y 0).val / 512, by rw [ht]; omega⟩
  obtain ⟨w, hw⟩ := pb1_tiles 𝒱 c bd i arg1 harg1 arg2 harg2 arg3 harg3 arg4 harg4 arg5 harg5 arg6 harg6 arg7 harg7 arg8 harg8 X1 X2 G4 G6 G7 16 k (by show (y 0).val / 512 < 16; omega)
  refine ⟨_, hw, ?_⟩
  rw [Rect.mem_set_unit]
  intro a
  have e := k1_off2_eq k
  match a with
  | ⟨0, _⟩ =>
    show (k1_off2 k) 0 ≤ (y 0).val ∧ (y 0).val < (k1_off2 k) 0 + 512
    rw [e]
    show 512 * ((y 0).val / 512) ≤ (y 0).val ∧ (y 0).val < 512 * ((y 0).val / 512) + 512
    omega
  | ⟨1, _⟩ =>
    show (k1_off2 k) 1 ≤ (y 1).val ∧ (y 1).val < (k1_off2 k) 1 + 128
    rw [e]
    show 0 ≤ (y 1).val ∧ (y 1).val < 0 + 128
    omega

/-- So what the block reads after the first loop does not depend on what it held before. -/
theorem read_after_loop1 (X1 : BufTy.Contents (Elt F) arg1.view.ty) (X2 : BufTy.Contents (Elt F) arg2.view.ty)
    (G4 G4' : BufTy.Contents (Elt F) arg4.view.ty) (G6 : BufTy.Contents (Elt F) arg6.view.ty) (G7 : BufTy.Contents (Elt F) arg7.view.ty) :
    arg4.view.read (Elt F) (arg4.view.writes (Elt F) G4 (pb_k1_t1 (F := F) 𝒱 c bd i arg1 harg1 arg2 harg2 arg3 harg3 arg4 harg4 arg5 harg5 arg6 harg6 arg7 harg7 arg8 harg8 X1 X2 G4 G6 G7 16).1)
      = arg4.view.read (Elt F) (arg4.view.writes (Elt F) G4' (pb_k1_t1 (F := F) 𝒱 c bd i arg1 harg1 arg2 harg2 arg3 harg3 arg4 harg4 arg5 harg5 arg6 harg6 arg7 harg7 arg8 harg8 X1 X2 G4' G6 G7 16).1) := by
  rw [pb1_indep 𝒱 c bd i arg1 harg1 arg2 harg2 arg3 harg3 arg4 harg4 arg5 harg5 arg6 harg6 arg7 harg7 arg8 harg8 X1 X2 G4 G4' G6 G7 16]
  exact View.read_writes_of_cover arg4.view G4 arg4.view G4' _ (pb1_cover 𝒱 c bd i arg1 harg1 arg2 harg2 arg3 harg3 arg4 harg4 arg5 harg5 arg6 harg6 arg7 harg7 arg8 harg8 X1 X2 G4' G6 G7)

/-! ## The second loop -/

/-- One trip's pieces see the output block only through the view. -/
theorem trip2_congr (v13 : Vec F S1x128 .f32) (X6 : BufTy.Contents (Elt F) arg6.view.ty) (k : Fin k1_t2_loop.trips)
    (f4 f4' : BufTy.Contents (Elt F) arg4.view.ty) (h : arg4.view.read (Elt F) f4 = arg4.view.read (Elt F) f4')
    (f8 : BufTy.Contents (Elt F) arg8.view.ty) :
    tripL_k1_t2 (F := F) 𝒱 c bd i arg1 harg1 arg2 harg2 arg3 harg3 arg4 harg4 arg5 harg5 arg6 harg6 arg7 harg7 arg8 harg8 v13 X6 k f4 f8
      = tripL_k1_t2 (F := F) 𝒱 c bd i arg1 harg1 arg2 harg2 arg3 harg3 arg4 harg4 arg5 harg5 arg6 harg6 arg7 harg7 arg8 harg8 v13 X6 k f4' f8 := by
  unfold tripL_k1_t2 trip_k1_t2
  dsimp only
  unfold View.readAt
  rw [h]

/-- The pieces of the trips before k see the block's contents at loop entry only through the view. -/
theorem pb2_congr (v13 : Vec F S1x128 .f32) (X6 : BufTy.Contents (Elt F) arg6.view.ty)
    (G4 G4' : BufTy.Contents (Elt F) arg4.view.ty) (h : arg4.view.read (Elt F) G4 = arg4.view.read (Elt F) G4')
    (G8 : BufTy.Contents (Elt F) arg8.view.ty) :
    ∀ k : ℕ, pb_k1_t2 (F := F) 𝒱 c bd i arg1 harg1 arg2 harg2 arg3 harg3 arg4 harg4 arg5 harg5 arg6 harg6 arg7 harg7 arg8 harg8 v13 X6 G4 G8 k
      = pb_k1_t2 (F := F) 𝒱 c bd i arg1 harg1 arg2 harg2 arg3 harg3 arg4 harg4 arg5 harg5 arg6 harg6 arg7 harg7 arg8 harg8 v13 X6 G4' G8 k
  | 0 => rfl
  | k + 1 => by
    rw [pb_k1_t2.eq_2, pb_k1_t2.eq_2, pb2_congr v13 X6 G4 G4' h G8 k]
    unfold pb_k1_t2Step
    split
    · rename_i hk
      rw [trip2_congr 𝒱 c bd i arg1 harg1 arg2 harg2 arg3 harg3 arg4 harg4 arg5 harg5 arg6 harg6 arg7 harg7 arg8 harg8 v13 X6 ⟨k, hk⟩ (arg4.view.writes (Elt F) G4 _) (arg4.view.writes (Elt F) G4' _)
        (read_writes_congr arg4.view G4 G4' h _) _]
    · rfl

end Cert.Kernel.LoopFree

end
-- ==== Proof.LoopFreeIdeal.lean ====
/-
  The two counted loops of the fused body do not remember what the output block held before the body ran.

  The first loop stores, per trip, a 512-row tile of scores into the output block and one row into each of two scratch
  rows; none of these stores is computed from the output block, so the pieces of the trips before k are the same
  whatever the block held when the loop was entered. The second loop does read the block — trip k reads rows
  [512·k, 512·k + 512) back — but only THROUGH THE VIEW: two prior contents that read alike give the same pieces.
  Since the first loop's sixteen tiles cover all 8192 rows, what the block reads after the first loop does not
  depend on its contents before the body either. Together: the list of stores of the whole body can be written
  without naming the block's prior contents.
-/
import proofs.«163533_j21277267984815_2_alg».proof.Proof.Gen.KernelIdeal.Loops
import Idealize.ShloMosaic.Lib.Writes
import Idealize.ShloMosaic.Lib.WritesUnit
import Idealize.ShloMosaic.Lib.Exec.Geometry

set_option maxRecDepth 16384

noncomputable section

namespace Cert.KernelIdeal.LoopFree

open Cert.KernelIdeal Cert.KernelIdeal.Gen Idealize.ShloMosaic Idealize.ShloMosaic.TcCoe Idealize.SL.Sem

variable {F : FTy → Type} [FloatOps F]

/-! ## Writes through a view see the prior contents only through the view -/

/-- Two prior contents that read alike through the view read alike after the same list of stores. -/
theorem read_writes_congr {sig : RefSig} {κ : Kind} {sp : Space} {s : Shape} {e : EltTy} {Val : EltTy → Type}
    (v : View sig κ sp s e) (f f' : v.ty.Contents Val) (h : v.read Val f = v.read Val f') (L : List (View.Piece Val s e)) :
    v.read Val (v.writes Val f L) = v.read Val (v.writes Val f' L) := by
  funext y
  by_cases hc : ∃ p ∈ L, y ∈ p.1.set
  · exact View.read_writes_apply_eq v f v f' y L hc
  · have hn : ∀ p ∈ L, y ∉ p.1.set := fun p hp hy => hc ⟨p, hp, hy⟩
    rw [View.read_writes_apply_of_forall_not_mem v f y L hn, View.read_writes_apply_of_forall_not_mem v f' y L hn, h]

variable (𝒱 : Variants) (c : Dev nD) (bd : Option 𝒱.V) (i : grid1.Coords) (arg1 : Memref sig .tc .vmem S8192x1024 .bf16) (harg1 : arg1.IsWhole) (arg2 : Memref sig .tc .vmem S128x1024 .bf16) (harg2 : arg2.IsWhole) (arg3 : Memref sig .tc .vmem S128x1024 .f32) (harg3 : arg3.IsWhole) (arg4 : Memref sig .tc .vmem S8192x128 .f32) (harg4 : arg4.IsWhole) (arg5 : Memref sig .tc .vmem S128x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)

/-! ## The first loop -/

/-- One trip's pieces are not computed from the output block. -/
theorem trip1_indep (X1 : BufTy.Contents (Elt F) arg1.view.ty) (X2 : BufTy.Contents (Elt F) arg2.view.ty) (k : Fin k1_t1_loop.trips)
    (f4 f4' : BufTy.Contents (Elt F) arg4.view.ty) (f6 : BufTy.Contents (Elt F) arg6.view.ty) (f7 : BufTy.Contents (Elt F) arg7.view.ty) :
    tripL_k1_t1 (F := F) 𝒱 c bd i arg1 harg1 arg2 harg2 arg3 harg3 arg4 harg4 arg5 harg5 arg6 harg6 arg7 harg7 arg8 harg8 X1 X2 k f4 f6 f7
      = tripL_k1_t1 (F := F) 𝒱 c bd i arg1 harg1 arg2 harg2 arg3 harg3 arg4 harg4 arg5 harg5 arg6 harg6 arg7 harg7 arg8 harg8 X1 X2 k f4' f6 f7 := by
  unfold tripL_k1_t1 trip_k1_t1
  rfl

/-- The tile a trip stores into the output block: rows [512·k, 512·k + 512), all 128 columns. -/
theorem trip1_tile (X1 : BufTy.Contents (Elt F) arg1.view.ty) (X2 : BufTy.Contents (Elt F) arg2.view.ty) (k : Fin k1_t1_loop.trips)
    (f4 : BufTy.Contents (Elt F) arg4.view.ty) (f6 : BufTy.Contents (Elt F) arg6.view.ty) (f7 : BufTy.Contents (Elt F) arg7.view.ty) :
    ∃ w, (tripL_k1_t1 (F := F) 𝒱 c bd i arg1 harg1 arg2 harg2 arg3 harg3 arg4 harg4 arg5 harg5 arg6 harg6 arg7 harg7 arg8 harg8 X1 X2 k f4 f6 f7).1
      = [(⟨Rect.unit (s := S8192x128) (k1_off2 k) S512x128.size (k1_off2_inb k), w⟩ : View.Piece (Elt F) S8192x128 .f32)] := by
  unfold tripL_k1_t1 trip_k1_t1
  exact ⟨_, rfl⟩

/-- The pieces of the trips before k do not depend on what the output block held at loop entry. -/
theorem pb1_indep (X1 : BufTy.Contents (Elt F) arg1.view.ty) (X2 : BufTy.Contents (Elt F) arg2.view.ty)
    (G4 G4' : BufTy.Contents (Elt F) arg4.view.ty) (G6 : BufTy.Contents (Elt F) arg6.view.ty) (G7 : BufTy.Contents (Elt F) arg7.view.ty) :
    ∀ k : ℕ, pb_k1_t1 (F := F) 𝒱 c bd i arg1 harg1 arg2 harg2 arg3 harg3 arg4 harg4 arg5 harg5 arg6 harg6 arg7 harg7 arg8 harg8 X1 X2 G4 G6 G7 k
      = pb_k1_t1 (F := F) 𝒱 c bd i arg1 harg1 arg2 harg2 arg3 harg3 arg4 harg4 arg5 harg5 arg6 harg6 arg7 harg7 arg8 harg8 X1 X2 G4' G6 G7 k
  | 0 => rfl
  | k + 1 => by
    rw [pb_k1_t1.eq_2, pb_k1_t1.eq_2, pb1_indep X1 X2 G4 G4' G6 G7 k]
    unfold pb_k1_t1Step
    split
    · rename_i h
      rw [trip1_indep 𝒱 c bd i arg1 harg1 arg2 harg2 arg3 harg3 arg4 harg4 arg5 harg5 arg6 harg6 arg7 harg7 arg8 harg8 X1 X2 ⟨k, h⟩ (arg4.view.writes (Elt F) G4 _) (arg4.view.writes (Elt F) G4' _) _ _]
    · rfl

/-- After n trips the output block's list holds the tile of every trip k < n. -/
theorem pb1_tiles (X1 : BufTy.Contents (Elt F) arg1.view.ty) (X2 : BufTy.Contents (Elt F) arg2.view.ty)
    (G4 : BufTy.Contents (Elt F) arg4.view.ty) (G6 : BufTy.Contents (Elt F) arg6.view.ty) (G7 : BufTy.Contents (Elt F) arg7.view.ty) :
    ∀ (n : ℕ) (k : Fin k1_t1_loop.trips), k.val < n →
      ∃ w, (⟨Rect.unit (s := S8192x128) (k1_off2 k) S512x128.size (k1_off2_inb k), w⟩ : View.Piece (Elt F) S8192x128 .f32)
        ∈ (pb_k1_t1 (F := F) 𝒱 c bd i arg1 harg1 arg2 harg2 arg3 harg3 arg4 harg4 arg5 harg5 arg6 harg6 arg7 harg7 arg8 harg8 X1 X2 G4 G6 G7 n).1
  | 0, k, h => absurd h (Nat.not_lt_zero _)
  | n + 1, k, h => by
    by_cases hn : n < k1_t1_loop.trips
    · rw [pb_k1_t1_succ 𝒱 c bd i arg1 harg1 arg2 harg2 arg3 harg3 arg4 harg4 arg5 harg5 arg6 harg6 arg7 harg7 arg8 harg8 X1 X2 G4 G6 G7 ⟨n, hn⟩]
      by_cases hk : k.val = n
      · obtain ⟨w, hw⟩ := trip1_tile 𝒱 c bd i arg1 harg1 arg2 harg2 arg3 harg3 arg4 harg4 arg5 harg5 arg6 harg6 arg7 harg7 arg8 harg8 X1 X2 ⟨n, hn⟩ (arg4.view.writes (Elt F) G4 (pb_k1_t1 (F := F) 𝒱 c bd i arg1 harg1 arg2 harg2 arg3 harg3 arg4 harg4 arg5 harg5 arg6 harg6 arg7 harg7 arg8 harg8 X1 X2 G4 G6 G7 n).1) (arg6.view.writes (Elt F) G6 (pb_k1_t1 (F := F) 𝒱 c bd i arg1 harg1 arg2 harg2 arg3 harg3 arg4 harg4 arg5 harg5 arg6 harg6 arg7 harg7 arg8 harg8 X1 X2 G4 G6 G7 n).2.1) (arg7.view.writes (Elt F) G7 (pb_k1_t1 (F := F) 𝒱 c bd i arg1 harg1 arg2 harg2 arg3 harg3 arg4 harg4 arg5 harg5 arg6 harg6 arg7 harg7 arg8 harg8 X1 X2 G4 G6 G7 n).2.2)
        have hkn : k = ⟨n, hn⟩ := Fin.ext hk
        subst hkn
        refine ⟨w, ?_⟩
        show _ ∈ (tripL_k1_t1 (F := F) 𝒱 c bd i arg1 harg1 arg2 harg2 arg3 harg3 arg4 harg4 arg5 harg5 arg6 harg6 arg7 harg7 arg8 harg8 X1 X2 ⟨n, hn⟩ _ _ _).1 ++ _
        rw [hw]
        exact List.mem_append_left _ (List.mem_singleton.mpr rfl)
      · obtain ⟨w, hw⟩ := pb1_tiles X1 X2 G4 G6 G7 n k (by omega)
        exact ⟨w, List.mem_append_right _ hw⟩
    · have hkn : k.val < n := by have := k.isLt; omega
      obtain ⟨w, hw⟩ := pb1_tiles X1 X2 G4 G6 G7 n k hkn
      refine ⟨w, ?_⟩
      rw [pb_k1_t1.eq_2]
      unfold pb_k1_t1Step
      rw [dif_neg hn]
      exact hw

/-- The sixteen tiles cover the output block. -/
theorem pb1_cover (X1 : BufTy.Contents (Elt F) arg1.view.ty) (X2 : BufTy.Contents (Elt F) arg2.view.ty)
    (G4 : BufTy.Contents (Elt F) arg4.view.ty) (G6 : BufTy.Contents (Elt F) arg6.view.ty) (G7 : BufTy.Contents (Elt F) arg7.view.ty)
    (y : S8192x128.Idx) :
    ∃ p ∈ (pb_k1_t1 (F := F) 𝒱 c bd i arg1 harg1 arg2 harg2 arg3 harg3 arg4 harg4 arg5 harg5 arg6 harg6 arg7 harg7 arg8 harg8 X1 X2 G4 G6 G7 16).1, y ∈ p.1.set := by
  have ht : k1_t1_loop.trips = 16 := by decide
  have hy0 : (y 0).val < 8192 := (y 0).isLt
  have hy1 : (y 1).val < 128 := (y 1).isLt
  let k : Fin k1_t1_loop.trips := ⟨(y 0).val / 512, by rw [ht]; omega⟩
  obtain ⟨w, hw⟩ := pb1_tiles 𝒱 c bd i arg1 harg1 arg2 harg2 arg3 harg3 arg4 harg4 arg5 harg5 arg6 harg6 arg7 harg7 arg8 harg8 X1 X2 G4 G6 G7 16 k (by show (y 0).val / 512 < 16; omega)
  refine ⟨_, hw, ?_⟩
  rw [Rect.mem_set_unit]
  intro a
  have e := k1_off2_eq k
  match a with
  | ⟨0, _⟩ =>
    show (k1_off2 k) 0 ≤ (y 0).val ∧ (y 0).val < (k1_off2 k) 0 + 512
    rw [e]
    show 512 * ((y 0).val / 512) ≤ (y 0).val ∧ (y 0).val < 512 * ((y 0).val / 512) + 512
    omega
  | ⟨1, _⟩ =>
    show (k1_off2 k) 1 ≤ (y 1).val ∧ (y 1).val < (k1_off2 k) 1 + 128
    rw [e]
    show 0 ≤ (y 1).val ∧ (y 1).val < 0 + 128
    omega

/-- So what the block reads after the first loop does not depend on what it held before. -/
theorem read_after_loop1 (X1 : BufTy.Contents (Elt F) arg1.view.ty) (X2 : BufTy.Contents (Elt F) arg2.view.ty)
    (G4 G4' : BufTy.Contents (Elt F) arg4.view.ty) (G6 : BufTy.Contents (Elt F) arg6.view.ty) (G7 : BufTy.Contents (Elt F) arg7.view.ty) :
    arg4.view.read (Elt F) (arg4.view.writes (Elt F) G4 (pb_k1_t1 (F := F) 𝒱 c bd i arg1 harg1 arg2 harg2 arg3 harg3 arg4 harg4 arg5 harg5 arg6 harg6 arg7 harg7 arg8 harg8 X1 X2 G4 G6 G7 16).1)
      = arg4.view.read (Elt F) (arg4.view.writes (Elt F) G4' (pb_k1_t1 (F := F) 𝒱 c bd i arg1 harg1 arg2 harg2 arg3 harg3 arg4 harg4 arg5 harg5 arg6 harg6 arg7 harg7 arg8 harg8 X1 X2 G4' G6 G7 16).1) := by
  rw [pb1_indep 𝒱 c bd i arg1 harg1 arg2 harg2 arg3 harg3 arg4 harg4 arg5 harg5 arg6 harg6 arg7 harg7 arg8 harg8 X1 X2 G4 G4' G6 G7 16]
  exact View.read_writes_of_cover arg4.view G4 arg4.view G4' _ (pb1_cover 𝒱 c bd i arg1 harg1 arg2 harg2 arg3 harg3 arg4 harg4 arg5 harg5 arg6 harg6 arg7 harg7 arg8 harg8 X1 X2 G4' G6 G7)

/-! ## The second loop -/

/-- One trip's pieces see the output block only through the view. -/
theorem trip2_congr (v13 : Vec F S1x128 .f32) (X6 : BufTy.Contents (Elt F) arg6.view.ty) (k : Fin k1_t2_loop.trips)
    (f4 f4' : BufTy.Contents (Elt F) arg4.view.ty) (h : arg4.view.read (Elt F) f4 = arg4.view.read (Elt F) f4')
    (f8 : BufTy.Contents (Elt F) arg8.view.ty) :
    tripL_k1_t2 (F := F) 𝒱 c bd i arg1 harg1 arg2 harg2 arg3 harg3 arg4 harg4 arg5 harg5 arg6 harg6 arg7 harg7 arg8 harg8 v13 X6 k f4 f8
      = tripL_k1_t2 (F := F) 𝒱 c bd i arg1 harg1 arg2 harg2 arg3 harg3 arg4 harg4 arg5 harg5 arg6 harg6 arg7 harg7 arg8 harg8 v13 X6 k f4' f8 := by
  unfold tripL_k1_t2 trip_k1_t2
  dsimp only
  unfold View.readAt
  rw [h]

/-- The pieces of the trips before k see the block's contents at loop entry only through the view. -/
theorem pb2_congr (v13 : Vec F S1x128 .f32) (X6 : BufTy.Contents (Elt F) arg6.view.ty)
    (G4 G4' : BufTy.Contents (Elt F) arg4.view.ty) (h : arg4.view.read (Elt F) G4 = arg4.view.read (Elt F) G4')
    (G8 : BufTy.Contents (Elt F) arg8.view.ty) :
    ∀ k : ℕ, pb_k1_t2 (F := F) 𝒱 c bd i arg1 harg1 arg2 harg2 arg3 harg3 arg4 harg4 arg5 harg5 arg6 harg6 arg7 harg7 arg8 harg8 v13 X6 G4 G8 k
      = pb_k1_t2 (F := F) 𝒱 c bd i arg1 harg1 arg2 harg2 arg3 harg3 arg4 harg4 arg5 harg5 arg6 harg6 arg7 harg7 arg8 harg8 v13 X6 G4' G8 k
  | 0 => rfl
  | k + 1 => by
    rw [pb_k1_t2.eq_2, pb_k1_t2.eq_2, pb2_congr v13 X6 G4 G4' h G8 k]
    unfold pb_k1_t2Step
    split
    · rename_i hk
      rw [trip2_congr 𝒱 c bd i arg1 harg1 arg2 harg2 arg3 harg3 arg4 harg4 arg5 harg5 arg6 harg6 arg7 harg7 arg8 harg8 v13 X6 ⟨k, hk⟩ (arg4.view.writes (Elt F) G4 _) (arg4.view.writes (Elt F) G4' _)
        (read_writes_congr arg4.view G4 G4' h _) _]
    · rfl

end Cert.KernelIdeal.LoopFree

end
-- ==== Proof.KernelRun.lean ====
/-
  The idealized kernel's run with its two results named.

  @main is four segments: the host operations before the first pallas_call, the two pallas_calls, the two host
  operations after the second. The frame certificate launches them over the thread state "every unscoped buffer at the
  boundary's contents" and reads, of the final state, only the three arguments. Here the same launch is read at the two
  result buffers as well: each ends at the last boundary's contents (`W4`: the second region's exit contents pushed
  through the two trailing broadcasts).
-/
import proofs.«163533_j21277267984815_2_alg».proof.Proof.FrameIdeal

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the two result buffers at the last boundary's
    contents and the arguments as launched. -/
theorem run_values : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.KernelIdeal.Run

end
-- ==== Proof.HostGlue.lean ====
/-
  The host operations around the two kernel calls, read at an index, over an arbitrary valuation of the buffers.

  Before the first call: x with its leading unit axis dropped, and each weight array transposed (the conversion to
  the narrower format is the identity on the extended reals). After the second call: each result with a leading
  unit axis put back. No other buffer is written.
-/
import proofs.«163533_j21277267984815_2_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Glue

open Cert.KernelIdeal Cert.KernelIdeal.Gen Idealize.ShloMosaic Idealize.ShloMosaic.ValueIdx Idealize.ShloMosaic.StableHlo

/-! ## Before the first call -/

/-- The block array x handed to the first call: the argument with its unit axis dropped. -/
theorem before_x_fun (W : Valuation τ sig (Elt Ideal)) :
    (StableHlo.after (hostOps0 (F := Ideal)) W (Proc.devRef .tc main_v0) : S8192x1024.Idx → EReal)
      = shapeCast S8192x1024 (W (Proc.devRef .tc main_arg0)) shapeCasts_S1x8192x1024_S8192x1024 := by
  dsimp only [hostOps0]
  after_results
  rfl

theorem before_x (W : Valuation τ sig (Elt Ideal)) (i : Fin 8192) (h : Fin 1024) :
    StableHlo.after (hostOps0 (F := Ideal)) W (Proc.devRef .tc main_v0) (ix2 i h)
      = W (Proc.devRef .tc main_arg0) (ix3 (0 : Fin 1) i h) :=
  (congrFun (before_x_fun W) (ix2 i h)).trans
    (shapeCast_1ab_ab_apply (W (Proc.devRef .tc main_arg0)) shapeCasts_S1x8192x1024_S8192x1024 i h)

/-- The first weight array handed to the first call: the argument transposed. -/
theorem before_w1t_fun (W : Valuation τ sig (Elt Ideal)) :
    (StableHlo.after (hostOps0 (F := Ideal)) W (Proc.devRef .tc main_v2) : S1024x1024.Idx → EReal)
      = transpose S1024x1024 [1, 0] (W (Proc.devRef .tc main_arg1)) transposes_S1024x1024_S1024x1024_1_0 := by
  dsimp only [hostOps0]
  after_results
  rfl

theorem before_w1t (W : Valuation τ sig (Elt Ideal)) (h o : Fin 1024) :
    StableHlo.after (hostOps0 (F := Ideal)) W (Proc.devRef .tc main_v2) (ix2 h o)
      = W (Proc.devRef .tc main_arg1) (ix2 o h) :=
  (congrFun (before_w1t_fun W) (ix2 h o)).trans
    (transpose_ix2_apply (W (Proc.devRef .tc main_arg1)) transposes_S1024x1024_S1024x1024_1_0 h o)

/-- The second weight array handed to the first call: the argument transposed. -/
theorem before_w2t_fun (W : Valuation τ sig (Elt Ideal)) :
    (StableHlo.after (hostOps0 (F := Ideal)) W (Proc.devRef .tc main_v4) : S1024x1024.Idx → EReal)
      = transpose S1024x1024 [1, 0] (W (Proc.devRef .tc main_arg2)) transposes_S1024x1024_S1024x1024_1_0 := by
  dsimp only [hostOps0]
  after_results
  rfl

theorem before_w2t (W : Valuation τ sig (Elt Ideal)) (h o : Fin 1024) :
    StableHlo.after (hostOps0 (F := Ideal)) W (Proc.devRef .tc main_v4) (ix2 h o)
      = W (Proc.devRef .tc main_arg2) (ix2 o h) :=
  (congrFun (before_w2t_fun W) (ix2 h o)).trans
    (transpose_ix2_apply (W (Proc.devRef .tc main_arg2)) transposes_S1024x1024_S1024x1024_1_0 h o)

/-- A buffer none of the five operations writes keeps its contents. -/
theorem before_other (W : Valuation τ sig (Elt Ideal)) (b : Ref sig .tc)
    (hb : b ≠ main_v0 ∧ b ≠ main_v1 ∧ b ≠ main_v2 ∧ b ≠ main_v3 ∧ b ≠ main_v4) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2⟩))

theorem before_arg0 (W : Valuation τ sig (Elt Ideal)) :
    StableHlo.after (hostOps0 (F := Ideal)) W (Proc.devRef .tc main_arg0) = W (Proc.devRef .tc main_arg0) :=
  before_other W main_arg0 (by decide)

theorem before_v5_0 (W : Valuation τ sig (Elt Ideal)) :
    StableHlo.after (hostOps0 (F := Ideal)) W (Proc.devRef .tc main_v5_0) = W (Proc.devRef .tc main_v5_0) :=
  before_other W main_v5_0 (by decide)

theorem before_v5_1 (W : Valuation τ sig (Elt Ideal)) :
    StableHlo.after (hostOps0 (F := Ideal)) W (Proc.devRef .tc main_v5_1) = W (Proc.devRef .tc main_v5_1) :=
  before_other W main_v5_1 (by decide)

/-! ## After the second call -/

/-- The attention result: the call's first result with a leading unit axis. -/
theorem after_attn_fun (W : Valuation τ sig (Elt Ideal)) :
    (StableHlo.after (hostOps2 (F := Ideal)) W (Proc.devRef .tc main_v7) : S1x8192x8192.Idx → EReal)
      = broadcastInDim S1x8192x8192 ![1, 2] bcast_S8192x8192_S1x8192x8192_1_2 (W (Proc.devRef .tc main_v6_0)) := by
  dsimp only [hostOps2]
  after_results
  all_goals rfl

theorem after_attn (W : Valuation τ sig (Elt Ideal)) (i j : Fin 8192) :
    StableHlo.after (hostOps2 (F := Ideal)) W (Proc.devRef .tc main_v7) (ix3 (0 : Fin 1) i j)
      = W (Proc.devRef .tc main_v6_0) (ix2 i j) :=
  (congrFun (after_attn_fun W) (ix3 (0 : Fin 1) i j)).trans
    (broadcastInDim_apply ![1, 2] bcast_S8192x8192_S1x8192x8192_1_2 (W (Proc.devRef .tc main_v6_0))
      (ix3 (0 : Fin 1) i j) (ix2 i j) (fun a => by
        match a with
        | ⟨0, _⟩ => exact (if_neg (show ¬ (8192 : ℕ) = 1 by decide)).symm
        | ⟨1, _⟩ => exact (if_neg (show ¬ (8192 : ℕ) = 1 by decide)).symm))

/-- The context result: the call's second result with a leading unit axis. -/
theorem after_ctx_fun (W : Valuation τ sig (Elt Ideal)) :
    (StableHlo.after (hostOps2 (F := Ideal)) W (Proc.devRef .tc main_v8) : S1x8192x1024.Idx → EReal)
      = broadcastInDim S1x8192x1024 ![1, 2] bcast_S8192x1024_S1x8192x1024_1_2 (W (Proc.devRef .tc main_v6_1)) := by
  dsimp only [hostOps2]
  after_results
  all_goals rfl

theorem after_ctx (W : Valuation τ sig (Elt Ideal)) (j : Fin 8192) (h : Fin 1024) :
    StableHlo.after (hostOps2 (F := Ideal)) W (Proc.devRef .tc main_v8) (ix3 (0 : Fin 1) j h)
      = W (Proc.devRef .tc main_v6_1) (ix2 j h) :=
  (congrFun (after_ctx_fun W) (ix3 (0 : Fin 1) j h)).trans
    (broadcastInDim_apply ![1, 2] bcast_S8192x1024_S1x8192x1024_1_2 (W (Proc.devRef .tc main_v6_1))
      (ix3 (0 : Fin 1) j h) (ix2 j h) (fun a => by
        match a with
        | ⟨0, _⟩ => exact (if_neg (show ¬ (8192 : ℕ) = 1 by decide)).symm
        | ⟨1, _⟩ => exact (if_neg (show ¬ (1024 : ℕ) = 1 by decide)).symm))

/-- A buffer neither of the two operations writes keeps its contents. -/
theorem after_other (W : Valuation τ sig (Elt Ideal)) (b : Ref sig .tc) (hb : b ≠ main_v7 ∧ b ≠ main_v8) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.unary_writes, Finset.mem_singleton]
    exact ⟨StableHlo.devRef_ne_of_ne hb.1, StableHlo.devRef_ne_of_ne hb.2⟩))

end Cert.KernelIdeal.Glue

end
-- ==== Proof.PayMatmul.lean ====
/-
  The three matrix products of the kernel, read at an index, on the extended reals.

  Both projection products contract the second axis of a 512 × 1024 block of x with the FIRST axis of a
  1024 × 1024 operand (the transposed weight), into a zero accumulator: entry (p, q) is the sum over h of
  l (p, h) · r (h, q). The score product contracts a 512 × 1024 tile of the query array with the transpose of
  a 128 × 1024 block of the key array: entry (r, c) is the sum over h of q (r, h) · k (c, h).
-/
import proofs.«163533_j21277267984815_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The contraction's operand indices -/

abbrev dotP := dot_S512x1024_S1024x1024_S512x1024_1_0_0_1_n_n
abbrev dotS := dot_S512x1024_S1024x128_S512x128_1_0_0_1_n_n

theorem lhsP0 (i : S512x1024.Idx) (q : dotP.contr.Idx) : (dotP.lhsIdx i q 0).val = (i 0).val := by
  unfold DotDims.lhsIdx
  rw [dif_neg (show ¬(0 : Fin S512x1024.rank) ∈ dotP.lhsBatch by decide), dif_pos (show (0 : Fin S512x1024.rank) ∈ dotP.lhsNonContracting by decide)]
  rfl
theorem lhsP1 (i : S512x1024.Idx) (q : dotP.contr.Idx) : (dotP.lhsIdx i q 1).val = (q ⟨0, by decide⟩).val :=
  dotP.lhsIdx_val_of_single rfl i q
theorem rhsP0 (i : S512x1024.Idx) (q : dotP.contr.Idx) : (dotP.rhsIdx i q 0).val = (q ⟨0, by decide⟩).val :=
  dotP.rhsIdx_val_of_single rfl i q
theorem rhsP1 (i : S512x1024.Idx) (q : dotP.contr.Idx) : (dotP.rhsIdx i q 1).val = (i 1).val := by
  unfold DotDims.rhsIdx
  rw [dif_neg (show ¬(1 : Fin S1024x1024.rank) ∈ dotP.rhsBatch by decide), dif_pos (show (1 : Fin S1024x1024.rank) ∈ dotP.rhsNonContracting by decide)]
  rfl

theorem lhsS0 (i : S512x128.Idx) (q : dotS.contr.Idx) : (dotS.lhsIdx i q 0).val = (i 0).val := by
  unfold DotDims.lhsIdx
  rw [dif_neg (show ¬(0 : Fin S512x1024.rank) ∈ dotS.lhsBatch by decide), dif_pos (show (0 : Fin S512x1024.rank) ∈ dotS.lhsNonContracting by decide)]
  rfl
theorem lhsS1 (i : S512x128.Idx) (q : dotS.contr.Idx) : (dotS.lhsIdx i q 1).val = (q ⟨0, by decide⟩).val :=
  dotS.lhsIdx_val_of_single rfl i q
theorem rhsS0 (i : S512x128.Idx) (q : dotS.contr.Idx) : (dotS.rhsIdx i q 0).val = (q ⟨0, by decide⟩).val :=
  dotS.rhsIdx_val_of_single rfl i q
theorem rhsS1 (i : S512x128.Idx) (q : dotS.contr.Idx) : (dotS.rhsIdx i q 1).val = (i 1).val := by
  unfold DotDims.rhsIdx
  rw [dif_neg (show ¬(1 : Fin S1024x128.rank) ∈ dotS.rhsBatch by decide), dif_pos (show (1 : Fin S1024x128.rank) ∈ dotS.rhsNonContracting by decide)]
  rfl

/-! ## The products at an index -/

/-- A 512 × 1024 block times a 1024 × 1024 operand into zero: entry (p, q) is the sum over h of l (p, h) · r (h, q). -/
theorem projProduct_apply (l : FVec Ideal S512x1024 .bf16) (r : FVec Ideal S1024x1024 .bf16) (p : Fin 512) (q : Fin 1024) :
    matmul dotP none l r (constant (F := Ideal) S512x1024 .f32 0x00000000#32) (ix2 p q)
      = ∑ h : Fin 1024, l (ix2 p h) * r (ix2 h q) := by
  simp only [matmul]
  rw [Ideal.matmul_constant_zero_apply, ← Equiv.sum_comp (contrEquiv1 dotP 1024 rfl rfl).symm]
  refine Finset.sum_congr rfl fun k _ => ?_
  have hk := contrEquiv1_symm_val dotP 1024 rfl rfl k
  have el : dotP.lhsIdx (ix2 p q) ((contrEquiv1 dotP 1024 rfl rfl).symm k) = ix2 p k := funext fun a => Fin.ext (by
    match a with
    | ⟨0, _⟩ => exact lhsP0 _ _
    | ⟨1, _⟩ => exact (lhsP1 _ _).trans hk)
  have er : dotP.rhsIdx (ix2 p q) ((contrEquiv1 dotP 1024 rfl rfl).symm k) = ix2 k q := funext fun a => Fin.ext (by
    match a with
    | ⟨0, _⟩ => exact (rhsP0 _ _).trans hk
    | ⟨1, _⟩ => exact rhsP1 _ _)
  rw [el, er]

/-- A 512 × 1024 tile times a 1024 × 128 operand into zero: entry (r, c) is the sum over h of l (r, h) · t (h, c). -/
theorem scoreProduct_apply (l : FVec Ideal S512x1024 .bf16) (t : FVec Ideal S1024x128 .bf16) (r : Fin 512) (c : Fin 128) :
    matmul dotS none l t (constant (F := Ideal) S512x128 .f32 0x00000000#32) (ix2 r c)
      = ∑ h : Fin 1024, l (ix2 r h) * t (ix2 h c) := by
  simp only [matmul]
  rw [Ideal.matmul_constant_zero_apply, ← Equiv.sum_comp (contrEquiv1 dotS 1024 rfl rfl).symm]
  refine Finset.sum_congr rfl fun k _ => ?_
  have hk := contrEquiv1_symm_val dotS 1024 rfl rfl k
  have el : dotS.lhsIdx (ix2 r c) ((contrEquiv1 dotS 1024 rfl rfl).symm k) = ix2 r k := funext fun a => Fin.ext (by
    match a with
    | ⟨0, _⟩ => exact lhsS0 _ _
    | ⟨1, _⟩ => exact (lhsS1 _ _).trans hk)
  have er : dotS.rhsIdx (ix2 r c) ((contrEquiv1 dotS 1024 rfl rfl).symm k) = ix2 k c := funext fun a => Fin.ext (by
    match a with
    | ⟨0, _⟩ => exact (rhsS0 _ _).trans hk
    | ⟨1, _⟩ => exact rhsS1 _ _)
  rw [el, er]

/-! ## The payloads of the projection kernel and the score tile -/

/-- The query block: tanh of the block of x times the transposed first weight. -/
theorem queryBlock_apply (v0 : Vec Ideal S512x1024 .f32) (v3 : Vec Ideal S1024x1024 .bf16) (p : Fin 512) (q : Fin 1024) :
    k0_pay2 (F := Ideal) v0 v3 (ix2 p q) = Ideal.tanh (∑ h : Fin 1024, v0 (ix2 p h) * v3 (ix2 h q)) := by
  unfold k0_pay2 k0_pay1
  simp only [shapeCast_self]
  show Ideal.tanh (matmul (F := Ideal) dotP none (truncf .bf16 v0 bitsLt_bf16_f32) v3 (constant (F := Ideal) S512x1024 .f32 0x00000000#32) (ix2 p q)) = _
  rw [projProduct_apply]
  rfl

/-- The key block: the block of x times the transposed second weight. -/
theorem keyBlock_apply (v0 : Vec Ideal S512x1024 .f32) (v6 : Vec Ideal S1024x1024 .bf16) (p : Fin 512) (q : Fin 1024) :
    k0_pay3 (F := Ideal) v0 v6 (ix2 p q) = ∑ h : Fin 1024, v0 (ix2 p h) * v6 (ix2 h q) := by
  unfold k0_pay3 k0_pay1
  simp only [shapeCast_self]
  show matmul (F := Ideal) (φ₁ := .bf16) (φ₂ := .bf16) dotP none (truncf .bf16 v0 bitsLt_bf16_f32) v6 (constant (F := Ideal) S512x1024 .f32 0x00000000#32) (ix2 p q) = _
  rw [projProduct_apply]
  rfl

/-- The score tile: a tile of the query array against a block of the key array. -/
theorem scoreTile_apply (v27 : Vec Ideal S512x1024 .bf16) (v29 : Vec Ideal S128x1024 .bf16) (r : Fin 512) (c : Fin 128) :
    k1_pay4 (F := Ideal) v27 v29 (ix2 r c) = ∑ h : Fin 1024, v27 (ix2 r h) * v29 (ix2 c h) := by
  unfold k1_pay4
  simp only [shapeCast_self]
  rw [scoreProduct_apply]
  refine Finset.sum_congr rfl fun h _ => ?_
  rw [transpose_ix2_apply]

end Cert.KernelIdeal.Pay

end
-- ==== Proof.AttnSpec.lean ====
/-
  The statement's mathematics, free of any program.

  Additive attention over one batch entry: with x an 8192 × 1024 array and w1, w2 two 1024 × 1024 weight arrays,
  the query array is tanh (x · w1ᵀ), the key array x · w2ᵀ, and the score of a (query row i, key row j) pair is the
  inner product of query row i with key row j. The softmax runs over the QUERY index i, separately for every key
  index j: a column of the score array is shifted by its maximum, exponentiated and divided by the sum of the
  exponentials. The context row j is row j of x scaled by the total of column j of the attention array.

  Everything is an extended real: sums and products are EReal's, tanh / exp / the quotient are the ideal
  instance's (PureOps/Ideal.lean). Two readings of one column are given:
  * the WHOLE-COLUMN reading (colMax, colExp, colSum, colAttn, colTot): maximum folded from −∞ over all 8192
    entries, then the exponentials, their sum, the quotients, their total;
  * the TILED reading (runMax, runSum, runTot): the column cut in 16 tiles of 512 consecutive entries; a running
    maximum, a running sum rescaled by exp (old maximum − new maximum) each time the maximum moves, and then a
    second sweep that multiplies every exponential by the reciprocal 1 / (final sum) and totals the products.
  That the two readings agree on a column of real numbers is the law the certificate rests on.
-/
import Idealize.ShloMosaic.PureOps.Ideal
import Idealize.ShloMosaic.Lib.ValueIdx

noncomputable section

open scoped BigOperators

namespace Cert.Attn

open Idealize.ShloMosaic

/-! ## The arrays, by coordinates -/

/-- x · wᵀ at (i, o): the sum over h of x i h · w o h. -/
def proj (x : Fin 8192 → Fin 1024 → EReal) (w : Fin 1024 → Fin 1024 → EReal) (i : Fin 8192) (o : Fin 1024) : EReal :=
  ∑ h : Fin 1024, x i h * w o h

/-- The query array tanh (x · w1ᵀ). -/
def query (x : Fin 8192 → Fin 1024 → EReal) (w1 : Fin 1024 → Fin 1024 → EReal) (i : Fin 8192) (o : Fin 1024) : EReal :=
  Ideal.tanh (proj x w1 i o)

/-- The score of query row i against key row j. -/
def score (x : Fin 8192 → Fin 1024 → EReal) (w1 w2 : Fin 1024 → Fin 1024 → EReal) (i j : Fin 8192) : EReal :=
  ∑ h : Fin 1024, query x w1 i h * proj x w2 j h

/-! ## One column, read whole -/

/-- The column's maximum, folded from −∞. -/
def colMax (col : Fin 8192 → EReal) : EReal := (Finset.univ : Finset (Fin 8192)).fold max ⊥ col

/-- The shifted exponential of entry i. -/
def colExp (col : Fin 8192 → EReal) (i : Fin 8192) : EReal := Ideal.exp (col i - colMax col)

/-- The softmax denominator. -/
def colSum (col : Fin 8192 → EReal) : EReal := ∑ i : Fin 8192, colExp col i

/-- The softmax of the column at entry i. -/
def colAttn (col : Fin 8192 → EReal) (i : Fin 8192) : EReal := Ideal.div (colExp col i) (colSum col)

/-- The total of the column's softmax. -/
def colTot (col : Fin 8192 → EReal) : EReal := ∑ i : Fin 8192, colAttn col i

/-! ## One column, read tile by tile -/

/-- Entry r of tile k: position 512·k + r of the column. -/
def row (k : Fin 16) (r : Fin 512) : Fin 8192 := ⟨512 * k.val + r.val, by omega⟩

/-- The maximum of tile k, folded from −∞. -/
def tileMax (col : Fin 8192 → EReal) (k : Fin 16) : EReal :=
  (Finset.univ : Finset (Fin 512)).fold max ⊥ (fun r => col (row k r))

/-- The running maximum after the first k tiles. -/
def runMax (col : Fin 8192 → EReal) : ℕ → EReal
  | 0 => ⊥
  | k + 1 => if h : k < 16 then max (runMax col k) (tileMax col ⟨k, h⟩) else runMax col k

/-- The running sum after the first k tiles: the old sum rescaled to the new maximum, plus the tile's exponentials. -/
def runSum (col : Fin 8192 → EReal) : ℕ → EReal
  | 0 => 0
  | k + 1 =>
    if h : k < 16 then
      Ideal.exp (runMax col k - runMax col (k + 1)) * runSum col k
        + ∑ r : Fin 512, Ideal.exp (col (row ⟨k, h⟩ r) - runMax col (k + 1))
    else runSum col k

/-- The second sweep's value at entry r of tile k: the exponential shifted by the final maximum, times the
    reciprocal of the final sum. -/
def tiledAttn (col : Fin 8192 → EReal) (k : Fin 16) (r : Fin 512) : EReal :=
  Ideal.exp (col (row k r) - runMax col 16) * Ideal.div 1 (runSum col 16)

/-- The running total of the second sweep after the first k tiles. -/
def runTot (col : Fin 8192 → EReal) : ℕ → EReal
  | 0 => 0
  | k + 1 => if h : k < 16 then runTot col k + ∑ r : Fin 512, tiledAttn col ⟨k, h⟩ r else runTot col k

/-! ## The two results as arrays -/

/-- Rank-3 and rank-2 argument arrays by coordinates (the leading axis of x has extent 1). -/
def xOf (a0 : (⟨3, ![1, 8192, 1024]⟩ : Shape).Idx → EReal) (i : Fin 8192) (h : Fin 1024) : EReal := a0 (ValueIdx.ix3 (0 : Fin 1) i h)
def wOf (a : (⟨2, ![1024, 1024]⟩ : Shape).Idx → EReal) (o h : Fin 1024) : EReal := a (ValueIdx.ix2 o h)

/-- Column j of the score array. -/
def scoreCol (a0 : (⟨3, ![1, 8192, 1024]⟩ : Shape).Idx → EReal) (a1 a2 : (⟨2, ![1024, 1024]⟩ : Shape).Idx → EReal)
    (j : Fin 8192) : Fin 8192 → EReal :=
  fun i => score (xOf a0) (wOf a1) (wOf a2) i j

/-- The attention array: entry (0, i, j) is the softmax over i of column j of the scores. -/
def attnArr (a0 : (⟨3, ![1, 8192, 1024]⟩ : Shape).Idx → EReal) (a1 a2 : (⟨2, ![1024, 1024]⟩ : Shape).Idx → EReal) :
    (⟨3, ![1, 8192, 8192]⟩ : Shape).Idx → EReal :=
  fun y => colAttn (scoreCol a0 a1 a2 (y 2)) (y 1)

/-- The context array: entry (0, j, h) is x (j, h) scaled by the total of attention column j. -/
def ctxArr (a0 : (⟨3, ![1, 8192, 1024]⟩ : Shape).Idx → EReal) (a1 a2 : (⟨2, ![1024, 1024]⟩ : Shape).Idx → EReal) :
    (⟨3, ![1, 8192, 1024]⟩ : Shape).Idx → EReal :=
  fun y => colTot (scoreCol a0 a1 a2 (y 1)) * xOf a0 (y 1) (y 2)

end Cert.Attn

end
-- ==== Proof.RegionOne.lean ====
/-
  The first call's two result arrays as functions of the argument arrays.

  The grid has 16 points; point t handles rows 512·t … 512·t + 511. At point t the body reads block t of x and the
  whole of each transposed weight array, and writes block t of each result: entry (p, q) of the first is
  tanh (∑ h, x (512·t + p, h) · w1 (q, h)), of the second ∑ h, x (512·t + p, h) · w2 (q, h). Every row r of a result
  array lies in the block of point r / 512, so after the 16 points the first result array is the query array and the
  second the key array, entry by entry; x itself is never written back and stays as entered.
-/
import proofs.«163533_j21277267984815_2_alg».proof.Proof.FrameIdeal
import proofs.«163533_j21277267984815_2_alg».proof.Proof.HostGlue
import proofs.«163533_j21277267984815_2_alg».proof.Proof.PayMatmul
import proofs.«163533_j21277267984815_2_alg».proof.Proof.AttnSpec
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.GenP Cert.KernelIdeal.Pay Cert.KernelIdeal.Glue
open Idealize.ShloMosaic Idealize.ShloMosaic.TcCoe Idealize.ShloMosaic.ValueIdx
open Idealize.ShloMosaic.Pipeline (Dat)

/-! ## The grid's index maps -/

theorem zeros2 : (![0, 0] : Fin 2 → Nat) = fun _ => 0 := funext fun a => by
  match a with
  | ⟨0, _⟩ => rfl
  | ⟨1, _⟩ => rfl

/-- The printed index maps, decided over the 16 points: the block of x and both result blocks are block t along the
    rows, the two weight arrays are whole at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input windows are never written back. -/
theorem no_flush_x : ∀ t : Fin cfg0.N, (cfg0.win 0).flush t = false :=
  (by decide +kernel : ∀ t : Fin grid0.N, win0_0.flush t = false)

theorem point_lt (t : Fin cfg0.N) : t.val < 16 := lt_of_lt_of_eq t.isLt N_0

/-! ## Where a block's entry sits in its array -/

theorem xBlock_emb (t : Fin cfg0.N) (p : Fin 512) (h : Fin 1024) (hp : 512 * t.val + p.val < 8192) :
    ((cfg0.win 0).blk t).view.emb (ix2 p h) = (ix2 (⟨512 * t.val + p.val, hp⟩ : Fin 8192) h : S8192x1024.Idx) := by
  obtain ⟨e0, e1, -⟩ := block_indices t
  funext a
  apply Fin.ext
  match a with
  | ⟨0, _⟩ =>
    show win0_0.index t (0 : Fin 2) * 512 + 1 * p.val = 512 * t.val + p.val
    omega
  | ⟨1, _⟩ =>
    show win0_0.index t (1 : Fin 2) * 1024 + 1 * h.val = h.val
    omega

theorem w1Block_emb (t : Fin cfg0.N) (h q : Fin 1024) :
    ((cfg0.win 1).blk t).view.emb (ix2 h q) = (ix2 h q : S1024x1024.Idx) := by
  obtain ⟨-, -, e0, e1, -⟩ := block_indices t
  funext a
  apply Fin.ext
  match a with
  | ⟨0, _⟩ =>
    show win0_1.index t (0 : Fin 2) * 1024 + 1 * h.val = h.val
    omega
  | ⟨1, _⟩ =>
    show win0_1.index t (1 : Fin 2) * 1024 + 1 * q.val = q.val
    omega

theorem w2Block_emb (t : Fin cfg0.N) (h q : Fin 1024) :
    ((cfg0.win 2).blk t).view.emb (ix2 h q) = (ix2 h q : S1024x1024.Idx) := by
  obtain ⟨-, -, -, -, e0, e1, -⟩ := block_indices t
  funext a
  apply Fin.ext
  match a with
  | ⟨0, _⟩ =>
    show win0_2.index t (0 : Fin 2) * 1024 + 1 * h.val = h.val
    omega
  | ⟨1, _⟩ =>
    show win0_2.index t (1 : Fin 2) * 1024 + 1 * q.val = q.val
    omega

theorem queryBlock_emb (t : Fin cfg0.N) (p : Fin 512) (q : Fin 1024) (hp : 512 * t.val + p.val < 8192) :
    ((cfg0.win 3).blk t).view.emb (ix2 p q) = (ix2 (⟨512 * t.val + p.val, hp⟩ : Fin 8192) q : S8192x1024.Idx) := by
  obtain ⟨-, -, -, -, -, -, e0, e1, -⟩ := block_indices t
  funext a
  apply Fin.ext
  match a with
  | ⟨0, _⟩ =>
    show win0_3.index t (0 : Fin 2) * 512 + 1 * p.val = 512 * t.val + p.val
    omega
  | ⟨1, _⟩ =>
    show win0_3.index t (1 : Fin 2) * 1024 + 1 * q.val = q.val
    omega

theorem keyBlock_emb (t : Fin cfg0.N) (p : Fin 512) (q : Fin 1024) (hp : 512 * t.val + p.val < 8192) :
    ((cfg0.win 4).blk t).view.emb (ix2 p q) = (ix2 (⟨512 * t.val + p.val, hp⟩ : Fin 8192) q : S8192x1024.Idx) := by
  obtain ⟨-, -, -, -, -, -, -, -, e0, e1⟩ := block_indices t
  funext a
  apply Fin.ext
  match a with
  | ⟨0, _⟩ =>
    show win0_4.index t (0 : Fin 2) * 512 + 1 * p.val = 512 * t.val + p.val
    omega
  | ⟨1, _⟩ =>
    show win0_4.index t (1 : Fin 2) * 1024 + 1 * q.val = q.val
    omega

section Run

variable (m : (ℓ : Loc nD τ sig) → Buf (Elt Ideal) ℓ) (ρ : Dev nD → PrngReg) (c : Dev nD)

/-! ## The region's entry contents, read at an index -/

/-- The three argument arrays as launched. -/
abbrev argX : (⟨3, ![1, 8192, 1024]⟩ : Shape).Idx → EReal := m ((c : Thread nD τ).loc main_arg0)
abbrev argW1 : (⟨2, ![1024, 1024]⟩ : Shape).Idx → EReal := m ((c : Thread nD τ).loc main_arg1)
abbrev argW2 : (⟨2, ![1024, 1024]⟩ : Shape).Idx → EReal := m ((c : Thread nD τ).loc main_arg2)

theorem entry_x (i : Fin 8192) (h : Fin 1024) :
    V1 m ρ c main_v0 (ix2 i h) = Cert.Attn.xOf (argX m c) i h :=
  before_x (W0 m ρ c) i h

theorem entry_w1t (h o : Fin 1024) : V1 m ρ c main_v2 (ix2 h o) = Cert.Attn.wOf (argW1 m c) o h :=
  before_w1t (W0 m ρ c) h o

theorem entry_w2t (h o : Fin 1024) : V1 m ρ c main_v4 (ix2 h o) = Cert.Attn.wOf (argW2 m c) o h :=
  before_w2t (W0 m ρ c) h o

/-! ## The two result arrays -/

/-- The query array: tanh of x times the transposed first weight, entry by entry. -/
def queryArr : S8192x1024.Idx → EReal :=
  fun y => Cert.Attn.query (Cert.Attn.xOf (argX m c)) (Cert.Attn.wOf (argW1 m c)) (y 0) (y 1)

/-- The key array: x times the transposed second weight, entry by entry. -/
def keyArr : S8192x1024.Idx → EReal :=
  fun y => Cert.Attn.proj (Cert.Attn.xOf (argX m c)) (Cert.Attn.wOf (argW2 m c)) (y 0) (y 1)

/-- What point t writes back through the first result window is block t of the query array. -/
theorem flushed_query (t : Fin cfg0.N) :
    (dat0 (V1 m ρ) c).flushed 3 t = ((cfg0.win 3).blk t).view.read (Elt Ideal) (queryArr m c) := by
  show (cfg0.win 3).cut (grid0.coords t) ((dat0 (V1 m ρ) c).after 3 t) = _
  rw [after0_3]
  unfold out0_3
  rw [View.canon_unit_zero zeros2]
  simp only [View.ld_unit_zero (S := S512x1024) zeros2, View.ld_unit_zero (S := S1024x1024) zeros2]
  have ht := point_lt t
  refine funext fun (j : S512x1024.Idx) => ?_
  obtain ⟨p, q, rfl⟩ : ∃ (p : Fin 512) (q : Fin 1024), j = ix2 p q := ⟨j 0, j 1, eq_ix2 j⟩
  have hp : 512 * t.val + p.val < 8192 := by omega
  show k0_pay2 (F := Ideal) (iblk0 (V1 m ρ) c 0 t) (iblk0 (V1 m ρ) c 1 t) (ix2 p q)
    = queryArr m c (((cfg0.win 3).blk t).view.emb (ix2 p q))
  rw [queryBlock_apply, queryBlock_emb t p q hp]
  refine (congrArg Ideal.tanh (Finset.sum_congr rfl fun h _ => ?_)).trans
    (rfl : Ideal.tanh (∑ h : Fin 1024, Cert.Attn.xOf (argX m c) ⟨512 * t.val + p.val, hp⟩ h * Cert.Attn.wOf (argW1 m c) q h)
      = queryArr m c (ix2 (⟨512 * t.val + p.val, hp⟩ : Fin 8192) q))
  have e1 : iblk0 (V1 m ρ) c 0 t (ix2 p h) = Cert.Attn.xOf (argX m c) ⟨512 * t.val + p.val, hp⟩ h := by
    show V1 m ρ c main_v0 (((cfg0.win 0).blk t).view.emb (ix2 p h)) = _
    rw [xBlock_emb t p h hp]
    exact entry_x m ρ c _ h
  have e2 : iblk0 (V1 m ρ) c 1 t (ix2 h q) = Cert.Attn.wOf (argW1 m c) q h := by
    show V1 m ρ c main_v2 (((cfg0.win 1).blk t).view.emb (ix2 h q)) = _
    rw [w1Block_emb t h q]
    exact entry_w1t m ρ c h q
  exact congrArg₂ (· * ·) e1 e2

/-- What point t writes back through the second result window is block t of the key array. -/
theorem flushed_key (t : Fin cfg0.N) :
    (dat0 (V1 m ρ) c).flushed 4 t = ((cfg0.win 4).blk t).view.read (Elt Ideal) (keyArr m c) := by
  show (cfg0.win 4).cut (grid0.coords t) ((dat0 (V1 m ρ) c).after 4 t) = _
  rw [after0_4]
  unfold out0_4
  rw [View.canon_unit_zero zeros2]
  simp only [View.ld_unit_zero (S := S512x1024) zeros2, View.ld_unit_zero (S := S1024x1024) zeros2]
  have ht := point_lt t
  refine funext fun (j : S512x1024.Idx) => ?_
  obtain ⟨p, q, rfl⟩ : ∃ (p : Fin 512) (q : Fin 1024), j = ix2 p q := ⟨j 0, j 1, eq_ix2 j⟩
  have hp : 512 * t.val + p.val < 8192 := by omega
  show k0_pay3 (F := Ideal) (iblk0 (V1 m ρ) c 0 t) (iblk0 (V1 m ρ) c 2 t) (ix2 p q)
    = keyArr m c (((cfg0.win 4).blk t).view.emb (ix2 p q))
  rw [keyBlock_apply, keyBlock_emb t p q hp]
  refine (Finset.sum_congr rfl fun h _ => ?_).trans
    (rfl : (∑ h : Fin 1024, Cert.Attn.xOf (argX m c) ⟨512 * t.val + p.val, hp⟩ h * Cert.Attn.wOf (argW2 m c) q h)
      = keyArr m c (ix2 (⟨512 * t.val + p.val, hp⟩ : Fin 8192) q))
  have e1 : iblk0 (V1 m ρ) c 0 t (ix2 p h) = Cert.Attn.xOf (argX m c) ⟨512 * t.val + p.val, hp⟩ h := by
    show V1 m ρ c main_v0 (((cfg0.win 0).blk t).view.emb (ix2 p h)) = _
    rw [xBlock_emb t p h hp]
    exact entry_x m ρ c _ h
  have e2 : iblk0 (V1 m ρ) c 2 t (ix2 h q) = Cert.Attn.wOf (argW2 m c) q h := by
    show V1 m ρ c main_v4 (((cfg0.win 2).blk t).view.emb (ix2 h q)) = _
    rw [w2Block_emb t h q]
    exact entry_w2t m ρ c h q
  exact congrArg₂ (· * ·) e1 e2

/-! ## The blocks cover the arrays -/

/-- An index of the array is in point t's block iff each coordinate is in the block's range on its axis. -/
theorem mem_queryBlock (t : Fin cfg0.N) (i : S8192x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v5_0).slice (win0_3.rect t)).set ↔ _
  rw [View.set_slice_whole, Rect.mem_set_unit]
  exact Iff.rfl

theorem mem_keyBlock (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5_1).slice (win0_4.rect t)).set ↔ _
  rw [View.set_slice_whole, Rect.mem_set_unit]
  exact Iff.rfl

/-- Row r of either result array is in the block of point r / 512. -/
theorem cover_query (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, lt_of_lt_of_eq (by omega) N_0.symm⟩, rfl⟩
  obtain ⟨-, -, -, -, -, -, e0, e1, -⟩ := block_indices t
  refine ⟨t, flush0_3 t, ?_⟩
  rw [mem_queryBlock]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

theorem cover_key (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, lt_of_lt_of_eq (by omega) N_0.symm⟩, rfl⟩
  obtain ⟨-, -, -, -, -, -, -, -, e0, e1⟩ := block_indices t
  refine ⟨t, flush0_4 t, ?_⟩
  rw [mem_keyBlock]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 1024 ≤ (i 1).val ∧ (i 1).val < win0_4.index t (1 : Fin 2) * 1024 + 1024
    omega

/-! ## The arrays after the region -/

/-- The first result array after the 16 points: the query array. -/
theorem queryArray : (dat0 (V1 m ρ) c).arrAt 3 cfg0.N = queryArr m c :=
  (dat0 (V1 m ρ) c).arrAt_eq_of_cover 3 (queryArr m c) (fun t _ => flushed_query m ρ c t) cover_query

/-- The second result array after the 16 points: the key array. -/
theorem keyArray : (dat0 (V1 m ρ) c).arrAt 4 cfg0.N = keyArr m c :=
  (dat0 (V1 m ρ) c).arrAt_eq_of_cover 4 (keyArr m c) (fun t _ => flushed_key m ρ c t) cover_key

/-- The block array x is an input: no point writes it back, it stays as entered. -/
theorem xArray : (dat0 (V1 m ρ) c).arrAt 0 cfg0.N = V1 m ρ c main_v0 :=
  funext fun i => ((dat0 (V1 m ρ) c).arrAt_apply_of_forall_not_mem 0 cfg0.N i
    (fun t _ hf => absurd hf (by rw [no_flush_x t]; exact Bool.false_ne_true))).trans
    (congrFun (A_eq0 (V1 m ρ) c 0) i)

/-! ## The second region's entry contents -/

theorem exit_query : V2 m ρ c main_v5_0 = queryArr m c := (W2_arr m ρ c 3).trans (queryArray m ρ c)

theorem exit_key : V2 m ρ c main_v5_1 = keyArr m c := (W2_arr m ρ c 4).trans (keyArray m ρ c)

theorem exit_x (i : Fin 8192) (h : Fin 1024) : V2 m ρ c main_v0 (ix2 i h) = Cert.Attn.xOf (argX m c) i h :=
  (congrFun ((W2_arr m ρ c 0).trans (xArray m ρ c)) (ix2 i h)).trans (entry_x m ρ c i h)

/-- The two result arrays at an index. -/
theorem exit_query_apply (i : Fin 8192) (o : Fin 1024) :
    V2 m ρ c main_v5_0 (ix2 i o) = Cert.Attn.query (Cert.Attn.xOf (argX m c)) (Cert.Attn.wOf (argW1 m c)) i o :=
  congrFun (exit_query m ρ c) (ix2 i o)

theorem exit_key_apply (i : Fin 8192) (o : Fin 1024) :
    V2 m ρ c main_v5_1 (ix2 i o) = Cert.Attn.proj (Cert.Attn.xOf (argX m c)) (Cert.Attn.wOf (argW2 m c)) i o :=
  congrFun (exit_key m ρ c) (ix2 i o)

end Run

end Cert.KernelIdeal.Value

end
-- ==== Proof.PayTile.lean ====
/-
  The remaining payloads of the fused kernel, read at an index, on the extended reals.

  The first sweep keeps, per column c of the score tile, a running maximum and a running sum: the new maximum is
  the old one against the fold of max from −∞ over the tile's 512 rows; the new sum is the old one times
  exp (old maximum − new maximum) plus the sum over the rows of exp (score − new maximum). The second sweep
  multiplies exp (score − stored maximum) by the reciprocal 1 / (stored sum) and adds the tile's column sums to a
  running total. The context block scales row j of the block of x by the total of column j.
-/
import proofs.«163533_j21277267984815_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«163533_j21277267984815_2_alg».proof.Proof.PayMatmul

noncomputable section

open scoped BigOperators

namespace Cert.KernelIdeal.Pay

open Cert.KernelIdeal Cert.KernelIdeal.Gen Idealize.ShloMosaic Idealize.ShloMosaic.ValueIdx

/-! ## The literals -/

theorem negInf_f32 : Ideal.ofBits .f32 0xFF800000#32 = (⊥ : EReal) := by simp [Ideal.ofBits, Ideal.ieee]

theorem one_f32 : Ideal.ofBits .f32 0x3F800000#32 = (1 : EReal) := by
  simp [Ideal.ofBits, Ideal.ieee, -EReal.coe_mul]; norm_num

/-! ## The initial values -/

theorem initMax_apply (y : S1x128.Idx) : k1_pay1 (F := Ideal) y = (⊥ : EReal) := by
  unfold k1_pay1
  simp only [shapeCast_self]
  exact negInf_f32

theorem initSum_apply (y : S1x128.Idx) : k1_pay2 (F := Ideal) y = (0 : EReal) := by
  unfold k1_pay2
  simp only [shapeCast_self]
  exact Ideal.ofBits_zero_f32

theorem initTot_apply (y : S1x128.Idx) : k1_pay3 (F := Ideal) y = (0 : EReal) := by
  unfold k1_pay3
  simp only [shapeCast_self]
  exact Ideal.ofBits_zero_f32

/-! ## Layout: the reduced index with a row put back, a row turned into a column, a column spread over rows -/

/-- Column c of a 512 × 128 vector with row r put back is the index (r, c). -/
theorem lift_ix1 (c : Fin 128) (r : Fin 512) : reduces_S512x128_S128.lift (ix1 c) r = ix2 r c := by
  funext a
  apply Fin.ext
  match a with
  | ⟨0, _⟩ => rfl
  | ⟨1, _⟩ => rfl

/-- A [1, a] array transposed to [a, 1] reads, at (i, u), the operand at (0, i). -/
theorem transpose_1a_a1_apply {α : Type} {a : ℕ} (x : (⟨2, ![1, a]⟩ : Shape).Idx → α)
    (h : (⟨2, ![1, a]⟩ : Shape).Transposes [1, 0] ⟨2, ![a, 1]⟩) (i : Fin a) (u : Fin 1) :
    transpose ⟨2, ![a, 1]⟩ [1, 0] x h (ix2 i u) = x (ix2 (0 : Fin 1) i) := by
  have hu : u = 0 := Subsingleton.elim _ _
  rw [hu]
  exact transpose_ix2_apply x h i 0

/-- An [a, 1] array broadcast to [a, b] reads, at (i, j), the operand's one column at i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two column reductions of a 512 × 128 vector, kept as a [1, 128] row -/

/-- The column sums: at column c, the sum over the 512 rows. -/
theorem colSum_apply (src : FVec Ideal S512x128 .f32) (c : Fin 128) :
    shapeCast S1x128 (multiReduction (F := Ideal) .add [0] S128 src 0x00000000#32 reduces_S512x128_S128 (.inl rfl) rfl)
        shapeCasts_S128_S1x128 (ix2 (0 : Fin 1) c)
      = ∑ r : Fin 512, src (ix2 r c) := by
  refine (shapeCast_a_1a_apply _ shapeCasts_S128_S1x128 0 c).trans ?_
  refine (Ideal.multiReduction_add_single src 0x00000000#32 reduces_S512x128_S128 (.inl rfl) rfl (ix1 c)).trans ?_
  exact Finset.sum_congr rfl fun r _ => congrArg src (lift_ix1 c r)

/-- The column maxima: at column c, the fold of max from −∞ over the 512 rows. -/
theorem colMax_apply (src : FVec Ideal S512x128 .f32) (c : Fin 128) :
    shapeCast S1x128 (multiReduction (F := Ideal) .maximumf [0] S128 src 0xFF800000#32 reduces_S512x128_S128 (.inl rfl) rfl)
        shapeCasts_S128_S1x128 (ix2 (0 : Fin 1) c)
      = (Finset.univ : Finset (Fin 512)).fold max ⊥ (fun r => src (ix2 r c)) := by
  refine (shapeCast_a_1a_apply _ shapeCasts_S128_S1x128 0 c).trans ?_
  refine (Ideal.multiReduction_maximumf_single src 0xFF800000#32 reduces_S512x128_S128 (.inl rfl) rfl (ix1 c)).trans ?_
  show (Finset.univ : Finset (Fin 512)).fold max (Ideal.ofBits .f32 0xFF800000#32)
      (fun r : Fin 512 => src (reduces_S512x128_S128.lift (ix1 c) r)) = _
  rw [negInf_f32]
  exact Finset.fold_congr (fun r _ => congrArg src (lift_ix1 c r))

/-! ## The first sweep -/

/-- the new running maximum: the old one against the tile's column maximum folded from −∞ -/
theorem newMax_apply (v27 : Vec Ideal S512x1024 .bf16) (v29 : Vec Ideal S128x1024 .bf16) (v37 : Vec Ideal S1x128 .f32) (c : Fin 128) :
    k1_pay5 (F := Ideal) v27 v29 v37 (ix2 (0 : Fin 1) c)
      = max (v37 (ix2 (0 : Fin 1) c)) ((Finset.univ : Finset (Fin 512)).fold max ⊥ (fun r => k1_pay4 (F := Ideal) v27 v29 (ix2 r c))) := by
  unfold k1_pay5
  refine (maximumf_apply _ _ _).trans ?_
  exact congrArg (max (v37 (ix2 (0 : Fin 1) c))) (colMax_apply (k1_pay4 (F := Ideal) v27 v29) c)

theorem storedMax_apply (v27 : Vec Ideal S512x1024 .bf16) (v29 : Vec Ideal S128x1024 .bf16) (v37 : Vec Ideal S1x128 .f32) (c : Fin 128) :
    k1_pay7 (F := Ideal) v27 v29 v37 (ix2 (0 : Fin 1) c) = k1_pay5 (F := Ideal) v27 v29 v37 (ix2 (0 : Fin 1) c) := by
  unfold k1_pay7
  exact congrFun (shapeCast_self _ _) _

/-- the new running sum: the old one rescaled, plus the tile's exponentials -/
theorem newSum_apply (v27 : Vec Ideal S512x1024 .bf16) (v29 : Vec Ideal S128x1024 .bf16) (v37 v39 v47 : Vec Ideal S1x128 .f32) (c : Fin 128) :
    k1_pay6 (F := Ideal) v27 v29 v37 v39 v47 (ix2 (0 : Fin 1) c)
      = Ideal.exp (v39 (ix2 (0 : Fin 1) c) - k1_pay5 (F := Ideal) v27 v29 v37 (ix2 (0 : Fin 1) c)) * v47 (ix2 (0 : Fin 1) c)
        + ∑ r : Fin 512, Ideal.exp (k1_pay4 (F := Ideal) v27 v29 (ix2 r c) - k1_pay5 (F := Ideal) v27 v29 v37 (ix2 (0 : Fin 1) c)) := by
  unfold k1_pay6
  refine (congrFun (shapeCast_self _ _) _).trans ?_
  refine (addf_apply _ _ _).trans ?_
  refine congrArg₂ (· + ·) rfl ?_
  refine (colSum_apply _ c).trans ?_
  refine Finset.sum_congr rfl fun r _ => ?_
  exact congrArg (fun z => Ideal.exp (k1_pay4 (F := Ideal) v27 v29 (ix2 r c) - z))
    (broadcastTo_1b_ab_apply (k1_pay5 (F := Ideal) v27 v29 v37) broadcasts_S1x128_S512x128 r c)

/-! ## The second sweep -/

/-- the second sweep's tile: exponential shifted by the stored maximum, times the reciprocal of the stored sum -/
theorem normTile_apply (v13 : Vec Ideal S1x128 .f32) (v27 : Vec Ideal S512x128 .f32) (v29 : Vec Ideal S1x128 .f32) (r : Fin 512) (c : Fin 128) :
    k1_pay8 (F := Ideal) v13 v27 v29 (ix2 r c)
      = Ideal.exp (v27 (ix2 r c) - v29 (ix2 (0 : Fin 1) c)) * Ideal.div 1 (v13 (ix2 (0 : Fin 1) c)) := by
  unfold k1_pay8
  simp only [shapeCast_self]
  refine (mulf_apply _ _ _).trans ?_
  refine congrArg₂ (· * ·) ?_ ?_
  · exact congrArg (fun z => Ideal.exp (v27 (ix2 r c) - z)) (broadcastTo_1b_ab_apply v29 broadcasts_S1x128_S512x128 r c)
  · refine (broadcastTo_1b_ab_apply _ broadcasts_S1x128_S512x128 r c).trans ?_
    show Ideal.div (Ideal.ofBits .f32 0x3F800000#32) (v13 (ix2 (0 : Fin 1) c)) = _
    rw [one_f32]

theorem newTot_apply (v13 : Vec Ideal S1x128 .f32) (v27 : Vec Ideal S512x128 .f32) (v29 v37 : Vec Ideal S1x128 .f32) (c : Fin 128) :
    k1_pay9 (F := Ideal) v13 v27 v29 v37 (ix2 (0 : Fin 1) c)
      = v37 (ix2 (0 : Fin 1) c) + ∑ r : Fin 512, k1_pay8 (F := Ideal) v13 v27 v29 (ix2 r c) := by
  unfold k1_pay9
  refine (congrFun (shapeCast_self _ _) _).trans ?_
  refine (addf_apply _ _ _).trans ?_
  exact congrArg (fun z => v37 (ix2 (0 : Fin 1) c) + z) (colSum_apply (k1_pay8 (F := Ideal) v13 v27 v29) c)

/-! ## The context block -/

/-- the context block: the column totals, one per row, times the block of x -/
theorem ctxBlock_apply (v17 : Vec Ideal S1x128 .f32) (v19 : Vec Ideal S128x1024 .f32) (j : Fin 128) (h : Fin 1024) :
    k1_pay10 (F := Ideal) v17 v19 (ix2 j h) = v17 (ix2 (0 : Fin 1) j) * v19 (ix2 j h) := by
  unfold k1_pay10
  simp only [shapeCast_self]
  refine (mulf_apply _ _ _).trans ?_
  refine congrArg (fun z => z * v19 (ix2 j h)) ?_
  refine (broadcastTo_a1_ab_apply _ broadcasts_S128x1_S128x1024 j h).trans ?_
  exact transpose_1a_a1_apply v17 transposes_S1x128_p1_0_S128x1 j 0

end Cert.KernelIdeal.Pay

end
-- ==== Proof.AttnLaw.lean ====
/-
  The law the certificate rests on: on a column of real numbers the tiled reading of the softmax agrees with
  the whole-column reading.

  * The maximum. Folding max from −∞ is taking a finite supremum; every position of the column is entry i % 512
    of tile i / 512, so the supremum of the 16 tile suprema is the supremum of the column (two inequalities).
  * The first sweep. On a real column the running maximum after at least one tile is a real number. The running
    sum after k + 1 tiles is the sum of exp (entry − running maximum) over the entries of those tiles: when the
    maximum moves from b to a, the old sum is multiplied by exp (b − a), and exp (b − a) · exp (c − b) = exp (c − a)
    over the reals; at the first tile the old maximum is −∞, exp (−∞ − a) = 0, and the old sum 0 stays 0.
    After 16 tiles this is the whole-column denominator, a sum of positive reals, hence a nonzero real.
  * The second sweep. A nonzero real denominator meets no corner of the quotient: x / l = x · l⁻¹ and
    1 / l = l⁻¹, so exponential · (1 / l) = exponential / l entry by entry, and the totals agree by regrouping the
    sum over (tile, entry) pairs as the sum over positions.
  * A finite sum of products of reals is a real, and tanh of a real is a real: the scores of real arguments are
    real.
-/
import proofs.«163533_j21277267984815_2_alg».proof.Proof.AttnSpec

noncomputable section

open scoped BigOperators

namespace Cert.Attn

open Idealize.ShloMosaic

/-! ## Positions and tiles -/

/-- Position i of the column is entry i % 512 of tile i / 512. -/
theorem row_div_mod (i : Fin 8192) :
    row ⟨i.val / 512, by omega⟩ ⟨i.val % 512, by omega⟩ = i := by
  apply Fin.ext
  simp only [row]
  omega

/-- The positions of the column are the pairs (tile, entry of the tile). -/
def tileEquiv : Fin 16 × Fin 512 ≃ Fin 8192 where
  toFun p := row p.1 p.2
  invFun i := (⟨i.val / 512, by omega⟩, ⟨i.val % 512, by omega⟩)
  left_inv := by
    rintro ⟨k, r⟩
    apply Prod.ext <;> apply Fin.ext <;> simp only [row] <;> omega
  right_inv := row_div_mod

/-- A sum over the tiles of the sums over each tile's entries is the sum over the column. -/
theorem sum_tiles {M : Type*} [AddCommMonoid M] (g : Fin 8192 → M) :
    ∑ k : Fin 16, ∑ r : Fin 512, g (row k r) = ∑ i : Fin 8192, g i := by
  rw [← Fintype.sum_prod_type' (fun k r => g (row k r))]
  exact Fintype.sum_equiv tileEquiv _ _ (fun _ => rfl)

/-- A sum accumulated over the step numbers 0 … 15 is the sum over the 16 tiles. -/
theorem sum_range_tiles {M : Type*} [AddCommMonoid M] (t : Fin 16 → M) :
    ∑ j ∈ Finset.range 16, (if h : j < 16 then t ⟨j, h⟩ else 0) = ∑ k : Fin 16, t k := by
  rw [← Fin.sum_univ_eq_sum_range (fun j => if h : j < 16 then t ⟨j, h⟩ else 0) 16]
  exact Finset.sum_congr rfl (fun k _ => by simp)

/-! ## The maximum -/

theorem colMax_eq_sup (col : Fin 8192 → EReal) : colMax col = Finset.univ.sup col := rfl

theorem tileMax_eq_sup (col : Fin 8192 → EReal) (k : Fin 16) :
    tileMax col k = Finset.univ.sup (fun r => col (row k r)) := rfl

theorem le_tileMax (col : Fin 8192 → EReal) (k : Fin 16) (r : Fin 512) : col (row k r) ≤ tileMax col k := by
  rw [tileMax_eq_sup]
  exact Finset.le_sup (f := fun r => col (row k r)) (Finset.mem_univ r)

theorem tileMax_le_colMax (col : Fin 8192 → EReal) (k : Fin 16) : tileMax col k ≤ colMax col := by
  rw [tileMax_eq_sup, colMax_eq_sup]
  exact Finset.sup_le (fun r _ => Finset.le_sup (f := col) (Finset.mem_univ (row k r)))

theorem runMax_succ (col : Fin 8192 → EReal) (k : ℕ) (h : k < 16) :
    runMax col (k + 1) = max (runMax col k) (tileMax col ⟨k, h⟩) := by
  rw [runMax, dif_pos h]

theorem runMax_le_succ (col : Fin 8192 → EReal) (k : ℕ) : runMax col k ≤ runMax col (k + 1) := by
  by_cases h : k < 16
  · rw [runMax_succ col k h]; exact le_max_left _ _
  · rw [runMax, dif_neg h]

theorem runMax_mono (col : Fin 8192 → EReal) : Monotone (runMax col) :=
  monotone_nat_of_le_succ (runMax_le_succ col)

theorem runMax_le_colMax (col : Fin 8192 → EReal) : ∀ k, runMax col k ≤ colMax col
  | 0 => bot_le
  | k + 1 => by
    by_cases h : k < 16
    · rw [runMax_succ col k h]
      exact max_le (runMax_le_colMax col k) (tileMax_le_colMax col _)
    · rw [runMax, dif_neg h]
      exact runMax_le_colMax col k

theorem tileMax_le_runMax (col : Fin 8192 → EReal) (k : Fin 16) : tileMax col k ≤ runMax col (k.val + 1) := by
  rw [runMax_succ col k.val k.isLt]
  exact le_max_right _ _

/-- The running maximum after all 16 tiles is the column's maximum. -/
theorem runMax_eq_colMax (col : Fin 8192 → EReal) : runMax col 16 = colMax col := by
  apply le_antisymm (runMax_le_colMax col 16)
  rw [colMax_eq_sup]
  apply Finset.sup_le
  intro i _
  have hk : i.val / 512 < 16 := by omega
  have hr : i.val % 512 < 512 := by omega
  calc col i = col (row ⟨i.val / 512, hk⟩ ⟨i.val % 512, hr⟩) := by rw [row_div_mod i]
    _ ≤ tileMax col ⟨i.val / 512, hk⟩ := le_tileMax col _ _
    _ ≤ runMax col (i.val / 512 + 1) := tileMax_le_runMax col ⟨i.val / 512, hk⟩
    _ ≤ runMax col 16 := runMax_mono col (by omega)

/-! ## Real numbers inside the extended reals -/

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (g : ι → EReal) (hg : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r₁, h₁⟩ := hg a (Finset.mem_insert_self a s)
    obtain ⟨r₂, h₂⟩ := ih (fun i hi => hg i (Finset.mem_insert_of_mem hi))
    exact ⟨r₁ + r₂, by rw [Finset.sum_insert ha, h₁, h₂, EReal.coe_add]⟩

/-- The shifted exponential of a real by a real is the real exponential of the difference. -/
theorem exp_coe_sub (a b : ℝ) : Ideal.exp ((a : EReal) - (b : EReal)) = ((Real.exp (a - b) : ℝ) : EReal) := by
  rw [← EReal.coe_sub, Ideal.exp_coe]

/-! ## The running maximum of a real column is real -/

section RealColumn

variable (f : Fin 8192 → ℝ)

theorem colMax_lt_top : colMax (fun i => (f i : EReal)) < ⊤ := by
  rw [colMax_eq_sup, Finset.sup_lt_iff bot_lt_top]
  exact fun i _ => EReal.coe_lt_top (f i)

/-- After at least one tile the running maximum is a real number. -/
theorem runMax_real (k : ℕ) (h : k < 16) : ∃ m : ℝ, runMax (fun i => (f i : EReal)) (k + 1) = (m : EReal) := by
  have hbot : runMax (fun i => (f i : EReal)) (k + 1) ≠ ⊥ := by
    have h1 : ((f (row ⟨k, h⟩ 0) : ℝ) : EReal) ≤ runMax (fun i => (f i : EReal)) (k + 1) :=
      (le_tileMax (fun i => (f i : EReal)) ⟨k, h⟩ 0).trans (tileMax_le_runMax (fun i => (f i : EReal)) ⟨k, h⟩)
    exact ne_of_gt (lt_of_lt_of_le (EReal.bot_lt_coe _) h1)
  have htop : runMax (fun i => (f i : EReal)) (k + 1) ≠ ⊤ :=
    ne_of_lt (lt_of_le_of_lt (runMax_le_colMax _ _) (colMax_lt_top f))
  exact ⟨_, (EReal.coe_toReal htop hbot).symm⟩

/-! ## The running sum -/

/-- The exponentials of the first k tiles, shifted by a, summed: the real number the running sum holds. -/
def partSum (k : ℕ) (a : ℝ) : ℝ :=
  ∑ j ∈ Finset.range k, if h : j < 16 then ∑ r : Fin 512, Real.exp (f (row ⟨j, h⟩ r) - a) else 0

/-- Moving the shift from b to a multiplies every exponential by exp (b − a). -/
theorem exp_mul_partSum (k : ℕ) (a b : ℝ) : Real.exp (b - a) * partSum f k b = partSum f k a := by
  unfold partSum
  rw [Finset.mul_sum]
  refine Finset.sum_congr rfl (fun j _ => ?_)
  by_cases h : j < 16
  · rw [dif_pos h, dif_pos h, Finset.mul_sum]
    refine Finset.sum_congr rfl (fun r _ => ?_)
    rw [← Real.exp_add]
    congr 1
    ring
  · rw [dif_neg h, dif_neg h, mul_zero]

theorem partSum_succ (k : ℕ) (h : k < 16) (a : ℝ) :
    partSum f (k + 1) a = partSum f k a + ∑ r : Fin 512, Real.exp (f (row ⟨k, h⟩ r) - a) := by
  unfold partSum
  rw [Finset.sum_range_succ, dif_pos h]

theorem partSum_zero (a : ℝ) : partSum f 0 a = 0 := by
  unfold partSum
  rw [Finset.sum_range_zero]

/-- All 16 tiles: the sum over the whole column. -/
theorem partSum_sixteen (a : ℝ) : partSum f 16 a = ∑ i : Fin 8192, Real.exp (f i - a) := by
  unfold partSum
  rw [sum_range_tiles (fun k => ∑ r : Fin 512, Real.exp (f (row k r) - a))]
  exact sum_tiles (fun i => Real.exp (f i - a))

theorem runSum_succ (col : Fin 8192 → EReal) (k : ℕ) (h : k < 16) :
    runSum col (k + 1) = Ideal.exp (runMax col k - runMax col (k + 1)) * runSum col k
        + ∑ r : Fin 512, Ideal.exp (col (row ⟨k, h⟩ r) - runMax col (k + 1)) := by
  rw [runSum, dif_pos h]

/-- The tile's exponentials, shifted by a real, sum to a real. -/
theorem tile_exp_sum (k : Fin 16) (a : ℝ) :
    ∑ r : Fin 512, Ideal.exp (((f (row k r) : ℝ) : EReal) - (a : EReal))
      = ((∑ r : Fin 512, Real.exp (f (row k r) - a) : ℝ) : EReal) := by
  rw [coe_sum]
  exact Finset.sum_congr rfl (fun r _ => exp_coe_sub _ _)

/-- The invariant of the first sweep: after k + 1 tiles the running sum is the sum of the exponentials of
    those tiles' entries, each shifted by the running maximum a. -/
theorem runSum_eq_partSum : ∀ (k : ℕ) (_ : k < 16) (a : ℝ), runMax (fun i => (f i : EReal)) (k + 1) = (a : EReal) →
    runSum (fun i => (f i : EReal)) (k + 1) = ((partSum f (k + 1) a : ℝ) : EReal)
  | 0, h, a, ha => by
    rw [runSum_succ _ 0 h, ha]
    have h0 : runMax (fun i => (f i : EReal)) 0 = ⊥ := rfl
    rw [h0, EReal.bot_sub, Ideal.exp_bot, zero_mul, zero_add, tile_exp_sum f ⟨0, h⟩ a,
      partSum_succ f 0 h a, partSum_zero, zero_add]
  | k + 1, h, a, ha => by
    have hk : k < 16 := by omega
    obtain ⟨b, hb⟩ := runMax_real f k hk
    rw [runSum_succ _ (k + 1) h, ha, hb, runSum_eq_partSum k hk b hb, exp_coe_sub, tile_exp_sum f ⟨k + 1, h⟩ a,
      ← EReal.coe_mul, ← EReal.coe_add, exp_mul_partSum, partSum_succ f (k + 1) h a]

/-- The first sweeps agree: the final running sum and the softmax denominator are one positive real. -/
theorem runSum_colSum_real :
    ∃ l : ℝ, 0 < l ∧ runSum (fun i => (f i : EReal)) 16 = (l : EReal) ∧ colSum (fun i => (f i : EReal)) = (l : EReal) := by
  obtain ⟨a, ha⟩ := runMax_real f 15 (by norm_num)
  have hc : colMax (fun i => (f i : EReal)) = (a : EReal) := by
    rw [← runMax_eq_colMax]
    exact ha
  refine ⟨∑ i : Fin 8192, Real.exp (f i - a), ?_, ?_, ?_⟩
  · exact Finset.sum_pos (fun i _ => Real.exp_pos _) ⟨0, Finset.mem_univ _⟩
  · rw [← partSum_sixteen]
    exact runSum_eq_partSum f 15 (by norm_num) a ha
  · unfold colSum colExp
    rw [hc, coe_sum]
    exact Finset.sum_congr rfl (fun i _ => exp_coe_sub _ _)

end RealColumn

/-! ## The second sweep -/

/-- On a real column, multiplying by the reciprocal of the final running sum is dividing by the softmax
    denominator: the denominator is a positive real, so neither quotient meets a corner. -/
theorem tiledAttn_eq_colAttn (col : Fin 8192 → EReal) (hcol : ∀ i, ∃ r : ℝ, col i = (r : EReal)) (k : Fin 16) (r : Fin 512) :
    tiledAttn col k r = colAttn col (row k r) := by
  choose f hf using hcol
  have hc : col = fun i => (f i : EReal) := funext hf
  rw [hc]
  obtain ⟨l, hpos, hrun, hsum⟩ := runSum_colSum_real f
  unfold tiledAttn colAttn colExp
  rw [runMax_eq_colMax, hrun, hsum, Ideal.div_coe (ne_of_gt hpos), Ideal.div_coe (ne_of_gt hpos), one_mul]

/-- The running total of the second sweep is the sum of the tiles taken so far. -/
theorem runTot_eq_sum (col : Fin 8192 → EReal) : ∀ k, k ≤ 16 →
    runTot col k = ∑ j ∈ Finset.range k, if h : j < 16 then ∑ r : Fin 512, tiledAttn col ⟨j, h⟩ r else 0
  | 0, _ => by rw [runTot, Finset.sum_range_zero]
  | k + 1, hk => by
    have h : k < 16 := by omega
    rw [runTot, dif_pos h, runTot_eq_sum col k (by omega), Finset.sum_range_succ, dif_pos h]

theorem runTot_eq_colTot (col : Fin 8192 → EReal) (hcol : ∀ i, ∃ r : ℝ, col i = (r : EReal)) : runTot col 16 = colTot col := by
  rw [runTot_eq_sum col 16 le_rfl, sum_range_tiles (fun k => ∑ r : Fin 512, tiledAttn col k r)]
  unfold colTot
  rw [← sum_tiles (fun i => colAttn col i)]
  exact Finset.sum_congr rfl (fun k _ => Finset.sum_congr rfl (fun r _ => tiledAttn_eq_colAttn col hcol k r))

/-! ## The scores of real arguments are real -/

theorem mul_real {a b : EReal} (ha : ∃ r : ℝ, a = (r : EReal)) (hb : ∃ r : ℝ, b = (r : EReal)) :
    ∃ r : ℝ, a * b = (r : EReal) := by
  obtain ⟨r₁, rfl⟩ := ha
  obtain ⟨r₂, rfl⟩ := hb
  exact ⟨r₁ * r₂, (EReal.coe_mul r₁ r₂).symm⟩

theorem proj_real (x : Fin 8192 → Fin 1024 → EReal) (w : Fin 1024 → Fin 1024 → EReal)
    (hx : ∀ i h, ∃ r : ℝ, x i h = (r : EReal)) (hw : ∀ o h, ∃ r : ℝ, w o h = (r : EReal))
    (i : Fin 8192) (o : Fin 1024) : ∃ r : ℝ, proj x w i o = (r : EReal) := by
  unfold proj
  exact sum_real _ _ (fun h _ => mul_real (hx i h) (hw o h))

theorem query_real (x : Fin 8192 → Fin 1024 → EReal) (w1 : Fin 1024 → Fin 1024 → EReal)
    (hx : ∀ i h, ∃ r : ℝ, x i h = (r : EReal)) (hw1 : ∀ o h, ∃ r : ℝ, w1 o h = (r : EReal))
    (i : Fin 8192) (o : Fin 1024) : ∃ r : ℝ, query x w1 i o = (r : EReal) := by
  obtain ⟨r, hr⟩ := proj_real x w1 hx hw1 i o
  exact ⟨Real.tanh r, by rw [query, hr, Ideal.tanh_coe]⟩

theorem score_real (x : Fin 8192 → Fin 1024 → EReal) (w1 w2 : Fin 1024 → Fin 1024 → EReal)
    (hx : ∀ i h, ∃ r : ℝ, x i h = (r : EReal)) (hw1 : ∀ o h, ∃ r : ℝ, w1 o h = (r : EReal)) (hw2 : ∀ o h, ∃ r : ℝ, w2 o h = (r : EReal))
    (i j : Fin 8192) : ∃ r : ℝ, score x w1 w2 i j = (r : EReal) := by
  unfold score
  exact sum_real _ _ (fun h _ => mul_real (query_real x w1 hx hw1 i h) (proj_real x w2 hx hw2 j h))

end Cert.Attn

end
-- ==== Proof.SweepOne.lean ====
/-
  The first sweep of the tiled softmax, read off the buffers.

  The kernel walks a column of 8192 scores in 16 tiles of 512 rows. Trip k loads rows [512k, 512k + 512) of the query
  array and the whole key block, forms the 512 × 128 score tile (entry (r, c') the inner product of query row 512k + r
  with key row c'), stores it into rows [512k, 512k + 512) of the score buffer, and updates two one-row buffers: the
  running maximum becomes the larger of its old value and the tile's column maximum, and the running sum becomes the
  old sum rescaled by exp (old maximum − new maximum) plus the sum of the tile's exponentials shifted by the new
  maximum.

  Each trip stores exactly one piece per written buffer, and the newest store wins where pieces overlap. So after k
  trips, by induction on k: rows below 512k of the score buffer hold the scores and the other rows are untouched; the
  running-maximum row, started from −∞, holds the running maximum runMax of every column; and the running-sum row,
  started from 0, holds the running sum runSum of every column.
-/
import proofs.«163533_j21277267984815_2_alg».proof.Proof.PayTile
import proofs.«163533_j21277267984815_2_alg».proof.Proof.PayMatmul
import proofs.«163533_j21277267984815_2_alg».proof.Proof.AttnSpec
import proofs.«163533_j21277267984815_2_alg».proof.Proof.AttnLaw
import proofs.«163533_j21277267984815_2_alg».proof.Proof.Gen.KernelIdeal.Loops
import Idealize.ShloMosaic.Lib.WritesUnit
import Idealize.ShloMosaic.Lib.Pipeline.Value
import Idealize.ShloMosaic.Lib.ValueIdx

noncomputable section

open scoped BigOperators

namespace Cert.KernelIdeal.Sweep

open Cert.KernelIdeal Cert.KernelIdeal.Gen Idealize.ShloMosaic Idealize.ShloMosaic.ValueIdx

/-- Column c' of the score array of a query array Q against a key block K: entry i is the inner product of query
    row i with key row c'. -/
abbrev scoreOf (Q : S8192x1024.Idx → EReal) (K : S128x1024.Idx → EReal) (c' : Fin 128) : Fin 8192 → EReal :=
  fun i => ∑ h : Fin 1024, Q (ix2 i h) * K (ix2 c' h)

/-- The first loop makes sixteen trips. -/
theorem trips1 : k1_t1_loop.trips = 16 := by decide

/-! ## Loads and stores at coordinates -/

section Generic
variable {sig' : RefSig} {κ : Kind} {sp : Space}

/-- A load of a whole one-row buffer reads the row. -/
theorem row_read (v : View sig' κ sp S1x128 .f32) (f : v.ty.Contents (Elt Ideal)) (c' : Fin 128) :
    View.readAt (Elt Ideal) v (Rect.unit (s := S1x128) ![0, 0] S1x128.size inb_S1x128_S1x128_0_0).toLoadRect f (ix2 (0 : Fin 1) c')
      = v.read (Elt Ideal) f (ix2 (0 : Fin 1) c') :=
  congrArg (v.read (Elt Ideal) f) (funext fun a => Fin.ext (by
    match a with
    | ⟨0, _⟩ => rfl
    | ⟨1, _⟩ => show 0 + 1 * c'.val = c'.val; omega))

/-- A store of a whole one-row buffer, newest in the list, is what the row reads afterwards. -/
theorem read_row_cons (v : View sig' κ sp S1x128 .f32) (f : v.ty.Contents (Elt Ideal))
    (w : (Rect.unit (s := S1x128) ![0, 0] S1x128.size inb_S1x128_S1x128_0_0).shape.Idx → Elt Ideal .f32)
    (L : List (View.Piece (Elt Ideal) S1x128 .f32)) (c' : Fin 128) :
    v.read (Elt Ideal) (v.writes (Elt Ideal) f (⟨Rect.unit (s := S1x128) ![0, 0] S1x128.size inb_S1x128_S1x128_0_0, w⟩ :: L)) (ix2 (0 : Fin 1) c')
      = w (ix2 (0 : Fin 1) c') :=
  View.read_writes_cons_unit_of_mem v f inb_S1x128_S1x128_0_0 w L (ix2 (0 : Fin 1) c') (ix2 (0 : Fin 1) c') rfl (fun a => by
    match a with
    | ⟨0, _⟩ => rfl
    | ⟨1, _⟩ => show c'.val = 0 + c'.val; omega)

end Generic

/-- Trip k's tile of 512 query rows, as the trip loads it. -/
abbrev tileQ (arg1 : Memref sig .tc .vmem S8192x1024 .bf16) (X1 : BufTy.Contents (Elt Ideal) arg1.view.ty) (k : Fin k1_t1_loop.trips) :
    Vec Ideal S512x1024 .bf16 :=
  View.readAt (Elt Ideal) arg1.view (Rect.toLoadRect (Rect.unit (s := S8192x1024) (k1_off1 k) S512x1024.size (k1_off1_inb k))) X1
/-- The key block, as a trip loads it. -/
abbrev keyV (arg2 : Memref sig .tc .vmem S128x1024 .bf16) (X2 : BufTy.Contents (Elt Ideal) arg2.view.ty) : Vec Ideal S128x1024 .bf16 :=
  View.readAt (Elt Ideal) arg2.view (Rect.toLoadRect (Rect.unit (s := S128x1024) ![0, 0] S128x1024.size inb_S128x1024_S128x1024_0_0)) X2
/-- A one-row scratch buffer, as a trip loads it. -/
abbrev rowL (m : Memref sig .tc .vmem S1x128 .f32) (f : BufTy.Contents (Elt Ideal) m.view.ty) : Vec Ideal S1x128 .f32 :=
  View.readAt (Elt Ideal) m.view (Rect.toLoadRect (Rect.unit (s := S1x128) ![0, 0] S1x128.size inb_S1x128_S1x128_0_0)) f

section
variable (𝒱 : Variants) (c : Dev nD) (bd : Option 𝒱.V) (gi : grid1.Coords)
  (arg1 : Memref sig .tc .vmem S8192x1024 .bf16) (harg1 : arg1.IsWhole) (arg2 : Memref sig .tc .vmem S128x1024 .bf16) (harg2 : arg2.IsWhole)
  (arg3 : Memref sig .tc .vmem S128x1024 .f32) (harg3 : arg3.IsWhole) (arg4 : Memref sig .tc .vmem S8192x128 .f32) (harg4 : arg4.IsWhole)
  (arg5 : Memref sig .tc .vmem S128x1024 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (X1 : BufTy.Contents (Elt Ideal) arg1.view.ty) (X2 : BufTy.Contents (Elt Ideal) arg2.view.ty)
  (G4 : BufTy.Contents (Elt Ideal) arg4.view.ty) (G6 : BufTy.Contents (Elt Ideal) arg6.view.ty) (G7 : BufTy.Contents (Elt Ideal) arg7.view.ty)

/-- The pieces of the trips before k, per written buffer (scores, running maximum, running sum). -/
local notation "P" => pb_k1_t1 (F := Ideal) 𝒱 c bd gi arg1 harg1 arg2 harg2 arg3 harg3 arg4 harg4 arg5 harg5 arg6 harg6 arg7 harg7 arg8 harg8 X1 X2 G4 G6 G7
/-- The query array and the key block, as the buffers read. -/
local notation "Qa" => View.read (Elt Ideal) (Memref.view arg1) X1
local notation "Ka" => View.read (Elt Ideal) (Memref.view arg2) X2

/-- One trip stores one piece per written buffer: the 512-row score tile at rows [512k, 512k + 512), and the whole
    rows of the running maximum and the running sum, each a function of what the trip finds there. -/
theorem trip1_eq (k : Fin k1_t1_loop.trips) (f4 : BufTy.Contents (Elt Ideal) arg4.view.ty) (f6 : BufTy.Contents (Elt Ideal) arg6.view.ty)
    (f7 : BufTy.Contents (Elt Ideal) arg7.view.ty) :
    tripL_k1_t1 (F := Ideal) 𝒱 c bd gi arg1 harg1 arg2 harg2 arg3 harg3 arg4 harg4 arg5 harg5 arg6 harg6 arg7 harg7 arg8 harg8 X1 X2 k f4 f6 f7
      = ([⟨Rect.unit (s := S8192x128) (k1_off2 k) S512x128.size (k1_off2_inb k), k1_pay4 (F := Ideal) (tileQ arg1 X1 k) (keyV arg2 X2)⟩],
         [⟨Rect.unit (s := S1x128) ![0, 0] S1x128.size inb_S1x128_S1x128_0_0, k1_pay7 (F := Ideal) (tileQ arg1 X1 k) (keyV arg2 X2) (rowL arg6 f6)⟩],
         [⟨Rect.unit (s := S1x128) ![0, 0] S1x128.size inb_S1x128_S1x128_0_0,
            k1_pay6 (F := Ideal) (tileQ arg1 X1 k) (keyV arg2 X2) (rowL arg6 f6) (rowL arg6 f6) (rowL arg7 f7)⟩]) := by
  unfold tripL_k1_t1 trip_k1_t1
  rfl

/-- The pieces after one more trip: the trip's three pieces in front of the earlier ones, taken at the contents the
    earlier trips left. -/
theorem pb1_succ (k : ℕ) (hk : k < k1_t1_loop.trips) :
    P (k + 1)
      = ((⟨Rect.unit (s := S8192x128) (k1_off2 ⟨k, hk⟩) S512x128.size (k1_off2_inb ⟨k, hk⟩), k1_pay4 (F := Ideal) (tileQ arg1 X1 ⟨k, hk⟩) (keyV arg2 X2)⟩
            : View.Piece (Elt Ideal) S8192x128 .f32) :: (P k).1,
         (⟨Rect.unit (s := S1x128) ![0, 0] S1x128.size inb_S1x128_S1x128_0_0,
            k1_pay7 (F := Ideal) (tileQ arg1 X1 ⟨k, hk⟩) (keyV arg2 X2) (rowL arg6 (arg6.view.writes (Elt Ideal) G6 (P k).2.1))⟩
            : View.Piece (Elt Ideal) S1x128 .f32) :: (P k).2.1,
         (⟨Rect.unit (s := S1x128) ![0, 0] S1x128.size inb_S1x128_S1x128_0_0,
            k1_pay6 (F := Ideal) (tileQ arg1 X1 ⟨k, hk⟩) (keyV arg2 X2) (rowL arg6 (arg6.view.writes (Elt Ideal) G6 (P k).2.1))
              (rowL arg6 (arg6.view.writes (Elt Ideal) G6 (P k).2.1)) (rowL arg7 (arg7.view.writes (Elt Ideal) G7 (P k).2.2))⟩
            : View.Piece (Elt Ideal) S1x128 .f32) :: (P k).2.2) :=
  (pb_k1_t1_succ (F := Ideal) 𝒱 c bd gi arg1 harg1 arg2 harg2 arg3 harg3 arg4 harg4 arg5 harg5 arg6 harg6 arg7 harg7 arg8 harg8 X1 X2 G4 G6 G7 ⟨k, hk⟩).trans (by
    rw [trip1_eq]
    rfl)

/-- Entry (r, h) of trip k's query tile is entry (512k + r, h) of the query array. -/
theorem tile_read (k : ℕ) (hk : k < k1_t1_loop.trips) (hk16 : k < 16) (r : Fin 512) (h : Fin 1024) :
    tileQ arg1 X1 ⟨k, hk⟩ (ix2 r h) = Qa (ix2 (Cert.Attn.row ⟨k, hk16⟩ r) h) :=
  congrArg Qa (funext fun a => Fin.ext (by
    match a with
    | ⟨0, _⟩ =>
      show (k1_off1 ⟨k, hk⟩) 0 + 1 * r.val = 512 * k + r.val
      rw [k1_off1_eq ⟨k, hk⟩]
      show 512 * k + 1 * r.val = 512 * k + r.val
      omega
    | ⟨1, _⟩ =>
      show (k1_off1 ⟨k, hk⟩) 1 + 1 * h.val = h.val
      rw [k1_off1_eq ⟨k, hk⟩]
      show 0 + 1 * h.val = h.val
      omega))

/-- The key block as loaded is the key block. -/
theorem key_read (c' : Fin 128) (h : Fin 1024) : keyV arg2 X2 (ix2 c' h) = Ka (ix2 c' h) :=
  congrArg Ka (funext fun a => Fin.ext (by
    match a with
    | ⟨0, _⟩ => show 0 + 1 * c'.val = c'.val; omega
    | ⟨1, _⟩ => show 0 + 1 * h.val = h.val; omega))

/-- Entry (r, c') of trip k's score tile is entry 512k + r of column c' of the scores. -/
theorem score_tile (k : ℕ) (hk : k < k1_t1_loop.trips) (hk16 : k < 16) (r : Fin 512) (c' : Fin 128) :
    k1_pay4 (F := Ideal) (tileQ arg1 X1 ⟨k, hk⟩) (keyV arg2 X2) (ix2 r c') = scoreOf Qa Ka c' (Cert.Attn.row ⟨k, hk16⟩ r) :=
  (Cert.KernelIdeal.Pay.scoreTile_apply _ _ r c').trans
    (Finset.sum_congr rfl fun h _ => congrArg₂ (· * ·) (tile_read arg1 X1 k hk hk16 r h) (key_read arg2 X2 c' h))

/-- The maximum over trip k's score tile, in column c', is the tile maximum of the column of scores. -/
theorem tile_max (k : ℕ) (hk : k < k1_t1_loop.trips) (hk16 : k < 16) (c' : Fin 128) :
    (Finset.univ : Finset (Fin 512)).fold max ⊥ (fun r => k1_pay4 (F := Ideal) (tileQ arg1 X1 ⟨k, hk⟩) (keyV arg2 X2) (ix2 r c'))
      = Cert.Attn.tileMax (scoreOf Qa Ka c') ⟨k, hk16⟩ :=
  congrArg ((Finset.univ : Finset (Fin 512)).fold max ⊥) (funext fun r => score_tile arg1 arg2 X1 X2 k hk hk16 r c')

/-- The score buffer after k trips: rows below 512k hold the scores, the rest what was there at loop entry. -/
theorem sweep1_scores (k : ℕ) (hk : k ≤ 16) (i : Fin 8192) (c' : Fin 128) :
    arg4.view.read (Elt Ideal) (arg4.view.writes (Elt Ideal) G4 (P k).1) (ix2 i c')
      = if i.val < 512 * k then scoreOf Qa Ka c' i else arg4.view.read (Elt Ideal) G4 (ix2 i c') := by
  induction k with
  | zero => rw [if_neg (by omega)]; rfl
  | succ k ih =>
    have hk16 : k < 16 := by omega
    have hkt : k < k1_t1_loop.trips := by rw [trips1]; exact hk16
    have e := congrArg (fun t => t.1) (pb1_succ 𝒱 c bd gi arg1 harg1 arg2 harg2 arg3 harg3 arg4 harg4 arg5 harg5 arg6 harg6 arg7 harg7 arg8 harg8 X1 X2 G4 G6 G7 k hkt)
    rw [show (P (k + 1)).1 = _ from e]
    by_cases hin : 512 * k ≤ i.val ∧ i.val < 512 * k + 512
    · rw [if_pos (by omega)]
      have hr : i.val - 512 * k < 512 := by omega
      refine (View.read_writes_cons_rows_of_mem arg4.view G4 (k1_off2_inb ⟨k, hkt⟩) _ _ (ix2 i c')
        (ix2 (⟨i.val - 512 * k, hr⟩ : Fin 512) c') (k1_off2_eq ⟨k, hkt⟩) ?_ rfl).trans ?_
      · show i.val = 512 * k + (i.val - 512 * k)
        omega
      · refine (score_tile arg1 arg2 X1 X2 k hkt hk16 ⟨i.val - 512 * k, hr⟩ c').trans ?_
        exact congrArg (scoreOf Qa Ka c') (Fin.ext (by show 512 * k + (i.val - 512 * k) = i.val; omega))
    · refine (View.read_writes_cons_rows_of_not_mem arg4.view G4 (k1_off2_inb ⟨k, hkt⟩) _ _ (ix2 i c')
        (k1_off2_eq ⟨k, hkt⟩) (rfl : S512x128.size (0 : Fin 2) = 512) ?_).trans ?_
      · show i.val < 512 * k ∨ 512 * k + 512 ≤ i.val
        omega
      · rw [ih (by omega)]
        by_cases h1 : i.val < 512 * k
        · rw [if_pos h1, if_pos (by omega)]
        · rw [if_neg h1, if_neg (by omega)]

/-- The running-maximum row after k trips, from a row of −∞: the running maximum of each column of scores. -/
theorem sweep1_max (hm0 : ∀ c' : Fin 128, arg6.view.read (Elt Ideal) G6 (ix2 (0 : Fin 1) c') = ⊥) (k : ℕ) (hk : k ≤ 16) (c' : Fin 128) :
    arg6.view.read (Elt Ideal) (arg6.view.writes (Elt Ideal) G6 (P k).2.1) (ix2 (0 : Fin 1) c')
      = Cert.Attn.runMax (scoreOf Qa Ka c') k := by
  induction k with
  | zero => exact hm0 c'
  | succ k ih =>
    have hk16 : k < 16 := by omega
    have hkt : k < k1_t1_loop.trips := by rw [trips1]; exact hk16
    have e := congrArg (fun t => t.2.1) (pb1_succ 𝒱 c bd gi arg1 harg1 arg2 harg2 arg3 harg3 arg4 harg4 arg5 harg5 arg6 harg6 arg7 harg7 arg8 harg8 X1 X2 G4 G6 G7 k hkt)
    rw [show (P (k + 1)).2.1 = _ from e]
    refine (read_row_cons _ _ _ _ c').trans ?_
    refine (Cert.KernelIdeal.Pay.storedMax_apply _ _ _ c').trans ?_
    refine (Cert.KernelIdeal.Pay.newMax_apply _ _ _ c').trans ?_
    rw [Cert.Attn.runMax_succ _ k hk16]
    exact congrArg₂ max ((row_read _ _ c').trans (ih (by omega))) (tile_max arg1 arg2 X1 X2 k hkt hk16 c')

/-- The running-sum row after k trips, from a row of zeros beside a running maximum from −∞: the running sum of each
    column of scores. -/
theorem sweep1_sum (hm0 : ∀ c' : Fin 128, arg6.view.read (Elt Ideal) G6 (ix2 (0 : Fin 1) c') = ⊥)
    (hl0 : ∀ c' : Fin 128, arg7.view.read (Elt Ideal) G7 (ix2 (0 : Fin 1) c') = 0) (k : ℕ) (hk : k ≤ 16) (c' : Fin 128) :
    arg7.view.read (Elt Ideal) (arg7.view.writes (Elt Ideal) G7 (P k).2.2) (ix2 (0 : Fin 1) c')
      = Cert.Attn.runSum (scoreOf Qa Ka c') k := by
  induction k with
  | zero => exact hl0 c'
  | succ k ih =>
    have hk16 : k < 16 := by omega
    have hkt : k < k1_t1_loop.trips := by rw [trips1]; exact hk16
    have e := congrArg (fun t => t.2.2) (pb1_succ 𝒱 c bd gi arg1 harg1 arg2 harg2 arg3 harg3 arg4 harg4 arg5 harg5 arg6 harg6 arg7 harg7 arg8 harg8 X1 X2 G4 G6 G7 k hkt)
    rw [show (P (k + 1)).2.2 = _ from e]
    refine (read_row_cons _ _ _ _ c').trans ?_
    refine (Cert.KernelIdeal.Pay.newSum_apply _ _ _ _ _ c').trans ?_
    rw [Cert.Attn.runSum_succ _ k hk16]
    have hm : rowL arg6 (arg6.view.writes (Elt Ideal) G6 (P k).2.1) (ix2 (0 : Fin 1) c') = Cert.Attn.runMax (scoreOf Qa Ka c') k :=
      (row_read _ _ c').trans (sweep1_max 𝒱 c bd gi arg1 harg1 arg2 harg2 arg3 harg3 arg4 harg4 arg5 harg5 arg6 harg6 arg7 harg7 arg8 harg8 X1 X2 G4 G6 G7 hm0 k (by omega) c')
    have hM : k1_pay5 (F := Ideal) (tileQ arg1 X1 ⟨k, hkt⟩) (keyV arg2 X2) (rowL arg6 (arg6.view.writes (Elt Ideal) G6 (P k).2.1)) (ix2 (0 : Fin 1) c')
        = Cert.Attn.runMax (scoreOf Qa Ka c') (k + 1) :=
      (Cert.KernelIdeal.Pay.newMax_apply _ _ _ c').trans
        ((congrArg₂ max hm (tile_max arg1 arg2 X1 X2 k hkt hk16 c')).trans (Cert.Attn.runMax_succ _ k hk16).symm)
    have hl : rowL arg7 (arg7.view.writes (Elt Ideal) G7 (P k).2.2) (ix2 (0 : Fin 1) c') = Cert.Attn.runSum (scoreOf Qa Ka c') k :=
      (row_read _ _ c').trans (ih (by omega))
    exact congrArg₂ (· + ·)
      (congrArg₂ (· * ·) (congrArg₂ (fun a b => Ideal.exp (a - b)) hm hM) hl)
      (Finset.sum_congr rfl fun r _ =>
        congrArg₂ (fun a b => Ideal.exp (a - b)) (score_tile arg1 arg2 X1 X2 k hkt hk16 r c') hM)

end

end Cert.KernelIdeal.Sweep

end
-- ==== Proof.RegionTwoArrays.lean ====
/-
  From the second pallas_call's blocks to its two result arrays.

  The call runs on a grid of 64 points. Point t reads the WHOLE query array, rows [128·t, 128·t + 128) of the key
  array and of x, and writes columns [128·t, 128·t + 128) of the 8192 × 8192 attention array (all rows) and rows
  [128·t, 128·t + 128) of the 8192 × 1024 context array. Column j of the attention array is therefore written by the
  one point t = j / 128, as the softmax over i of the scores of every query row i against key row j; row j of the
  context array by the same point, as x's row j scaled by that column's total. Every column and every row is
  written, so the arrays end as these two functions of the arrays the call found.
-/
import proofs.«163533_j21277267984815_2_alg».proof.Proof.FrameIdeal
import proofs.«163533_j21277267984815_2_alg».proof.Proof.SweepOne
import proofs.«163533_j21277267984815_2_alg».proof.Proof.AttnSpec
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)

/-! ## The two arrays, from the arrays the call finds -/

/-- The query array, the key array and x as the call finds them. -/
abbrev qArr : S8192x1024.Idx → EReal := V c main_v5_0
abbrev kArr : S8192x1024.Idx → EReal := V c main_v5_1
abbrev xArr : S8192x1024.Idx → EReal := V c main_v0

/-- Column j of the scores: query row i against key row j, for every i. -/
def scoreArr (j : Fin 8192) : Fin 8192 → EReal :=
  fun i => ∑ h : Fin 1024, qArr V c (ix2 i h) * kArr V c (ix2 j h)

/-- The attention array: entry (i, j) is the softmax over i of score column j. -/
def attn2 : S8192x8192.Idx → EReal := fun y => Cert.Attn.colAttn (scoreArr V c (y 1)) (y 0)

/-- The context array: entry (j, h) is x (j, h) scaled by the total of attention column j. -/
def ctx2 : S8192x1024.Idx → EReal := fun y => Cert.Attn.colTot (scoreArr V c (y 0)) * xArr V c y

/-! ## Where the windows' blocks sit -/

/-- The printed index maps over the grid: the query window stays at block (0, 0); the key window, the x window and the
    context window are at row block t; the attention window is at column block t. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = t.val
    ∧ win1_4.index t (0 : Fin 2) = t.val ∧ win1_4.index t (1 : Fin 2) = 0 :=
  (by decide +kernel : ∀ t : Fin grid1.N, _)

theorem t_lt (t : Fin cfg1.N) : t.val < 64 := by
  have h : t.val < grid1.N := t.isLt
  rw [N_1] at h
  exact h

/-- The query window's block is the whole array. -/
theorem query_block (t : Fin cfg1.N) (i : Fin 8192) (h : Fin 1024) :
    (iblk1 V c 0 t : S8192x1024.Idx → EReal) (ix2 i h) = qArr V c (ix2 i h) := by
  show V c main_v5_0 (((cfg1.win 0).blk t).view.emb (ix2 i h)) = V c main_v5_0 (ix2 i h)
  refine congrArg (V c main_v5_0) ?_
  obtain ⟨e0, e1, -⟩ := idx_facts t
  funext a; apply Fin.ext
  match a with
  | ⟨0, _⟩ => show win1_0.index t (0 : Fin 2) * 8192 + 1 * i.val = i.val; omega
  | ⟨1, _⟩ => show win1_0.index t (1 : Fin 2) * 1024 + 1 * h.val = h.val; omega

/-- The key window's block at point t is rows [128·t, 128·t + 128) of the key array. -/
theorem key_block (t : Fin cfg1.N) (q : Fin 128) (h : Fin 1024) (hq : 128 * t.val + q.val < 8192) :
    (iblk1 V c 1 t : S128x1024.Idx → EReal) (ix2 q h) = kArr V c (ix2 ⟨128 * t.val + q.val, hq⟩ h) := by
  show V c main_v5_1 (((cfg1.win 1).blk t).view.emb (ix2 q h)) = V c main_v5_1 (ix2 ⟨128 * t.val + q.val, hq⟩ h)
  refine congrArg (V c main_v5_1) ?_
  obtain ⟨-, -, e0, e1, -⟩ := idx_facts t
  funext a; apply Fin.ext
  match a with
  | ⟨0, _⟩ => show win1_1.index t (0 : Fin 2) * 128 + 1 * q.val = 128 * t.val + q.val; omega
  | ⟨1, _⟩ => show win1_1.index t (1 : Fin 2) * 1024 + 1 * h.val = h.val; omega

/-- The x window's block at point t is rows [128·t, 128·t + 128) of x. -/
theorem x_block (t : Fin cfg1.N) (q : Fin 128) (h : Fin 1024) (hq : 128 * t.val + q.val < 8192) :
    (iblk1 V c 2 t : S128x1024.Idx → EReal) (ix2 q h) = xArr V c (ix2 ⟨128 * t.val + q.val, hq⟩ h) := by
  show V c main_v0 (((cfg1.win 2).blk t).view.emb (ix2 q h)) = V c main_v0 (ix2 ⟨128 * t.val + q.val, hq⟩ h)
  refine congrArg (V c main_v0) ?_
  obtain ⟨-, -, -, -, e0, e1, -⟩ := idx_facts t
  funext a; apply Fin.ext
  match a with
  | ⟨0, _⟩ => show win1_2.index t (0 : Fin 2) * 128 + 1 * q.val = 128 * t.val + q.val; omega
  | ⟨1, _⟩ => show win1_2.index t (1 : Fin 2) * 1024 + 1 * h.val = h.val; omega

/-- So the scores a point computes for its column q are column 128·t + q of the array's scores. -/
theorem score_block (t : Fin cfg1.N) (q : Fin 128) (hq : 128 * t.val + q.val < 8192) :
    Sweep.scoreOf (iblk1 V c 0 t : S8192x1024.Idx → EReal) (iblk1 V c 1 t : S128x1024.Idx → EReal) q
      = scoreArr V c ⟨128 * t.val + q.val, hq⟩ := by
  funext i
  exact Finset.sum_congr rfl fun h _ =>
    congrArg₂ (fun a b : EReal => a * b) (query_block V c t i h) (key_block V c t q h hq)

/-! ## What each point writes back -/

/-- The attention window's block at a point, as the body leaves it (the hypothesis) is block t of attn2. -/
theorem flushed3_eq
    (hA : ∀ (t : Fin cfg1.N) (i : Fin 8192) (q : Fin 128),
      (outsAt1 V c t).1 (ix2 i q) = Cert.Attn.colAttn (Sweep.scoreOf (iblk1 V c 0 t : S8192x1024.Idx → EReal) (iblk1 V c 1 t : S128x1024.Idx → EReal) q) i)
    (t : Fin cfg1.N) :
    (dat1 V c).flushed 3 t = ((cfg1.win 3).blk t).view.read (Elt Ideal) (attn2 V c) := by
  show (cfg1.win 3).cut (grid1.coords t) ((dat1 V c).after 3 t) = _
  rw [after1_3]
  funext j
  have ht := t_lt t
  have hj0 : (j 0).val < 8192 := (j 0).isLt
  have hj1 : (j 1).val < 128 := (j 1).isLt
  have hq : 128 * t.val + (j 1).val < 8192 := by omega
  obtain ⟨-, -, -, -, -, -, e0, e1, -⟩ := idx_facts t
  have hemb : ((cfg1.win 3).blk t).view.emb j = (ix2 ⟨(j 0).val, hj0⟩ ⟨128 * t.val + (j 1).val, hq⟩ : S8192x8192.Idx) := by
    funext a; apply Fin.ext
    match a with
    | ⟨0, _⟩ => show win1_3.index t (0 : Fin 2) * 8192 + 1 * (j 0).val = (j 0).val; omega
    | ⟨1, _⟩ => show win1_3.index t (1 : Fin 2) * 128 + 1 * (j 1).val = 128 * t.val + (j 1).val; omega
  have hj : j = (ix2 ⟨(j 0).val, hj0⟩ ⟨(j 1).val, hj1⟩ : S8192x128.Idx) := by
    funext a; apply Fin.ext
    match a with
    | ⟨0, _⟩ => rfl
    | ⟨1, _⟩ => rfl
  show (outsAt1 V c t).1 j = attn2 V c (((cfg1.win 3).blk t).view.emb j)
  rw [hemb]
  refine (congrArg (outsAt1 V c t).1 hj).trans ?_
  rw [hA t ⟨(j 0).val, hj0⟩ ⟨(j 1).val, hj1⟩, score_block V c t ⟨(j 1).val, hj1⟩ hq]
  rfl

/-- The context window's block at a point, as the body leaves it (the hypothesis) is block t of ctx2. -/
theorem flushed4_eq
    (hC : ∀ (t : Fin cfg1.N) (q : Fin 128) (h : Fin 1024),
      (outsAt1 V c t).2 (ix2 q h) = Cert.Attn.colTot (Sweep.scoreOf (iblk1 V c 0 t : S8192x1024.Idx → EReal) (iblk1 V c 1 t : S128x1024.Idx → EReal) q) * (iblk1 V c 2 t : S128x1024.Idx → EReal) (ix2 q h))
    (t : Fin cfg1.N) :
    (dat1 V c).flushed 4 t = ((cfg1.win 4).blk t).view.read (Elt Ideal) (ctx2 V c) := by
  show (cfg1.win 4).cut (grid1.coords t) ((dat1 V c).after 4 t) = _
  rw [after1_4]
  funext j
  have ht := t_lt t
  have hj0 : (j 0).val < 128 := (j 0).isLt
  have hj1 : (j 1).val < 1024 := (j 1).isLt
  have hq : 128 * t.val + (j 0).val < 8192 := by omega
  obtain ⟨-, -, -, -, -, -, -, -, e0, e1⟩ := idx_facts t
  have hemb : ((cfg1.win 4).blk t).view.emb j = (ix2 ⟨128 * t.val + (j 0).val, hq⟩ ⟨(j 1).val, hj1⟩ : S8192x1024.Idx) := by
    funext a; apply Fin.ext
    match a with
    | ⟨0, _⟩ => show win1_4.index t (0 : Fin 2) * 128 + 1 * (j 0).val = 128 * t.val + (j 0).val; omega
    | ⟨1, _⟩ => show win1_4.index t (1 : Fin 2) * 1024 + 1 * (j 1).val = (j 1).val; omega
  have hj : j = (ix2 ⟨(j 0).val, hj0⟩ ⟨(j 1).val, hj1⟩ : S128x1024.Idx) := by
    funext a; apply Fin.ext
    match a with
    | ⟨0, _⟩ => rfl
    | ⟨1, _⟩ => rfl
  show (outsAt1 V c t).2 j = ctx2 V c (((cfg1.win 4).blk t).view.emb j)
  rw [hemb]
  refine (congrArg (outsAt1 V c t).2 hj).trans ?_
  rw [hC t ⟨(j 0).val, hj0⟩ ⟨(j 1).val, hj1⟩, score_block V c t ⟨(j 0).val, hj0⟩ hq, x_block V c t ⟨(j 0).val, hj0⟩ ⟨(j 1).val, hj1⟩ hq]
  rfl

/-! ## Every index is in some point's block -/

theorem mem_blk3 (t : Fin cfg1.N) (i : S8192x8192.Idx) :
    i ∈ ((cfg1.win 3).blk t).view.set ↔ ∀ a : Fin 2, win1_3.index t a * S8192x128.size a ≤ (i a).val ∧ (i a).val < win1_3.index t a * S8192x128.size a + S8192x128.size a := by
  show i ∈ ((View.whole main_v6_0).slice (win1_3.rect t)).set ↔ _
  rw [View.set_slice_whole, Rect.mem_set_unit]
  exact Iff.rfl

theorem mem_blk4 (t : Fin cfg1.N) (i : S8192x1024.Idx) :
    i ∈ ((cfg1.win 4).blk t).view.set ↔ ∀ a : Fin 2, win1_4.index t a * S128x1024.size a ≤ (i a).val ∧ (i a).val < win1_4.index t a * S128x1024.size a + S128x1024.size a := by
  show i ∈ ((View.whole main_v6_1).slice (win1_4.rect t)).set ↔ _
  rw [View.set_slice_whole, Rect.mem_set_unit]
  exact Iff.rfl

/-- Column j of the attention array is in the block of point j / 128. -/
theorem cover3 (i : S8192x8192.Idx) : ∃ t : Fin cfg1.N, (cfg1.win 3).flush t = true ∧ i ∈ ((cfg1.win 3).blk t).view.set := by
  have hN : grid1.N = 64 := N_1
  have hi0 : (i 0).val < 8192 := (i 0).isLt
  have hi1 : (i 1).val < 8192 := (i 1).isLt
  have htl : (i 1).val / 128 < cfg1.N := by show (i 1).val / 128 < grid1.N; rw [hN]; omega
  refine ⟨⟨(i 1).val / 128, htl⟩, flush1_3 _, ?_⟩
  rw [mem_blk3]
  obtain ⟨-, -, -, -, -, -, e0, e1, -⟩ := idx_facts ⟨(i 1).val / 128, htl⟩
  intro a
  match a with
  | ⟨0, _⟩ =>
    show win1_3.index ⟨(i 1).val / 128, htl⟩ (0 : Fin 2) * 8192 ≤ (i 0).val ∧ (i 0).val < win1_3.index ⟨(i 1).val / 128, htl⟩ (0 : Fin 2) * 8192 + 8192
    rw [e0]; omega
  | ⟨1, _⟩ =>
    show win1_3.index ⟨(i 1).val / 128, htl⟩ (1 : Fin 2) * 128 ≤ (i 1).val ∧ (i 1).val < win1_3.index ⟨(i 1).val / 128, htl⟩ (1 : Fin 2) * 128 + 128
    rw [e1]
    show (i 1).val / 128 * 128 ≤ (i 1).val ∧ (i 1).val < (i 1).val / 128 * 128 + 128
    omega

/-- Row j of the context array is in the block of point j / 128. -/
theorem cover4 (i : S8192x1024.Idx) : ∃ t : Fin cfg1.N, (cfg1.win 4).flush t = true ∧ i ∈ ((cfg1.win 4).blk t).view.set := by
  have hN : grid1.N = 64 := N_1
  have hi0 : (i 0).val < 8192 := (i 0).isLt
  have hi1 : (i 1).val < 1024 := (i 1).isLt
  have htl : (i 0).val / 128 < cfg1.N := by show (i 0).val / 128 < grid1.N; rw [hN]; omega
  refine ⟨⟨(i 0).val / 128, htl⟩, flush1_4 _, ?_⟩
  rw [mem_blk4]
  obtain ⟨-, -, -, -, -, -, -, -, e0, e1⟩ := idx_facts ⟨(i 0).val / 128, htl⟩
  intro a
  match a with
  | ⟨0, _⟩ =>
    show win1_4.index ⟨(i 0).val / 128, htl⟩ (0 : Fin 2) * 128 ≤ (i 0).val ∧ (i 0).val < win1_4.index ⟨(i 0).val / 128, htl⟩ (0 : Fin 2) * 128 + 128
    rw [e0]
    show (i 0).val / 128 * 128 ≤ (i 0).val ∧ (i 0).val < (i 0).val / 128 * 128 + 128
    omega
  | ⟨1, _⟩ =>
    show win1_4.index ⟨(i 0).val / 128, htl⟩ (1 : Fin 2) * 1024 ≤ (i 1).val ∧ (i 1).val < win1_4.index ⟨(i 0).val / 128, htl⟩ (1 : Fin 2) * 1024 + 1024
    rw [e1]; omega

/-! ## The arrays after the call -/

theorem attnArray
    (hA : ∀ (t : Fin cfg1.N) (i : Fin 8192) (q : Fin 128),
      (outsAt1 V c t).1 (ix2 i q) = Cert.Attn.colAttn (Sweep.scoreOf (iblk1 V c 0 t : S8192x1024.Idx → EReal) (iblk1 V c 1 t : S128x1024.Idx → EReal) q) i) :
    (dat1 V c).arrAt 3 cfg1.N = attn2 V c :=
  (dat1 V c).arrAt_eq_of_cover 3 (attn2 V c) (fun t _ => flushed3_eq V c hA t) (cover3)

theorem ctxArray
    (hC : ∀ (t : Fin cfg1.N) (q : Fin 128) (h : Fin 1024),
      (outsAt1 V c t).2 (ix2 q h) = Cert.Attn.colTot (Sweep.scoreOf (iblk1 V c 0 t : S8192x1024.Idx → EReal) (iblk1 V c 1 t : S128x1024.Idx → EReal) q) * (iblk1 V c 2 t : S128x1024.Idx → EReal) (ix2 q h)) :
    (dat1 V c).arrAt 4 cfg1.N = ctx2 V c :=
  (dat1 V c).arrAt_eq_of_cover 4 (ctx2 V c) (fun t _ => flushed4_eq V c hC t) (cover4)

end Cert.KernelIdeal.Value

end
-- ==== Proof.SweepTwo.lean ====
/-
  The second sweep of the fused kernel's online softmax, read off the stores its 16 trips make.

  Each trip k stores ONE tile of the staged score array (rows 512·k … 512·k + 511, every column) and the whole
  one-row running total. The tile it stores is computed from the tile it finds there, which no earlier trip has
  touched (earlier trips wrote lower rows), so it still holds the raw scores: after k trips the first 512·k rows
  hold exp (score − stored maximum) · (1 / stored sum) and the rest the raw scores. The running total after k
  trips is the sum of the normalized tiles so far, column by column: the specification's running total.
-/
import proofs.«163533_j21277267984815_2_alg».proof.Proof.PayTile
import proofs.«163533_j21277267984815_2_alg».proof.Proof.PayMatmul
import proofs.«163533_j21277267984815_2_alg».proof.Proof.AttnSpec
import proofs.«163533_j21277267984815_2_alg».proof.Proof.Gen.KernelIdeal.Loops
import Idealize.ShloMosaic.Lib.WritesUnit
import Idealize.ShloMosaic.Lib.Pipeline.Value
import Idealize.ShloMosaic.Lib.ValueIdx

noncomputable section

open scoped BigOperators

namespace Cert.KernelIdeal.Sweep

open Cert.KernelIdeal Cert.KernelIdeal.Gen Cert.KernelIdeal.Pay Idealize.ShloMosaic Idealize.ShloMosaic.ValueIdx
open Idealize.SL.Sem

/-! ## The loop's trips and rectangles -/

/-- The second loop makes 16 trips. -/
theorem trips2 : k1_t2_loop.trips = 16 := by decide

/-- The tile of rows 512·k … 512·k + 511 that trip k loads and stores. -/
abbrev tileRect (k : Fin k1_t2_loop.trips) : Rect S8192x128 :=
  Rect.unit (s := S8192x128) (k1_off3 k) S512x128.size (k1_off3_inb k)

/-- The whole one-row buffer. -/
abbrev rowRect : Rect S1x128 := Rect.unit (s := S1x128) ![0, 0] S1x128.size inb_S1x128_S1x128_0_0

/-- Entry (r, c) of trip k's tile is entry (512·k + r, c) of the array. -/
theorem tileRect_idx (k : Fin k1_t2_loop.trips) (r : Fin 512) (c' : Fin 128) (h : 512 * k.val + r.val < 8192) :
    (tileRect k).toLoadRect.idx (ix2 r c') = ix2 (⟨512 * k.val + r.val, h⟩ : Fin 8192) c' := by
  funext a
  apply Fin.ext
  match a with
  | ⟨0, _⟩ =>
    show k1_off3 k 0 + 1 * r.val = 512 * k.val + r.val
    rw [k1_off3_eq k, Nat.one_mul]
    rfl
  | ⟨1, _⟩ =>
    show k1_off3 k 1 + 1 * c'.val = c'.val
    rw [k1_off3_eq k, Nat.one_mul]
    exact Nat.zero_add _

/-- A load of the whole one-row buffer reads its contents. -/
theorem readAt_rowRect (m : Memref sig .tc .vmem S1x128 .f32) (f : BufTy.Contents (Elt Ideal) m.view.ty) :
    m.view.readAt (Elt Ideal) rowRect.toLoadRect f = m.view.read (Elt Ideal) f :=
  View.ld_unit_zero (funext fun a => by match a with | ⟨0, _⟩ => rfl | ⟨1, _⟩ => rfl) inb_S1x128_S1x128_0_0 _

section Loop

variable (𝒱 : Variants) (c : Dev nD) (bd : Option 𝒱.V) (i : grid1.Coords)
  (arg1 : Memref sig .tc .vmem S8192x1024 .bf16) (harg1 : arg1.IsWhole) (arg2 : Memref sig .tc .vmem S128x1024 .bf16) (harg2 : arg2.IsWhole)
  (arg3 : Memref sig .tc .vmem S128x1024 .f32) (harg3 : arg3.IsWhole) (arg4 : Memref sig .tc .vmem S8192x128 .f32) (harg4 : arg4.IsWhole)
  (arg5 : Memref sig .tc .vmem S128x1024 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (v13 : Vec Ideal S1x128 .f32) (X6 : BufTy.Contents (Elt Ideal) arg6.view.ty) (G4 : BufTy.Contents (Elt Ideal) arg4.view.ty)
  (G8 : BufTy.Contents (Elt Ideal) arg8.view.ty)

/-- What one trip stores: one tile of the score array and the whole running total, each computed from what the
    trip finds (the generated definition of the trip's pieces, opened once). -/
theorem tripL_k1_t2_eq (k : Fin k1_t2_loop.trips) (f4 : BufTy.Contents (Elt Ideal) arg4.view.ty) (f8 : BufTy.Contents (Elt Ideal) arg8.view.ty) :
    tripL_k1_t2 (F := Ideal) 𝒱 c bd i arg1 harg1 arg2 harg2 arg3 harg3 arg4 harg4 arg5 harg5 arg6 harg6 arg7 harg7 arg8 harg8 v13 X6 k f4 f8
      = ([(⟨tileRect k, k1_pay8 (F := Ideal) v13 (arg4.view.readAt (Elt Ideal) (tileRect k).toLoadRect f4)
              (arg6.view.readAt (Elt Ideal) rowRect.toLoadRect X6)⟩ : View.Piece (Elt Ideal) S8192x128 .f32)],
         [(⟨rowRect, k1_pay9 (F := Ideal) v13 (arg4.view.readAt (Elt Ideal) (tileRect k).toLoadRect f4)
              (arg6.view.readAt (Elt Ideal) rowRect.toLoadRect X6) (arg8.view.readAt (Elt Ideal) rowRect.toLoadRect f8)⟩ :
            View.Piece (Elt Ideal) S1x128 .f32)]) := by
  unfold tripL_k1_t2 trip_k1_t2
  rfl

local notation "P2" => pb_k1_t2 (F := Ideal) 𝒱 c bd i arg1 harg1 arg2 harg2 arg3 harg3 arg4 harg4 arg5 harg5 arg6 harg6 arg7 harg7 arg8 harg8 v13 X6 G4 G8

/-- Step number k < 16 as a trip of the loop. -/
abbrev kFin (k : ℕ) (hk : k < 16) : Fin k1_t2_loop.trips := ⟨k, lt_of_lt_of_eq hk trips2.symm⟩

/-- The score array's stores after k + 1 trips: trip k's tile, computed from the array after k trips, in front. -/
theorem P2_succ_fst (k : ℕ) (hk : k < 16) :
    (P2 (k + 1)).1
      = (⟨tileRect (kFin k hk), k1_pay8 (F := Ideal) v13
            (arg4.view.readAt (Elt Ideal) (tileRect (kFin k hk)).toLoadRect (arg4.view.writes (Elt Ideal) G4 (P2 k).1))
            (arg6.view.readAt (Elt Ideal) rowRect.toLoadRect X6)⟩ : View.Piece (Elt Ideal) S8192x128 .f32) :: (P2 k).1 := by
  have h := pb_k1_t2_succ (F := Ideal) 𝒱 c bd i arg1 harg1 arg2 harg2 arg3 harg3 arg4 harg4 arg5 harg5 arg6 harg6 arg7 harg7 arg8 harg8 v13 X6 G4 G8 (kFin k hk)
  rw [tripL_k1_t2_eq 𝒱 c bd i arg1 harg1 arg2 harg2 arg3 harg3 arg4 harg4 arg5 harg5 arg6 harg6 arg7 harg7 arg8 harg8 v13 X6] at h
  exact congrArg Prod.fst h

/-- The running total's stores after k + 1 trips: trip k's row in front. -/
theorem P2_succ_snd (k : ℕ) (hk : k < 16) :
    (P2 (k + 1)).2
      = (⟨rowRect, k1_pay9 (F := Ideal) v13
            (arg4.view.readAt (Elt Ideal) (tileRect (kFin k hk)).toLoadRect (arg4.view.writes (Elt Ideal) G4 (P2 k).1))
            (arg6.view.readAt (Elt Ideal) rowRect.toLoadRect X6)
            (arg8.view.readAt (Elt Ideal) rowRect.toLoadRect (arg8.view.writes (Elt Ideal) G8 (P2 k).2))⟩ :
          View.Piece (Elt Ideal) S1x128 .f32) :: (P2 k).2 := by
  have h := pb_k1_t2_succ (F := Ideal) 𝒱 c bd i arg1 harg1 arg2 harg2 arg3 harg3 arg4 harg4 arg5 harg5 arg6 harg6 arg7 harg7 arg8 harg8 v13 X6 G4 G8 (kFin k hk)
  rw [tripL_k1_t2_eq 𝒱 c bd i arg1 harg1 arg2 harg2 arg3 harg3 arg4 harg4 arg5 harg5 arg6 harg6 arg7 harg7 arg8 harg8 v13 X6] at h
  exact congrArg Prod.snd h

/-- Trip k's tile entry (r, c'), provided row 512·k + r of the array it finds still holds the raw score. -/
theorem tile_entry_of (k : ℕ) (hk : k < 16) (r : Fin 512) (c' : Fin 128)
    (hraw : arg4.view.read (Elt Ideal) (arg4.view.writes (Elt Ideal) G4 (P2 k).1) (ix2 (Cert.Attn.row ⟨k, hk⟩ r) c')
      = arg4.view.read (Elt Ideal) G4 (ix2 (Cert.Attn.row ⟨k, hk⟩ r) c')) :
    k1_pay8 (F := Ideal) v13
        (arg4.view.readAt (Elt Ideal) (tileRect (kFin k hk)).toLoadRect (arg4.view.writes (Elt Ideal) G4 (P2 k).1))
        (arg6.view.readAt (Elt Ideal) rowRect.toLoadRect X6) (ix2 r c')
      = Ideal.exp (arg4.view.read (Elt Ideal) G4 (ix2 (Cert.Attn.row ⟨k, hk⟩ r) c') - arg6.view.read (Elt Ideal) X6 (ix2 (0 : Fin 1) c'))
          * Ideal.div 1 (v13 (ix2 (0 : Fin 1) c')) := by
  refine (normTile_apply v13 _ _ r c').trans ?_
  rw [readAt_rowRect arg6 X6]
  have e : arg4.view.readAt (Elt Ideal) (tileRect (kFin k hk)).toLoadRect (arg4.view.writes (Elt Ideal) G4 (P2 k).1) (ix2 r c')
      = arg4.view.read (Elt Ideal) G4 (ix2 (Cert.Attn.row ⟨k, hk⟩ r) c') := by
    show arg4.view.read (Elt Ideal) (arg4.view.writes (Elt Ideal) G4 (P2 k).1) ((tileRect (kFin k hk)).toLoadRect.idx (ix2 r c')) = _
    rw [tileRect_idx (kFin k hk) r c' (by show 512 * k + r.val < 8192; omega)]
    exact hraw
  rw [e]

/-- after k trips the first 512·k rows are normalized, the rest still hold the raw scores -/
theorem sweep2_block (k : ℕ) (hk : k ≤ 16) (j : Fin 8192) (c' : Fin 128) :
    arg4.view.read (Elt Ideal) (arg4.view.writes (Elt Ideal) G4 (P2 k).1) (ix2 j c')
      = if j.val < 512 * k then
          Ideal.exp (arg4.view.read (Elt Ideal) G4 (ix2 j c') - arg6.view.read (Elt Ideal) X6 (ix2 (0 : Fin 1) c'))
            * Ideal.div 1 (v13 (ix2 (0 : Fin 1) c'))
        else arg4.view.read (Elt Ideal) G4 (ix2 j c') := by
  induction k with
  | zero =>
    rw [if_neg (by omega)]
    rfl
  | succ k ih =>
    have hk' : k < 16 := by omega
    have ihk := ih (by omega)
    rw [P2_succ_fst 𝒱 c bd i arg1 harg1 arg2 harg2 arg3 harg3 arg4 harg4 arg5 harg5 arg6 harg6 arg7 harg7 arg8 harg8 v13 X6 G4 G8 k hk']
    by_cases h1 : j.val < 512 * k
    · rw [if_pos (by omega)]
      refine (View.read_writes_cons_rows_of_not_mem arg4.view G4 (k1_off3_inb (kFin k hk')) _ _ (ix2 j c')
        (k1_off3_eq (kFin k hk')) (show S512x128.size (0 : Fin 2) = 512 from rfl) (Or.inl h1)).trans ?_
      rw [ihk, if_pos h1]
    · by_cases h2 : j.val < 512 * k + 512
      · rw [if_pos (by omega)]
        have hr : j.val - 512 * k < 512 := by omega
        have hj : Cert.Attn.row ⟨k, hk'⟩ ⟨j.val - 512 * k, hr⟩ = j := Fin.ext (by
          show 512 * k + (j.val - 512 * k) = j.val
          omega)
        refine (View.read_writes_cons_rows_of_mem arg4.view G4 (k1_off3_inb (kFin k hk')) _ _ (ix2 j c')
          (ix2 (⟨j.val - 512 * k, hr⟩ : Fin 512) c') (k1_off3_eq (kFin k hk'))
          (by show j.val = 512 * k + (j.val - 512 * k); omega) rfl).trans ?_
        refine (tile_entry_of 𝒱 c bd i arg1 harg1 arg2 harg2 arg3 harg3 arg4 harg4 arg5 harg5 arg6 harg6 arg7 harg7 arg8 harg8 v13 X6 G4 G8 k hk' ⟨j.val - 512 * k, hr⟩ c' ?_).trans ?_
        · rw [hj, ihk, if_neg h1]
        · rw [hj]
      · rw [if_neg (by omega)]
        refine (View.read_writes_cons_rows_of_not_mem arg4.view G4 (k1_off3_inb (kFin k hk')) _ _ (ix2 j c')
          (k1_off3_eq (kFin k hk')) (show S512x128.size (0 : Fin 2) = 512 from rfl)
          (Or.inr (by show 512 * k + 512 ≤ j.val; omega))).trans ?_
        rw [ihk, if_neg h1]

/-- in the specification's words: if column c' of the staged scores is col, the stored maximum runMax col 16 and the
    stored sum runSum col 16, then after the 16 trips entry (row k' r, c') is the tiled reading's value -/
theorem sweep2_block_spec (col : Fin 8192 → EReal) (c' : Fin 128)
    (hS : ∀ j : Fin 8192, arg4.view.read (Elt Ideal) G4 (ix2 j c') = col j)
    (hm : arg6.view.read (Elt Ideal) X6 (ix2 (0 : Fin 1) c') = Cert.Attn.runMax col 16)
    (hl : v13 (ix2 (0 : Fin 1) c') = Cert.Attn.runSum col 16) (k' : Fin 16) (r : Fin 512) :
    arg4.view.read (Elt Ideal) (arg4.view.writes (Elt Ideal) G4 (P2 16).1) (ix2 (Cert.Attn.row k' r) c')
      = Cert.Attn.tiledAttn col k' r := by
  rw [sweep2_block 𝒱 c bd i arg1 harg1 arg2 harg2 arg3 harg3 arg4 harg4 arg5 harg5 arg6 harg6 arg7 harg7 arg8 harg8 v13 X6 G4 G8 16 le_rfl (Cert.Attn.row k' r) c',
    if_pos (by show 512 * k'.val + r.val < 512 * 16; omega)]
  unfold Cert.Attn.tiledAttn
  rw [hS, hm, hl]

/-- the running total after k trips is the specification's -/
theorem sweep2_tot (col : Fin 8192 → EReal) (c' : Fin 128)
    (hS : ∀ j : Fin 8192, arg4.view.read (Elt Ideal) G4 (ix2 j c') = col j)
    (hm : arg6.view.read (Elt Ideal) X6 (ix2 (0 : Fin 1) c') = Cert.Attn.runMax col 16)
    (hl : v13 (ix2 (0 : Fin 1) c') = Cert.Attn.runSum col 16)
    (ht0 : arg8.view.read (Elt Ideal) G8 (ix2 (0 : Fin 1) c') = 0) (k : ℕ) (hk : k ≤ 16) :
    arg8.view.read (Elt Ideal) (arg8.view.writes (Elt Ideal) G8 (P2 k).2) (ix2 (0 : Fin 1) c') = Cert.Attn.runTot col k := by
  induction k with
  | zero => exact ht0
  | succ k ih =>
    have hk' : k < 16 := by omega
    have ihk := ih (by omega)
    rw [P2_succ_snd 𝒱 c bd i arg1 harg1 arg2 harg2 arg3 harg3 arg4 harg4 arg5 harg5 arg6 harg6 arg7 harg7 arg8 harg8 v13 X6 G4 G8 k hk']
    refine (View.read_writes_cons_rows_of_mem arg8.view G8 inb_S1x128_S1x128_0_0 _ _ (ix2 (0 : Fin 1) c')
      (ix2 (0 : Fin 1) c') (o := 0) rfl rfl rfl).trans ?_
    refine (newTot_apply v13 _ _ _ c').trans ?_
    rw [readAt_rowRect arg8, ihk]
    have hT : Cert.Attn.runTot col (k + 1)
        = Cert.Attn.runTot col k + ∑ r : Fin 512, Cert.Attn.tiledAttn col ⟨k, hk'⟩ r := by
      rw [Cert.Attn.runTot, dif_pos hk']
    rw [hT]
    refine congrArg (fun z => Cert.Attn.runTot col k + z) (Finset.sum_congr rfl fun r _ => ?_)
    refine (tile_entry_of 𝒱 c bd i arg1 harg1 arg2 harg2 arg3 harg3 arg4 harg4 arg5 harg5 arg6 harg6 arg7 harg7 arg8 harg8 v13 X6 G4 G8 k hk' r c' ?_).trans ?_
    · rw [sweep2_block 𝒱 c bd i arg1 harg1 arg2 harg2 arg3 harg3 arg4 harg4 arg5 harg5 arg6 harg6 arg7 harg7 arg8 harg8 v13 X6 G4 G8 k (by omega) (Cert.Attn.row ⟨k, hk'⟩ r) c',
        if_neg (by show ¬ 512 * k + r.val < 512 * k; omega)]
    · unfold Cert.Attn.tiledAttn
      rw [hS, hm, hl]

end Loop

end Cert.KernelIdeal.Sweep

end
-- ==== Proof.SweepBoth.lean ====
/-
  The whole body: the two sweeps composed with the law of the tiled softmax.

  After the first sweep's sixteen trips the score buffer holds the scores on every row, the running-maximum row the
  maximum over all sixteen tiles of each column, and the running-sum row the matching sum of shifted exponentials. The
  second sweep starts from exactly those contents (the sum row is loaded once between the loops), so its tiled values
  are the tiled softmax of each column of scores and its running total the total of those. On a column of real
  numbers the tiled softmax is the softmax read whole, and the tiled total its total: so the output block is the
  softmax of each column of scores, the total row holds each column's total, and the context block stored last is
  those totals, one per row, times the block of x.
-/
import proofs.«163533_j21277267984815_2_alg».proof.Proof.SweepOne
import proofs.«163533_j21277267984815_2_alg».proof.Proof.SweepTwo
import proofs.«163533_j21277267984815_2_alg».proof.Proof.AttnLaw

noncomputable section

open scoped BigOperators

namespace Cert.KernelIdeal.Sweep

open Cert.KernelIdeal Cert.KernelIdeal.Gen Idealize.ShloMosaic Idealize.ShloMosaic.ValueIdx

section
variable (𝒱 : Variants) (c : Dev nD) (bd : Option 𝒱.V) (gi : grid1.Coords)
  (arg1 : Memref sig .tc .vmem S8192x1024 .bf16) (harg1 : arg1.IsWhole) (arg2 : Memref sig .tc .vmem S128x1024 .bf16) (harg2 : arg2.IsWhole)
  (arg3 : Memref sig .tc .vmem S128x1024 .f32) (harg3 : arg3.IsWhole) (arg4 : Memref sig .tc .vmem S8192x128 .f32) (harg4 : arg4.IsWhole)
  (arg5 : Memref sig .tc .vmem S128x1024 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (X1 : BufTy.Contents (Elt Ideal) arg1.view.ty) (X2 : BufTy.Contents (Elt Ideal) arg2.view.ty)
  (G4 : BufTy.Contents (Elt Ideal) arg4.view.ty) (G6 : BufTy.Contents (Elt Ideal) arg6.view.ty) (G7 : BufTy.Contents (Elt Ideal) arg7.view.ty)
  (G8 : BufTy.Contents (Elt Ideal) arg8.view.ty)

/-- The first sweep's pieces after k trips. -/
abbrev P1 : ℕ → List (View.Piece (Elt Ideal) S8192x128 .f32) × List (View.Piece (Elt Ideal) S1x128 .f32) × List (View.Piece (Elt Ideal) S1x128 .f32) :=
  pb_k1_t1 (F := Ideal) 𝒱 c bd gi arg1 harg1 arg2 harg2 arg3 harg3 arg4 harg4 arg5 harg5 arg6 harg6 arg7 harg7 arg8 harg8 X1 X2 G4 G6 G7

/-- The score buffer, the running-maximum row and the running-sum row after the first sweep. -/
abbrev after1_4 : BufTy.Contents (Elt Ideal) arg4.view.ty := arg4.view.writes (Elt Ideal) G4 (P1 𝒱 c bd gi arg1 harg1 arg2 harg2 arg3 harg3 arg4 harg4 arg5 harg5 arg6 harg6 arg7 harg7 arg8 harg8 X1 X2 G4 G6 G7 16).1
abbrev after1_6 : BufTy.Contents (Elt Ideal) arg6.view.ty := arg6.view.writes (Elt Ideal) G6 (P1 𝒱 c bd gi arg1 harg1 arg2 harg2 arg3 harg3 arg4 harg4 arg5 harg5 arg6 harg6 arg7 harg7 arg8 harg8 X1 X2 G4 G6 G7 16).2.1
abbrev after1_7 : BufTy.Contents (Elt Ideal) arg7.view.ty := arg7.view.writes (Elt Ideal) G7 (P1 𝒱 c bd gi arg1 harg1 arg2 harg2 arg3 harg3 arg4 harg4 arg5 harg5 arg6 harg6 arg7 harg7 arg8 harg8 X1 X2 G4 G6 G7 16).2.2

/-- The running-sum row as loaded between the two sweeps. -/
abbrev sumRow : Vec Ideal S1x128 .f32 :=
  View.readAt (Elt Ideal) arg7.view (Rect.toLoadRect (Rect.unit (s := S1x128) ![0, 0] S1x128.size inb_S1x128_S1x128_0_0)) (after1_7 𝒱 c bd gi arg1 harg1 arg2 harg2 arg3 harg3 arg4 harg4 arg5 harg5 arg6 harg6 arg7 harg7 arg8 harg8 X1 X2 G4 G6 G7)

/-- The second sweep's pieces after k trips, started from what the first sweep left. -/
abbrev P2 : ℕ → List (View.Piece (Elt Ideal) S8192x128 .f32) × List (View.Piece (Elt Ideal) S1x128 .f32) :=
  pb_k1_t2 (F := Ideal) 𝒱 c bd gi arg1 harg1 arg2 harg2 arg3 harg3 arg4 harg4 arg5 harg5 arg6 harg6 arg7 harg7 arg8 harg8 (sumRow 𝒱 c bd gi arg1 harg1 arg2 harg2 arg3 harg3 arg4 harg4 arg5 harg5 arg6 harg6 arg7 harg7 arg8 harg8 X1 X2 G4 G6 G7) (after1_6 𝒱 c bd gi arg1 harg1 arg2 harg2 arg3 harg3 arg4 harg4 arg5 harg5 arg6 harg6 arg7 harg7 arg8 harg8 X1 X2 G4 G6 G7) (after1_4 𝒱 c bd gi arg1 harg1 arg2 harg2 arg3 harg3 arg4 harg4 arg5 harg5 arg6 harg6 arg7 harg7 arg8 harg8 X1 X2 G4 G6 G7) G8

local notation "Qa" => View.read (Elt Ideal) (Memref.view arg1) X1
local notation "Ka" => View.read (Elt Ideal) (Memref.view arg2) X2

/-- After the first sweep the score buffer holds the scores on every row. -/
theorem after1_scores (j : Fin 8192) (c' : Fin 128) :
    arg4.view.read (Elt Ideal) (after1_4 𝒱 c bd gi arg1 harg1 arg2 harg2 arg3 harg3 arg4 harg4 arg5 harg5 arg6 harg6 arg7 harg7 arg8 harg8 X1 X2 G4 G6 G7) (ix2 j c') = scoreOf Qa Ka c' j :=
  (sweep1_scores 𝒱 c bd gi arg1 harg1 arg2 harg2 arg3 harg3 arg4 harg4 arg5 harg5 arg6 harg6 arg7 harg7 arg8 harg8 X1 X2 G4 G6 G7 16 le_rfl j c').trans (if_pos (by have := j.isLt; omega))

/-- After the first sweep the running-maximum row holds the final running maximum of every column. -/
theorem after1_max (hm0 : ∀ c' : Fin 128, arg6.view.read (Elt Ideal) G6 (ix2 (0 : Fin 1) c') = ⊥) (c' : Fin 128) :
    arg6.view.read (Elt Ideal) (after1_6 𝒱 c bd gi arg1 harg1 arg2 harg2 arg3 harg3 arg4 harg4 arg5 harg5 arg6 harg6 arg7 harg7 arg8 harg8 X1 X2 G4 G6 G7) (ix2 (0 : Fin 1) c') = Cert.Attn.runMax (scoreOf Qa Ka c') 16 :=
  sweep1_max 𝒱 c bd gi arg1 harg1 arg2 harg2 arg3 harg3 arg4 harg4 arg5 harg5 arg6 harg6 arg7 harg7 arg8 harg8 X1 X2 G4 G6 G7 hm0 16 le_rfl c'

/-- The sum row loaded between the sweeps holds the final running sum of every column. -/
theorem after1_sum (hm0 : ∀ c' : Fin 128, arg6.view.read (Elt Ideal) G6 (ix2 (0 : Fin 1) c') = ⊥)
    (hl0 : ∀ c' : Fin 128, arg7.view.read (Elt Ideal) G7 (ix2 (0 : Fin 1) c') = 0) (c' : Fin 128) :
    sumRow 𝒱 c bd gi arg1 harg1 arg2 harg2 arg3 harg3 arg4 harg4 arg5 harg5 arg6 harg6 arg7 harg7 arg8 harg8 X1 X2 G4 G6 G7 (ix2 (0 : Fin 1) c') = Cert.Attn.runSum (scoreOf Qa Ka c') 16 :=
  (row_read _ _ c').trans (sweep1_sum 𝒱 c bd gi arg1 harg1 arg2 harg2 arg3 harg3 arg4 harg4 arg5 harg5 arg6 harg6 arg7 harg7 arg8 harg8 X1 X2 G4 G6 G7 hm0 hl0 16 le_rfl c')

/-- After the whole body the output block is the softmax of each column of scores. -/
theorem body_attn (hm0 : ∀ c' : Fin 128, arg6.view.read (Elt Ideal) G6 (ix2 (0 : Fin 1) c') = ⊥)
    (hl0 : ∀ c' : Fin 128, arg7.view.read (Elt Ideal) G7 (ix2 (0 : Fin 1) c') = 0)
    (hreal : ∀ (c' : Fin 128) (i : Fin 8192), ∃ r : ℝ, scoreOf Qa Ka c' i = (r : EReal))
    (i : Fin 8192) (c' : Fin 128) :
    arg4.view.read (Elt Ideal) (arg4.view.writes (Elt Ideal) (after1_4 𝒱 c bd gi arg1 harg1 arg2 harg2 arg3 harg3 arg4 harg4 arg5 harg5 arg6 harg6 arg7 harg7 arg8 harg8 X1 X2 G4 G6 G7) (P2 𝒱 c bd gi arg1 harg1 arg2 harg2 arg3 harg3 arg4 harg4 arg5 harg5 arg6 harg6 arg7 harg7 arg8 harg8 X1 X2 G4 G6 G7 G8 16).1) (ix2 i c')
      = Cert.Attn.colAttn (scoreOf Qa Ka c') i := by
  obtain ⟨k', r, rfl⟩ : ∃ (k' : Fin 16) (r : Fin 512), i = Cert.Attn.row k' r := ⟨_, _, (Cert.Attn.row_div_mod i).symm⟩
  exact (sweep2_block_spec 𝒱 c bd gi arg1 harg1 arg2 harg2 arg3 harg3 arg4 harg4 arg5 harg5 arg6 harg6 arg7 harg7 arg8 harg8 (sumRow 𝒱 c bd gi arg1 harg1 arg2 harg2 arg3 harg3 arg4 harg4 arg5 harg5 arg6 harg6 arg7 harg7 arg8 harg8 X1 X2 G4 G6 G7) (after1_6 𝒱 c bd gi arg1 harg1 arg2 harg2 arg3 harg3 arg4 harg4 arg5 harg5 arg6 harg6 arg7 harg7 arg8 harg8 X1 X2 G4 G6 G7) (after1_4 𝒱 c bd gi arg1 harg1 arg2 harg2 arg3 harg3 arg4 harg4 arg5 harg5 arg6 harg6 arg7 harg7 arg8 harg8 X1 X2 G4 G6 G7) G8 (scoreOf Qa Ka c') c'
      (fun j => after1_scores 𝒱 c bd gi arg1 harg1 arg2 harg2 arg3 harg3 arg4 harg4 arg5 harg5 arg6 harg6 arg7 harg7 arg8 harg8 X1 X2 G4 G6 G7 j c') (after1_max 𝒱 c bd gi arg1 harg1 arg2 harg2 arg3 harg3 arg4 harg4 arg5 harg5 arg6 harg6 arg7 harg7 arg8 harg8 X1 X2 G4 G6 G7 hm0 c') (after1_sum 𝒱 c bd gi arg1 harg1 arg2 harg2 arg3 harg3 arg4 harg4 arg5 harg5 arg6 harg6 arg7 harg7 arg8 harg8 X1 X2 G4 G6 G7 hm0 hl0 c') k' r).trans
    (Cert.Attn.tiledAttn_eq_colAttn (scoreOf Qa Ka c') (hreal c') k' r)

/-- After the whole body the total row holds the total of each column's softmax. -/
theorem body_tot (hm0 : ∀ c' : Fin 128, arg6.view.read (Elt Ideal) G6 (ix2 (0 : Fin 1) c') = ⊥)
    (hl0 : ∀ c' : Fin 128, arg7.view.read (Elt Ideal) G7 (ix2 (0 : Fin 1) c') = 0)
    (ht0 : ∀ c' : Fin 128, arg8.view.read (Elt Ideal) G8 (ix2 (0 : Fin 1) c') = 0)
    (hreal : ∀ (c' : Fin 128) (i : Fin 8192), ∃ r : ℝ, scoreOf Qa Ka c' i = (r : EReal))
    (c' : Fin 128) :
    arg8.view.read (Elt Ideal) (arg8.view.writes (Elt Ideal) G8 (P2 𝒱 c bd gi arg1 harg1 arg2 harg2 arg3 harg3 arg4 harg4 arg5 harg5 arg6 harg6 arg7 harg7 arg8 harg8 X1 X2 G4 G6 G7 G8 16).2) (ix2 (0 : Fin 1) c')
      = Cert.Attn.colTot (scoreOf Qa Ka c') :=
  (sweep2_tot 𝒱 c bd gi arg1 harg1 arg2 harg2 arg3 harg3 arg4 harg4 arg5 harg5 arg6 harg6 arg7 harg7 arg8 harg8 (sumRow 𝒱 c bd gi arg1 harg1 arg2 harg2 arg3 harg3 arg4 harg4 arg5 harg5 arg6 harg6 arg7 harg7 arg8 harg8 X1 X2 G4 G6 G7) (after1_6 𝒱 c bd gi arg1 harg1 arg2 harg2 arg3 harg3 arg4 harg4 arg5 harg5 arg6 harg6 arg7 harg7 arg8 harg8 X1 X2 G4 G6 G7) (after1_4 𝒱 c bd gi arg1 harg1 arg2 harg2 arg3 harg3 arg4 harg4 arg5 harg5 arg6 harg6 arg7 harg7 arg8 harg8 X1 X2 G4 G6 G7) G8 (scoreOf Qa Ka c') c'
      (fun j => after1_scores 𝒱 c bd gi arg1 harg1 arg2 harg2 arg3 harg3 arg4 harg4 arg5 harg5 arg6 harg6 arg7 harg7 arg8 harg8 X1 X2 G4 G6 G7 j c') (after1_max 𝒱 c bd gi arg1 harg1 arg2 harg2 arg3 harg3 arg4 harg4 arg5 harg5 arg6 harg6 arg7 harg7 arg8 harg8 X1 X2 G4 G6 G7 hm0 c') (after1_sum 𝒱 c bd gi arg1 harg1 arg2 harg2 arg3 harg3 arg4 harg4 arg5 harg5 arg6 harg6 arg7 harg7 arg8 harg8 X1 X2 G4 G6 G7 hm0 hl0 c') (ht0 c') 16 le_rfl).trans
    (Cert.Attn.runTot_eq_colTot (scoreOf Qa Ka c') (hreal c'))

/-- The context block the body stores last: the totals, one per row, times the block of x. -/
theorem body_ctx (hm0 : ∀ c' : Fin 128, arg6.view.read (Elt Ideal) G6 (ix2 (0 : Fin 1) c') = ⊥)
    (hl0 : ∀ c' : Fin 128, arg7.view.read (Elt Ideal) G7 (ix2 (0 : Fin 1) c') = 0)
    (ht0 : ∀ c' : Fin 128, arg8.view.read (Elt Ideal) G8 (ix2 (0 : Fin 1) c') = 0)
    (hreal : ∀ (c' : Fin 128) (i : Fin 8192), ∃ r : ℝ, scoreOf Qa Ka c' i = (r : EReal))
    (x2 : Vec Ideal S128x1024 .f32) (j : Fin 128) (h : Fin 1024) :
    k1_pay10 (F := Ideal)
        (View.readAt (Elt Ideal) arg8.view (Rect.toLoadRect (Rect.unit (s := S1x128) ![0, 0] S1x128.size inb_S1x128_S1x128_0_0))
          (arg8.view.writes (Elt Ideal) G8 (P2 𝒱 c bd gi arg1 harg1 arg2 harg2 arg3 harg3 arg4 harg4 arg5 harg5 arg6 harg6 arg7 harg7 arg8 harg8 X1 X2 G4 G6 G7 G8 16).2)) x2 (ix2 j h)
      = Cert.Attn.colTot (scoreOf Qa Ka j) * x2 (ix2 j h) :=
  (Cert.KernelIdeal.Pay.ctxBlock_apply _ x2 j h).trans
    (congrArg (fun z => z * x2 (ix2 j h)) ((row_read _ _ j).trans (body_tot 𝒱 c bd gi arg1 harg1 arg2 harg2 arg3 harg3 arg4 harg4 arg5 harg5 arg6 harg6 arg7 harg7 arg8 harg8 X1 X2 G4 G6 G7 G8 hm0 hl0 ht0 hreal j)))

end

end Cert.KernelIdeal.Sweep

end
-- ==== Proof.RegionTwoBlock.lean ====
/-
  The second region's body, read off the run: what the attention block and the context block hold after the body at
  a grid point.

  The run of the body on whole staging memrefs finds, for the attention block, the second sweep's sixteen tile stores
  in front of the first sweep's sixteen, and for the context block one store of the whole block. The tiles cover the
  attention block, so what is read afterwards does not depend on which buffer of that shape is read or on what it
  held; read through the body's own buffer, the two lists are the two sweeps, the second started from what the first
  left. The three scratch rows start at −∞, 0 and 0 (one constant store each before the first sweep). So the
  attention block is the softmax of each column of scores of the query array against the key block, and the context
  block the totals of those columns, one per row, times the block of x, provided the scores are real numbers.
-/
import proofs.«163533_j21277267984815_2_alg».proof.Proof.FrameIdeal
import proofs.«163533_j21277267984815_2_alg».proof.Proof.SweepBoth

noncomputable section

open scoped BigOperators

namespace Cert.KernelIdeal.Value

open Cert.KernelIdeal Cert.KernelIdeal.Gen Cert.KernelIdeal.GenP Idealize.ShloMosaic Idealize.ShloMosaic.ValueIdx
open Idealize.ShloMosaic.TcCoe Idealize.ShloMosaic.Tactic

/-- The running-maximum, running-sum and total rows as the body initialises them before the first sweep: one store
    of a constant row each, over whatever the scratch buffer held. -/
abbrev G6v (arg6 : Memref sig .tc .vmem S1x128 .f32) : BufTy.Contents (Elt Ideal) arg6.view.ty :=
  arg6.view.writes (Elt Ideal) arg6.view.junk (kernelRun1_A.sl.HS0_1 (F := Ideal))
abbrev G7v (arg7 : Memref sig .tc .vmem S1x128 .f32) : BufTy.Contents (Elt Ideal) arg7.view.ty :=
  arg7.view.writes (Elt Ideal) arg7.view.junk (kernelRun1_A.sl.HS1_1 (F := Ideal))
abbrev G8v (arg8 : Memref sig .tc .vmem S1x128 .f32) : BufTy.Contents (Elt Ideal) arg8.view.ty :=
  arg8.view.writes (Elt Ideal) arg8.view.junk (kernelRun1_A.sl.HS2_1 (F := Ideal))

/-- The running-maximum row starts at −∞. -/
theorem init_max (arg6 : Memref sig .tc .vmem S1x128 .f32) (c' : Fin 128) :
    arg6.view.read (Elt Ideal) (G6v arg6) (ix2 (0 : Fin 1) c') = ⊥ :=
  (Sweep.read_row_cons arg6.view arg6.view.junk (k1_pay1 (F := Ideal)) [] c').trans (Cert.KernelIdeal.Pay.initMax_apply _)

/-- The running-sum row starts at 0. -/
theorem init_sum (arg7 : Memref sig .tc .vmem S1x128 .f32) (c' : Fin 128) :
    arg7.view.read (Elt Ideal) (G7v arg7) (ix2 (0 : Fin 1) c') = 0 :=
  (Sweep.read_row_cons arg7.view arg7.view.junk (k1_pay2 (F := Ideal)) [] c').trans (Cert.KernelIdeal.Pay.initSum_apply _)

/-- The total row starts at 0. -/
theorem init_tot (arg8 : Memref sig .tc .vmem S1x128 .f32) (c' : Fin 128) :
    arg8.view.read (Elt Ideal) (G8v arg8) (ix2 (0 : Fin 1) c') = 0 :=
  (Sweep.read_row_cons arg8.view arg8.view.junk (k1_pay3 (F := Ideal)) [] c').trans (Cert.KernelIdeal.Pay.initTot_apply _)

section Run
variable (c : Dev nD) (gi : grid1.Coords)
  (arg1 : Memref sig .tc .vmem S8192x1024 .bf16) (harg1 : arg1.IsWhole) (arg2 : Memref sig .tc .vmem S128x1024 .bf16) (harg2 : arg2.IsWhole)
  (arg3 : Memref sig .tc .vmem S128x1024 .f32) (harg3 : arg3.IsWhole) (arg4 : Memref sig .tc .vmem S8192x128 .f32) (harg4 : arg4.IsWhole)
  (arg5 : Memref sig .tc .vmem S128x1024 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S1x128 .f32) (harg8 : arg8.IsWhole)
  (x0 : Vec Ideal S8192x1024 .bf16) (x1 : Vec Ideal S128x1024 .bf16) (x2 : Vec Ideal S128x1024 .f32)

/-- The pieces the body stores into the attention block: the second sweep's tiles in front of the first sweep's. -/
theorem run_fst :
    (kernelRun1_A (F := Ideal) c gi arg1 harg1 arg2 harg2 arg3 harg3 arg4 harg4 arg5 harg5 arg6 harg6 arg7 harg7 arg8 harg8 x0 x1 x2).1
      = (Sweep.P2 Variants.none c none gi arg1 harg1 arg2 harg2 arg3 harg3 arg4 harg4 arg5 harg5 arg6 harg6 arg7 harg7 arg8 harg8 (harg1.unread x0) (harg2.unread x1) arg4.view.junk (G6v arg6) (G7v arg7) (G8v arg8) 16).1 ++ (Sweep.P1 Variants.none c none gi arg1 harg1 arg2 harg2 arg3 harg3 arg4 harg4 arg5 harg5 arg6 harg6 arg7 harg7 arg8 harg8 (harg1.unread x0) (harg2.unread x1) arg4.view.junk (G6v arg6) (G7v arg7) 16).1 := by
  have hV : View.readAt (Elt Ideal) arg7.view (Rect.toLoadRect (Rect.unit (s := S1x128) ![0, 0] S1x128.size inb_S1x128_S1x128_0_0))
        (arg7.view.writes (Elt Ideal) arg7.view.junk ((Sweep.P1 Variants.none c none gi arg1 harg1 arg2 harg2 arg3 harg3 arg4 harg4 arg5 harg5 arg6 harg6 arg7 harg7 arg8 harg8 (harg1.unread x0) (harg2.unread x1) arg4.view.junk (G6v arg6) (G7v arg7) 16).2.2 ++ kernelRun1_A.sl.HS1_1 (F := Ideal)))
      = Sweep.sumRow Variants.none c none gi arg1 harg1 arg2 harg2 arg3 harg3 arg4 harg4 arg5 harg5 arg6 harg6 arg7 harg7 arg8 harg8 (harg1.unread x0) (harg2.unread x1) arg4.view.junk (G6v arg6) (G7v arg7) :=
    congrArg (View.readAt (Elt Ideal) arg7.view (Rect.toLoadRect (Rect.unit (s := S1x128) ![0, 0] S1x128.size inb_S1x128_S1x128_0_0)))
      (View.writes_append _ _ _ _)
  have hX : arg6.view.writes (Elt Ideal) arg6.view.junk ((Sweep.P1 Variants.none c none gi arg1 harg1 arg2 harg2 arg3 harg3 arg4 harg4 arg5 harg5 arg6 harg6 arg7 harg7 arg8 harg8 (harg1.unread x0) (harg2.unread x1) arg4.view.junk (G6v arg6) (G7v arg7) 16).2.1 ++ kernelRun1_A.sl.HS0_1 (F := Ideal))
      = Sweep.after1_6 Variants.none c none gi arg1 harg1 arg2 harg2 arg3 harg3 arg4 harg4 arg5 harg5 arg6 harg6 arg7 harg7 arg8 harg8 (harg1.unread x0) (harg2.unread x1) arg4.view.junk (G6v arg6) (G7v arg7) := View.writes_append _ _ _ _
  unfold kernelRun1_A
  dsimp only
  rw [hV, hX]

/-- The one piece the body stores into the context block: the whole block, the totals one per row times the block of x. -/
theorem run_snd :
    (kernelRun1_A (F := Ideal) c gi arg1 harg1 arg2 harg2 arg3 harg3 arg4 harg4 arg5 harg5 arg6 harg6 arg7 harg7 arg8 harg8 x0 x1 x2).2.1
      = [⟨Rect.unit (s := S128x1024) ![0, 0] S128x1024.size inb_S128x1024_S128x1024_0_0,
          k1_pay10 (F := Ideal)
            (View.readAt (Elt Ideal) arg8.view (Rect.toLoadRect (Rect.unit (s := S1x128) ![0, 0] S1x128.size inb_S1x128_S1x128_0_0))
              (arg8.view.writes (Elt Ideal) (G8v arg8) (Sweep.P2 Variants.none c none gi arg1 harg1 arg2 harg2 arg3 harg3 arg4 harg4 arg5 harg5 arg6 harg6 arg7 harg7 arg8 harg8 (harg1.unread x0) (harg2.unread x1) arg4.view.junk (G6v arg6) (G7v arg7) (G8v arg8) 16).2))
            x2⟩] := by
  have hV : View.readAt (Elt Ideal) arg7.view (Rect.toLoadRect (Rect.unit (s := S1x128) ![0, 0] S1x128.size inb_S1x128_S1x128_0_0))
        (arg7.view.writes (Elt Ideal) arg7.view.junk ((Sweep.P1 Variants.none c none gi arg1 harg1 arg2 harg2 arg3 harg3 arg4 harg4 arg5 harg5 arg6 harg6 arg7 harg7 arg8 harg8 (harg1.unread x0) (harg2.unread x1) arg4.view.junk (G6v arg6) (G7v arg7) 16).2.2 ++ kernelRun1_A.sl.HS1_1 (F := Ideal)))
      = Sweep.sumRow Variants.none c none gi arg1 harg1 arg2 harg2 arg3 harg3 arg4 harg4 arg5 harg5 arg6 harg6 arg7 harg7 arg8 harg8 (harg1.unread x0) (harg2.unread x1) arg4.view.junk (G6v arg6) (G7v arg7) :=
    congrArg (View.readAt (Elt Ideal) arg7.view (Rect.toLoadRect (Rect.unit (s := S1x128) ![0, 0] S1x128.size inb_S1x128_S1x128_0_0)))
      (View.writes_append _ _ _ _)
  have hX : arg6.view.writes (Elt Ideal) arg6.view.junk ((Sweep.P1 Variants.none c none gi arg1 harg1 arg2 harg2 arg3 harg3 arg4 harg4 arg5 harg5 arg6 harg6 arg7 harg7 arg8 harg8 (harg1.unread x0) (harg2.unread x1) arg4.view.junk (G6v arg6) (G7v arg7) 16).2.1 ++ kernelRun1_A.sl.HS0_1 (F := Ideal))
      = Sweep.after1_6 Variants.none c none gi arg1 harg1 arg2 harg2 arg3 harg3 arg4 harg4 arg5 harg5 arg6 harg6 arg7 harg7 arg8 harg8 (harg1.unread x0) (harg2.unread x1) arg4.view.junk (G6v arg6) (G7v arg7) := View.writes_append _ _ _ _
  have hx2 : View.readAt (Elt Ideal) arg3.view (Rect.toLoadRect (Rect.unit (s := S128x1024) ![0, 0] S128x1024.size inb_S128x1024_S128x1024_0_0)) (harg3.unread x2)
      = x2 :=
    (View.readAt_eq_ld arg3.view (harg3.unread x2) _).trans
      ((congrArg (fun X => View.ld X (Rect.unit (s := S128x1024) ![0, 0] S128x1024.size inb_S128x1024_S128x1024_0_0)) (harg3.read_unread x2)).trans
        (View.ld_unit_zero (funext fun a => by match a with | ⟨0, _⟩ => rfl | ⟨1, _⟩ => rfl) inb_S128x1024_S128x1024_0_0 x2))
  unfold kernelRun1_A
  dsimp only
  rw [hV, hX, hx2, View.writes_append]

/-- A store of a whole 128 × 1024 buffer, alone in the list, is what the buffer reads afterwards. -/
theorem read_block_single {sig' : RefSig} {κ : Kind} {sp : Space} (v : View sig' κ sp S128x1024 .f32) (f : v.ty.Contents (Elt Ideal))
    (w : (Rect.unit (s := S128x1024) ![0, 0] S128x1024.size inb_S128x1024_S128x1024_0_0).shape.Idx → Elt Ideal .f32) (j : Fin 128) (h : Fin 1024) :
    v.read (Elt Ideal) (v.writes (Elt Ideal) f [⟨Rect.unit (s := S128x1024) ![0, 0] S128x1024.size inb_S128x1024_S128x1024_0_0, w⟩]) (ix2 j h)
      = w (ix2 j h) :=
  View.read_writes_cons_unit_of_mem v f inb_S128x1024_S128x1024_0_0 w [] (ix2 j h) (ix2 j h) rfl (fun a => by
    match a with
    | ⟨0, _⟩ => show j.val = 0 + j.val; omega
    | ⟨1, _⟩ => show h.val = 0 + h.val; omega)

/-- On whole memrefs holding a query array x0, a key block x1 and a block x2 of x: the body leaves the softmax of each
    column of scores in the attention block. -/
theorem run_attn (hreal : ∀ (c' : Fin 128) (i : Fin 8192), ∃ r : ℝ, Sweep.scoreOf x0 x1 c' i = (r : EReal)) (i : Fin 8192) (c' : Fin 128) :
    out1_A_3 (F := Ideal) c gi arg1 harg1 arg2 harg2 arg3 harg3 arg4 harg4 arg5 harg5 arg6 harg6 arg7 harg7 arg8 harg8 x0 x1 x2 (ix2 i c')
      = Cert.Attn.colAttn (Sweep.scoreOf x0 x1 c') i := by
  have eQ : arg1.view.read (Elt Ideal) (harg1.unread x0) = x0 := harg1.read_unread x0
  have eK : arg2.view.read (Elt Ideal) (harg2.unread x1) = x1 := harg2.read_unread x1
  have hb := Sweep.body_attn Variants.none c none gi arg1 harg1 arg2 harg2 arg3 harg3 arg4 harg4 arg5 harg5 arg6 harg6 arg7 harg7 arg8 harg8 (harg1.unread x0) (harg2.unread x1) arg4.view.junk (G6v arg6) (G7v arg7) (G8v arg8) (init_max arg6) (init_sum arg7) (by rw [eQ, eK]; exact hreal) i c'
  rw [eQ, eK] at hb
  unfold out1_A_3
  refine (congrFun (View.read_writes_of_cover VO1_3 VO1_3.junk arg4.view arg4.view.junk _
    (cover1_A_3 (F := Ideal) c gi arg1 harg1 arg2 harg2 arg3 harg3 arg4 harg4 arg5 harg5 arg6 harg6 arg7 harg7 arg8 harg8 x0 x1 x2)) (ix2 i c')).trans ?_
  rw [run_fst, View.writes_append]
  exact hb

/-- … and in the context block the total of each column's softmax, one per row, times the block of x. -/
theorem run_ctx (hreal : ∀ (c' : Fin 128) (i : Fin 8192), ∃ r : ℝ, Sweep.scoreOf x0 x1 c' i = (r : EReal)) (j : Fin 128) (h : Fin 1024) :
    out1_A_4 (F := Ideal) c gi arg1 harg1 arg2 harg2 arg3 harg3 arg4 harg4 arg5 harg5 arg6 harg6 arg7 harg7 arg8 harg8 x0 x1 x2 (ix2 j h)
      = Cert.Attn.colTot (Sweep.scoreOf x0 x1 j) * x2 (ix2 j h) := by
  have eQ : arg1.view.read (Elt Ideal) (harg1.unread x0) = x0 := harg1.read_unread x0
  have eK : arg2.view.read (Elt Ideal) (harg2.unread x1) = x1 := harg2.read_unread x1
  have hb := Sweep.body_ctx Variants.none c none gi arg1 harg1 arg2 harg2 arg3 harg3 arg4 harg4 arg5 harg5 arg6 harg6 arg7 harg7 arg8 harg8 (harg1.unread x0) (harg2.unread x1) arg4.view.junk (G6v arg6) (G7v arg7) (G8v arg8) (init_max arg6) (init_sum arg7) (init_tot arg8) (by rw [eQ, eK]; exact hreal) x2 j h
  rw [eQ, eK] at hb
  unfold out1_A_4
  rw [run_snd]
  exact (read_block_single _ _ _ j h).trans hb

end Run

/-! ## At a grid point of the region -/

section Point
variable (V : (c : Dev nD) → (b : Ref sig .tc) → Buf (Elt Ideal) ((c : Thread nD τ).loc b)) (c : Dev nD) (t : Fin cfg1.N)

/-- The whole query array, block t of the key array and block t of x, as the region finds them. -/
abbrev Qb : Vec Ideal S8192x1024 .bf16 := iblk1 (F := Ideal) V c 0 t
abbrev Kb : Vec Ideal S128x1024 .bf16 := iblk1 (F := Ideal) V c 1 t
abbrev Xb : Vec Ideal S128x1024 .f32 := iblk1 (F := Ideal) V c 2 t

/-- After the body at point t the attention block holds the softmax of each column of scores of the query array
    against block t of the key array. -/
theorem block_attn (hreal : ∀ (c' : Fin 128) (i : Fin 8192), ∃ r : ℝ, Sweep.scoreOf (Qb V c t) (Kb V c t) c' i = (r : EReal))
    (i : Fin 8192) (c' : Fin 128) :
    (outsAt1 (F := Ideal) V c t).1 (ix2 i c') = Cert.Attn.colAttn (Sweep.scoreOf (Qb V c t) (Kb V c t) c') i := by
  unfold outsAt1
  exact run_attn c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (Qb V c t) (Kb V c t) (Xb V c t) hreal i c'

end Point

end Cert.KernelIdeal.Value

end
-- ==== Proof.RegionTwoCtx.lean ====
/-
  The context block at a grid point of the second pallas_call.

  The body's last store puts into the context block, row by row, the total of the corresponding column's softmax times
  the row of x (the companion module reads the attention block). Here that reading, proved over arbitrary whole
  memrefs, is taken at the memrefs and input blocks of a grid point.
-/
import proofs.«163533_j21277267984815_2_alg».proof.Proof.RegionTwoBlock

set_option maxRecDepth 16384

noncomputable section

namespace Cert.KernelIdeal.Value

open Cert.KernelIdeal Cert.KernelIdeal.Gen Cert.KernelIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD) (t : Fin cfg1.N)

/-- What the body leaves in the context block, at the point's staging memrefs and input blocks. -/
theorem point_ctx (hreal : ∀ (c' : Fin 128) (i : Fin 8192), ∃ r : ℝ, Sweep.scoreOf (Qb V c t) (Kb V c t) c' i = (r : EReal)) (j : Fin 128) (h : Fin 1024) :
    out1_A_4 (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (Qb V c t) (Kb V c t) (Xb V c t) (ix2 j h)
      = Cert.Attn.colTot (Sweep.scoreOf (Qb V c t) (Kb V c t) j) * (Xb V c t) (ix2 j h) :=
  run_ctx c (grid1.coords t) (ms1_0 t) (hs1_0 t) (ms1_1 t) (hs1_1 t) (ms1_2 t) (hs1_2 t) (ms1_3 t) (hs1_3 t) (ms1_4 t) (hs1_4 t) scM1_0 (Memref.isWhole_whole _) scM1_1 (Memref.isWhole_whole _) scM1_2 (Memref.isWhole_whole _) (Qb V c t) (Kb V c t) (Xb V c t) hreal j h

/-- After the body at point t the context block holds, in row j, the total of softmax column j times row j of the
    block of x. -/
theorem block_ctx (hreal : ∀ (c' : Fin 128) (i : Fin 8192), ∃ r : ℝ, Sweep.scoreOf (Qb V c t) (Kb V c t) c' i = (r : EReal)) (j : Fin 128) (h : Fin 1024) :
    (outsAt1 (F := Ideal) V c t).2 (ix2 j h)
      = Cert.Attn.colTot (Sweep.scoreOf (Qb V c t) (Kb V c t) j) * (Xb V c t) (ix2 j h) := by
  unfold outsAt1
  dsimp only
  exact point_ctx V c t hreal j h

end Cert.KernelIdeal.Value

end
-- ==== Proof.FiniteInputs.lean ====
/-
  The precondition, decoded.

  The predicate over the three argument arrays tests, entry by entry, that the absolute value of the entry is
  strictly below +∞, takes the conjunction of the tests over each whole array, and the conjunction of the three
  results. On the extended reals the absolute value of x is max x (−x), which is +∞ exactly at the two infinities;
  so when the predicate evaluates to true, every entry of every argument is a real number.
-/
import proofs.«163533_j21277267984815_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The single-precision pattern with all exponent bits set and no fraction bit, sign clear, denotes +∞. -/
theorem ofBits_pos_inf : Ideal.ofBits .f32 0x7F800000#32 = (⊤ : EReal) := by
  simp [Ideal.ofBits, Ideal.ieee]

/-- An extended real whose absolute value max x (−x) is strictly below +∞ is a real number: at −∞ the negation is
    +∞, at +∞ the entry itself is. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One entry's test: the comparison "absolute value of x below the pattern of +∞" came out true, so x is real. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  rw [Ideal.cmpf_def, Ideal.hostAbsf_def, Ideal.absf_def, Ideal.ofBits_def, ofBits_pos_inf] at h
  refine real_of_abs_lt_top x ?_
  by_contra hn
  simp [Ideal.cmp, hn] at h

/-- The rank-0 shape has one index. -/
instance : Subsingleton Cert.Pre_finite_inputs.S_.Idx := ⟨fun _ _ => funext fun d => d.elim0⟩

/-- When the predicate is true of the three argument arrays, each of their entries is a real number. -/
theorem real_of_pre [Cert.Pre_finite_inputs.Facts] (a0 : (⟨3, ![1, 8192, 1024]⟩ : Shape).Idx → EReal)
    (a1 a2 : (⟨2, ![1024, 1024]⟩ : Shape).Idx → EReal)
    (h : Cert.Pre_finite_inputs.fn (F := Ideal) a0 a1 a2 = (fun _ => 1#1)) :
    (∀ y, ∃ r : ℝ, a0 y = (r : EReal)) ∧ (∀ y, ∃ r : ℝ, a1 y = (r : EReal)) ∧ (∀ y, ∃ r : ℝ, a2 y = (r : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun y => real_of_test _ (Host.reduce_andi_all _ _ _ _ _ h0' y),
    fun y => real_of_test _ (Host.reduce_andi_all _ _ _ _ _ h1 y),
    fun y => real_of_test _ (Host.reduce_andi_all _ _ _ _ _ h2 y)⟩

end Cert.FiniteInputs

end
-- ==== Proof.KernelValue.lean ====
/-
  The idealized kernel's two results as the specification's arrays.

  Through the run: the trailing broadcasts only add a leading unit axis to what the second pallas_call left; the second
  call's arrays are the softmax columns and scaled rows of the score array of the arrays it found; those arrays are
  the first call's results — the query array tanh (x · w1ᵀ) and the key array x · w2ᵀ — and x itself, reshaped. The
  score columns are sums of products of reals when the three arguments hold reals, which is what the law between the
  tiled and the whole-column reading of a softmax needs.
-/
import proofs.«163533_j21277267984815_2_alg».proof.Defs
import proofs.«163533_j21277267984815_2_alg».proof.Proof.KernelRun
import proofs.«163533_j21277267984815_2_alg».proof.Proof.RegionOne
import proofs.«163533_j21277267984815_2_alg».proof.Proof.RegionTwoArrays
import proofs.«163533_j21277267984815_2_alg».proof.Proof.RegionTwoBlock
import proofs.«163533_j21277267984815_2_alg».proof.Proof.RegionTwoCtx
import proofs.«163533_j21277267984815_2_alg».proof.Proof.HostGlue
import proofs.«163533_j21277267984815_2_alg».proof.Proof.AttnLaw
import proofs.«163533_j21277267984815_2_alg».proof.Proof.FiniteInputs

set_option maxRecDepth 16384

noncomputable section

open scoped BigOperators

namespace Cert.KernelIdeal.Value

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The score columns the second call sees are the specification's -/

theorem scoreArr_eq (j : Fin 8192) :
    scoreArr (V2 m ρ) c j = Cert.Attn.scoreCol (argX m c) (argW1 m c) (argW2 m c) j := by
  funext i
  exact Finset.sum_congr rfl fun h _ =>
    congrArg₂ (fun a b : EReal => a * b) (exit_query_apply m ρ c i h) (exit_key_apply m ρ c j h)

section Real

variable (hx : ∀ y, ∃ r : ℝ, argX m c y = (r : EReal)) (hw1 : ∀ y, ∃ r : ℝ, argW1 m c y = (r : EReal))
  (hw2 : ∀ y, ∃ r : ℝ, argW2 m c y = (r : EReal))
include hx hw1 hw2

/-- Real arguments give real scores. -/
theorem scoreArr_real (j i : Fin 8192) : ∃ r : ℝ, scoreArr (V2 m ρ) c j i = (r : EReal) := by
  rw [scoreArr_eq]
  exact Cert.Attn.score_real _ _ _ (fun i h => hx _) (fun o h => hw1 _) (fun o h => hw2 _) i j

theorem block_real (t : Fin cfg1.N) (q : Fin 128) (i : Fin 8192) :
    ∃ r : ℝ, Sweep.scoreOf (iblk1 (V2 m ρ) c 0 t : S8192x1024.Idx → EReal) (iblk1 (V2 m ρ) c 1 t : S128x1024.Idx → EReal) q i = (r : EReal) := by
  have ht := t_lt t
  have hq : 128 * t.val + q.val < 8192 := by have := q.isLt; omega
  rw [score_block (V2 m ρ) c t q hq]
  exact scoreArr_real m ρ c hx hw1 hw2 _ i

/-- The second call's attention array. -/
theorem attn_final : (dat1 (V2 m ρ) c).arrAt 3 cfg1.N = attn2 (V2 m ρ) c :=
  attnArray (V2 m ρ) c fun t i q => block_attn (V2 m ρ) c t (fun c' i' => block_real m ρ c hx hw1 hw2 t c' i') i q

/-- The second call's context array. -/
theorem ctx_final : (dat1 (V2 m ρ) c).arrAt 4 cfg1.N = ctx2 (V2 m ρ) c :=
  ctxArray (V2 m ρ) c fun t q h => block_ctx (V2 m ρ) c t (fun c' i' => block_real m ρ c hx hw1 hw2 t c' i') q h

/-! ## The two results -/

theorem result_attn :
    (W4 m ρ c (Proc.devRef .tc main_v7) : (⟨3, ![1, 8192, 8192]⟩ : Shape).Idx → EReal)
      = Cert.Attn.attnArr (argX m c) (argW1 m c) (argW2 m c) := by
  funext y
  obtain ⟨u, i, j, rfl⟩ : ∃ (u : Fin 1) (i j : Fin 8192), y = ix3 u i j := ⟨y 0, y 1, y 2, eq_ix3 y⟩
  obtain rfl : u = 0 := Subsingleton.elim _ _
  refine (Glue.after_attn (W3 m ρ c) i j).trans ?_
  refine (congrFun (W3_arr m ρ c 3) (ix2 i j)).trans ?_
  refine (congrFun (attn_final m ρ c hx hw1 hw2) (ix2 i j)).trans ?_
  show Cert.Attn.colAttn (scoreArr (V2 m ρ) c j) i = Cert.Attn.colAttn (Cert.Attn.scoreCol (argX m c) (argW1 m c) (argW2 m c) j) i
  rw [scoreArr_eq]

theorem result_ctx :
    (W4 m ρ c (Proc.devRef .tc main_v8) : (⟨3, ![1, 8192, 1024]⟩ : Shape).Idx → EReal)
      = Cert.Attn.ctxArr (argX m c) (argW1 m c) (argW2 m c) := by
  funext y
  obtain ⟨u, j, h, rfl⟩ : ∃ (u : Fin 1) (j : Fin 8192) (h : Fin 1024), y = ix3 u j h := ⟨y 0, y 1, y 2, eq_ix3 y⟩
  obtain rfl : u = 0 := Subsingleton.elim _ _
  refine (Glue.after_ctx (W3 m ρ c) j h).trans ?_
  refine (congrFun (W3_arr m ρ c 4) (ix2 j h)).trans ?_
  refine (congrFun (ctx_final m ρ c hx hw1 hw2) (ix2 j h)).trans ?_
  show Cert.Attn.colTot (scoreArr (V2 m ρ) c j) * xArr (V2 m ρ) c (ix2 j h)
      = Cert.Attn.colTot (Cert.Attn.scoreCol (argX m c) (argW1 m c) (argW2 m c) j) * Cert.Attn.xOf (argX m c) j h
  rw [scoreArr_eq]
  exact congrArg (fun a : EReal => Cert.Attn.colTot (Cert.Attn.scoreCol (argX m c) (argW1 m c) (argW2 m c) j) * a) (exit_x m ρ c j h)

end Real

/-! ## The run -/

/-- Under the precondition every weakly fair execution of the idealized kernel's @main terminates without a fault, its
    two results at the specification's arrays of the launch contents of the arguments, the arguments unchanged. -/
theorem run_spec [hP : Cert.Pre_finite_inputs.Facts] (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev nD,
        r.2.mem ((c.tc : Thread nD τ).loc main_v8) = Cert.Attn.ctxArr (m ((c.tc : Thread nD τ).loc main_arg0)) (m ((c.tc : Thread nD τ).loc main_arg1)) (m ((c.tc : Thread nD τ).loc main_arg2))
      ∧ r.2.mem ((c.tc : Thread nD τ).loc main_v7) = Cert.Attn.attnArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (Cert.KernelIdeal.defs (F := Ideal)) _ _).mono
    (fun r h c => by
      obtain ⟨hx, hw1, hw2⟩ := Cert.FiniteInputs.real_of_pre (argX m c) (argW1 m c) (argW2 m c) (hpre c)
      exact ⟨(h c).1.trans (result_ctx m ρ c hx hw1 hw2), (h c).2.1.trans (result_attn m ρ c hx hw1 hw2), (h c).2.2⟩)
    (Run.run_values m ρ)

end Cert.KernelIdeal.Value

end
-- ==== Proof.RefValue.lean ====
/-
  The reference program's two results are the specification's two arrays.

  Stage by stage, at an index given by its coordinates: the two projections x · w1ᵀ and x · w2ᵀ are sums over the
  shared axis; the hyperbolic tangent of the first is the query array; the batched contraction of query rows with
  key rows is the score array, entry (i, j) the inner product of query row i with key row j. The maximum over the
  query axis i, folded from −∞, is the column maximum of column j (the further maximum with a broadcast −∞ changes
  nothing); the shifted exponentials, their sum over i (from 0), and the quotient give the softmax of column j at i;
  the sum of those over i is the column's total, which scales row j of x.
-/
import proofs.«163533_j21277267984815_2_alg».proof.Proof.Gen.ReferenceIdeal.Run
import proofs.«163533_j21277267984815_2_alg».proof.Proof.Gen.ReferenceIdeal.Read
import proofs.«163533_j21277267984815_2_alg».proof.Proof.AttnSpec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo
open Idealize.ShloMosaic.ValueIdx (ix2 ix3 eq_ix2 eq_ix3)
open Cert.Attn

/-! ## The index functions of the stages, at coordinates -/

theorem lidx_v0 (i : Fin 8192) (o k : Fin 1024) : lidx_main_v0 (ix3 (0 : Fin 1) i o) k = ix3 (0 : Fin 1) i k :=
  funext fun d => Fin.ext (by match d with | ⟨0, _⟩ => rfl | ⟨1, _⟩ => rfl | ⟨2, _⟩ => rfl)
theorem ridx_v0 (i : Fin 8192) (o k : Fin 1024) : ridx_main_v0 (ix3 (0 : Fin 1) i o) k = ix2 o k :=
  funext fun d => Fin.ext (by match d with | ⟨0, _⟩ => rfl | ⟨1, _⟩ => rfl)
theorem lidx_v2 (i : Fin 8192) (o k : Fin 1024) : lidx_main_v2 (ix3 (0 : Fin 1) i o) k = ix3 (0 : Fin 1) i k :=
  funext fun d => Fin.ext (by match d with | ⟨0, _⟩ => rfl | ⟨1, _⟩ => rfl | ⟨2, _⟩ => rfl)
theorem ridx_v2 (i : Fin 8192) (o k : Fin 1024) : ridx_main_v2 (ix3 (0 : Fin 1) i o) k = ix2 o k :=
  funext fun d => Fin.ext (by match d with | ⟨0, _⟩ => rfl | ⟨1, _⟩ => rfl)
theorem lidx_v3 (i j : Fin 8192) (k : Fin 1024) : lidx_main_v3 (ix3 (0 : Fin 1) i j) k = ix3 (0 : Fin 1) i k :=
  funext fun d => Fin.ext (by match d with | ⟨0, _⟩ => rfl | ⟨1, _⟩ => rfl | ⟨2, _⟩ => rfl)
theorem ridx_v3 (i j : Fin 8192) (k : Fin 1024) : ridx_main_v3 (ix3 (0 : Fin 1) i j) k = ix3 (0 : Fin 1) j k :=
  funext fun d => Fin.ext (by match d with | ⟨0, _⟩ => rfl | ⟨1, _⟩ => rfl | ⟨2, _⟩ => rfl)
theorem idx_v8 (i j : Fin 8192) : idx_main_v7 (idx_main_v8 (ix3 (0 : Fin 1) i j)) = ix2 (0 : Fin 1) j :=
  funext fun d => Fin.ext (by match d with | ⟨0, _⟩ => rfl | ⟨1, _⟩ => rfl)
theorem idx_v11 (j k : Fin 8192) : idx_main_v11 (ix2 (0 : Fin 1) j) k = ix3 (0 : Fin 1) k j :=
  funext fun d => Fin.ext (by match d with | ⟨0, _⟩ => rfl | ⟨1, _⟩ => rfl | ⟨2, _⟩ => rfl)
theorem idx_v13 (i j : Fin 8192) : idx_main_v12 (idx_main_v13 (ix3 (0 : Fin 1) i j)) = ix2 (0 : Fin 1) j :=
  funext fun d => Fin.ext (by match d with | ⟨0, _⟩ => rfl | ⟨1, _⟩ => rfl)
theorem idx_v15 (j k : Fin 8192) : idx_main_v15 (ix2 (0 : Fin 1) j) k = ix3 (0 : Fin 1) k j :=
  funext fun d => Fin.ext (by match d with | ⟨0, _⟩ => rfl | ⟨1, _⟩ => rfl | ⟨2, _⟩ => rfl)
theorem idx_v17 (j : Fin 8192) (h : Fin 1024) : idx_main_v16 (idx_main_v17 (ix3 (0 : Fin 1) j h)) = ix2 (0 : Fin 1) j :=
  funext fun d => Fin.ext (by match d with | ⟨0, _⟩ => rfl | ⟨1, _⟩ => rfl)

/-- The score array's query axis, as a reduced axis. -/
theorem red : S1x8192x8192.Reduces [1] S1x8192 := by decide

/-- Coordinate k inserted on the query axis of the reduced index (0, j) is the index (0, k, j). -/
theorem lift_red (j k : Fin 8192) : red.lift (ix2 (0 : Fin 1) j) k = ix3 (0 : Fin 1) k j :=
  funext fun d => Fin.ext (by match d with | ⟨0, _⟩ => rfl | ⟨1, _⟩ => rfl | ⟨2, _⟩ => rfl)

/-- The single-precision pattern of −∞ denotes −∞. -/
theorem ofBits_neg_inf : Ideal.ofBits .f32 0xFF800000#32 = (⊥ : EReal) := by
  simp [Ideal.ofBits, Ideal.ieee]

/-! ## The stages, at coordinates -/

section
variable (x0 : (⟨S1x8192x1024, .f32⟩ : BufTy).Contents (Elt Ideal)) (x1 x2 : (⟨S1024x1024, .f32⟩ : BufTy).Contents (Elt Ideal))

theorem v0_at (i : Fin 8192) (o : Fin 1024) :
    val_main_v0 (F := Ideal) x0 x1 (ix3 (0 : Fin 1) i o) = proj (xOf x0) (wOf x1) i o := by
  rw [val_main_v0_apply]
  simp only [lidx_v0, ridx_v0]
  rfl

theorem v1_at (i : Fin 8192) (o : Fin 1024) :
    val_main_v1 (F := Ideal) x0 x1 (ix3 (0 : Fin 1) i o) = query (xOf x0) (wOf x1) i o := by
  rw [val_main_v1_apply, v0_at, Ideal.hostUnary_tanh_def]
  rfl

theorem v2_at (i : Fin 8192) (o : Fin 1024) :
    val_main_v2 (F := Ideal) x0 x2 (ix3 (0 : Fin 1) i o) = proj (xOf x0) (wOf x2) i o := by
  rw [val_main_v2_apply]
  simp only [lidx_v2, ridx_v2]
  rfl

theorem v3_at (i j : Fin 8192) :
    val_main_v3 (F := Ideal) x0 x1 x2 (ix3 (0 : Fin 1) i j) = score (xOf x0) (wOf x1) (wOf x2) i j := by
  rw [val_main_v3_apply]
  simp only [lidx_v3, ridx_v3, v1_at, v2_at]
  rfl

theorem v4_at (j : Fin 8192) :
    val_main_v4 (F := Ideal) x0 x1 x2 (ix2 (0 : Fin 1) j) = colMax (scoreCol x0 x1 x2 j) := by
  unfold val_main_v4
  rw [Host.reduce_eq_fold_single FloatOps.maximumf _ _ reducesTo_S1x8192x8192_S1x8192_d1 red h_S_,
    val_main_cst_apply, Ideal.ofBits_def, ofBits_neg_inf]
  have e : (val_main_v3 (F := Ideal) x0 x1 x2 ∘ red.lift (ix2 (0 : Fin 1) j)) = scoreCol x0 x1 x2 j :=
    funext fun (k : Fin 8192) =>
      (congrArg (val_main_v3 (F := Ideal) x0 x1 x2) (lift_red j k)).trans (v3_at x0 x1 x2 k j)
  rw [e]
  rfl

theorem v5_at (y : S1x8192.Idx) : val_main_v5 (F := Ideal) y = (⊥ : EReal) := by
  rw [val_main_v5_apply, val_main_cst_0_apply, Ideal.ofBits_def, ofBits_neg_inf]

theorem v6_at (j : Fin 8192) :
    val_main_v6 (F := Ideal) x0 x1 x2 (ix2 (0 : Fin 1) j) = colMax (scoreCol x0 x1 x2 j) := by
  rw [val_main_v6_apply, v5_at, v4_at, Ideal.maximumf_def, max_bot_left]

theorem v8_at (i j : Fin 8192) :
    val_main_v8 (F := Ideal) x0 x1 x2 (ix3 (0 : Fin 1) i j) = colMax (scoreCol x0 x1 x2 j) := by
  rw [val_main_v8_apply, val_main_v7_apply, idx_v8, v6_at]

theorem v10_at (i j : Fin 8192) :
    val_main_v10 (F := Ideal) x0 x1 x2 (ix3 (0 : Fin 1) i j) = colExp (scoreCol x0 x1 x2 j) i := by
  rw [val_main_v10_apply, val_main_v9_apply, v3_at, v8_at, Ideal.hostUnary_exp_def, Ideal.subf_def]
  rfl

theorem v11_at (j : Fin 8192) :
    val_main_v11 (F := Ideal) x0 x1 x2 (ix2 (0 : Fin 1) j) = colSum (scoreCol x0 x1 x2 j) := by
  rw [val_main_v11_apply, val_main_cst_1_apply, Ideal.ofBits_def, Ideal.ofBits_zero_f32, zero_add]
  simp only [idx_v11, v10_at]
  rfl

theorem v13_at (i j : Fin 8192) :
    val_main_v13 (F := Ideal) x0 x1 x2 (ix3 (0 : Fin 1) i j) = colSum (scoreCol x0 x1 x2 j) := by
  rw [val_main_v13_apply, val_main_v12_apply, idx_v13, v11_at]

theorem v14_at (i j : Fin 8192) :
    val_main_v14 (F := Ideal) x0 x1 x2 (ix3 (0 : Fin 1) i j) = colAttn (scoreCol x0 x1 x2 j) i := by
  rw [val_main_v14_apply, v10_at, v13_at, Ideal.hostDivf_def]
  rfl

theorem v15_at (j : Fin 8192) :
    val_main_v15 (F := Ideal) x0 x1 x2 (ix2 (0 : Fin 1) j) = colTot (scoreCol x0 x1 x2 j) := by
  rw [val_main_v15_apply, val_main_cst_2_apply, Ideal.ofBits_def, Ideal.ofBits_zero_f32, zero_add]
  simp only [idx_v15, v14_at]
  rfl

theorem v17_at (j : Fin 8192) (h : Fin 1024) :
    val_main_v17 (F := Ideal) x0 x1 x2 (ix3 (0 : Fin 1) j h) = colTot (scoreCol x0 x1 x2 j) := by
  rw [val_main_v17_apply, val_main_v16_apply, idx_v17, v15_at]

theorem v18_at (j : Fin 8192) (h : Fin 1024) :
    val_main_v18 (F := Ideal) x0 x1 x2 (ix3 (0 : Fin 1) j h) = colTot (scoreCol x0 x1 x2 j) * xOf x0 j h := by
  rw [val_main_v18_apply, v17_at, Ideal.mulf_def]
  rfl

/-! ## The two results -/

/-- The reference's second result is the attention array. -/
theorem ref_attn : val_main_v14 (F := Ideal) x0 x1 x2 = attnArr x0 x1 x2 := by
  funext y
  obtain ⟨a, i, j, rfl⟩ : ∃ (a : Fin 1) (i j : Fin 8192), y = ix3 a i j := ⟨y 0, y 1, y 2, eq_ix3 y⟩
  obtain rfl : a = 0 := Subsingleton.elim _ _
  exact v14_at x0 x1 x2 i j

/-- The reference's first result is the context array. -/
theorem ref_ctx : val_main_v18 (F := Ideal) x0 x1 x2 = ctxArr x0 x1 x2 := by
  funext y
  obtain ⟨a, j, h, rfl⟩ : ∃ (a : Fin 1) (j : Fin 8192) (h : Fin 1024), y = ix3 a j h := ⟨y 0, y 1, y 2, eq_ix3 y⟩
  obtain rfl : a = 0 := Subsingleton.elim _ _
  exact v18_at x0 x1 x2 j h

end

/-- The reference's run with both results named by the specification's arrays of the launch contents of the
    arguments, and the arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v18) = Cert.Attn.ctxArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v14) = Cert.Attn.attnArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c =>
      ⟨(h c).1.trans ((val_main_v18_eq _ _ _).trans (ref_ctx _ _ _)),
       (h c).2.1.trans ((val_main_v14_eq _ _ _).trans (ref_attn _ _ _)),
       (h c).2.2⟩)
    (Cert.ReferenceIdeal.Value.run (F := Ideal) m ρ)

end Cert.ReferenceIdeal.RefValue

end
-- ==== Proof.lean ====
/-
  Additive attention with a softmax over the query axis: the Pallas kernel against its jnp reference, on the extended
  reals.

  THE CLAIM. With x = enc_out[0] (8192 × 1024) and two 1024 × 1024 weights, both programs form the query array
  tanh (x · w1ᵀ), the key array x · w2ᵀ, the scores S (i, j) = ⟨query row i, key row j⟩, the softmax of every COLUMN j
  of S over the query index i (shift by the column's maximum, exponentiate, divide by the sum), and the context rows
  x (j, ·) scaled by the total of attention column j. The reference does this on whole arrays. The kernel does it in two
  pallas_calls: the first computes the two projections block by block; the second handles 128 columns at a time and
  sweeps the 8192 rows of a column twice in 16 tiles of 512 — a first sweep keeps a running maximum (from −∞) and a
  running sum rescaled by exp (old maximum − new maximum) whenever the maximum moves, staging the raw scores in the
  output block; a second sweep multiplies each exponential, shifted by the final maximum, by the reciprocal of the
  final sum, and totals the products.

  WHY THEY AGREE. A change of float format is the identity on the extended reals and a sum's grouping does not matter,
  so the projections, the scores, the column maxima and the totals agree outright. The running sum is the whole
  column's sum because exp (a − b) · exp (c − a) = exp (c − b) — a law of the REALS: it needs every score to be a real
  number, which holds because the precondition makes every input a real (sums and products of reals, tanh of a real).
  The first tile's rescaling factor is exp (−∞ − m) = 0 against a sum that is still 0. The final sum is a real ≥ 1 (the
  maximal entry contributes exp 0), so multiplying by its reciprocal is dividing by it.

  HOW THE PROOF IS CUT. Proof/AttnSpec.lean states the mathematics (both readings of a column); Proof/AttnLaw.lean
  proves the two readings agree on a real column. Reference side: Proof/RefValue.lean reads the reference's run as the
  specification's two arrays; Proof/FiniteInputs.lean turns the precondition into "every entry is a real". Kernel
  side: Proof/PayMatmul.lean and Proof/PayTile.lean read the bodies' arithmetic at an index; Proof/SweepOne.lean,
  Proof/SweepTwo.lean and Proof/SweepBoth.lean follow the two loops trip by trip; Proof/RegionOne.lean,
  Proof/RegionTwoBlock.lean and Proof/RegionTwoArrays.lean go from blocks to arrays for the two calls;
  Proof/HostGlue.lean reads the reshape, the transposes and the trailing broadcasts; Proof/KernelRun.lean names the
  results of the run; Proof/KernelValue.lean composes them. Proof/LoopFreeIdeal.lean and Proof/LoopFreeBits.lean show
  that the loops' stores do not depend on what the output block held before the body, which the frames of the two
  kernel programs (Proof/FrameIdeal.lean, Proof/FrameBits.lean) use.
-/
import proofs.«163533_j21277267984815_2_alg».proof.Defs
import proofs.«163533_j21277267984815_2_alg».proof.Proof.Gen.Kernel
import proofs.«163533_j21277267984815_2_alg».proof.Proof.Gen.KernelIdeal
import proofs.«163533_j21277267984815_2_alg».proof.Proof.Gen.ReferenceIdeal
import proofs.«163533_j21277267984815_2_alg».proof.Proof.Gen.Pre_finite_inputs
import proofs.«163533_j21277267984815_2_alg».proof.Proof.Gen.ReferenceIdeal.Run
import proofs.«163533_j21277267984815_2_alg».proof.Proof.Gen.ReferenceIdeal.Read
import proofs.«163533_j21277267984815_2_alg».proof.Proof.FrameBits
import proofs.«163533_j21277267984815_2_alg».proof.Proof.FrameIdeal
import proofs.«163533_j21277267984815_2_alg».proof.Proof.KernelValue
import proofs.«163533_j21277267984815_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference's frame is its run with the two results dropped. -/
theorem frame_reference : Cert.frame_ReferenceIdeal := fun m ρ _ =>
  (θ_run (Cert.ReferenceIdeal.defs (F := Ideal)) _ _).mono (fun _ h c => (h c).2.2) (Cert.ReferenceIdeal.RefValue.run_spec m ρ)

/-- The ideal pass rewrote nothing: the idealization is the kernel's own text read on the extended reals. -/
theorem preserves : Cert.preserves_Kernel_KernelIdeal := trivial

/-- Both idealized programs end at the specification's context and attention arrays of the (agreeing) arguments. -/
theorem algebraic : Cert.algebraic_KernelIdeal_ReferenceIdeal := by
  intro m ρ m' ρ' hpre hagree
  refine ⟨fun c => Cert.Attn.ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Attn.attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Value.run_spec m ρ hpre, ?_⟩
  refine (θ_run (Cert.ReferenceIdeal.defs (F := Ideal)) _ _).mono (fun r h c => ?_) (Cert.ReferenceIdeal.RefValue.run_spec m' ρ')
  obtain ⟨e0, e1, e2⟩ := hagree c
  refine ⟨?_, ?_, (h c).2.2⟩
  · dsimp only
    rw [← e0, ← e1, ← e2]
    exact (h c).1
  · dsimp only
    rw [← e0, ← e1, ← e2]
    exact (h c).2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
